-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S100000x64 : Shape := ⟨2, ![100000, 64]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S576x2 : Shape := ⟨2, ![576, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000x64 : S_.BroadcastsInDim S100000x64 (![] : Fin 0 → Fin S100000x64.rank)
  reducesTo_S100000x64_S_d0_1 : S100000x64.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S576x2 : S_.BroadcastsInDim S576x2 (![] : Fin 0 → Fin S576x2.rank)
  reducesTo_S576x2_S_d0_1 : S576x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S64x512 .f32) (main_arg9 : FVec F S512 .f32) (main_arg10 : FVec F S576x2 .f32) (main_arg11 : FVec F S2 .f32) (main_v33 : IVec S_ 1) : IVec S_ 1 :=
  let main_v34 : FVec F S64x512 .f32 := Host.absf main_arg8
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S576x2 .f32 := Host.absf main_arg10
  let main_cst_16 : FVec F S_ .f32 := constant S_ .f32 0x7F800000#32
  let main_v45 : FVec F S576x2 .f32 := broadcastInDim S576x2 ![] bcast_S_S576x2 main_cst_16
  let main_v46 : IVec S576x2 1 := cmpf .olt main_v44 main_v45
  let main_c_17 : IVec S_ 1 := constantI S_ 1 1#1
  let main_v47 : IVec S_ 1 := (fun x v => Host.reduce IntOp.andi x v reducesTo_S576x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x512 .f32) (main_arg9 : FVec F S512 .f32) (main_arg10 : FVec F S576x2 .f32) (main_arg11 : FVec F S2 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x512 .f32) (main_arg1 : IVec S2x3200000 32) (main_arg2 : FVec F S3200000 .f32) (main_arg3 : FVec F S100000x64 .f32) (main_arg4 : FVec F S512x64 .f32) (main_arg5 : FVec F S64 .f32) (main_arg6 : FVec F S64x64 .f32) (main_arg7 : FVec F S64 .f32) (main_arg8 : FVec F S64x512 .f32) (main_arg9 : FVec F S512 .f32) (main_arg10 : FVec F S576x2 .f32) (main_arg11 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg5 main_arg6 main_arg7 main_arg8 main_arg9 main_arg10 main_arg11 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S100000x64 : Shape := ⟨2, ![100000, 64]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S576x2 : Shape := ⟨2, ![576, 2]⟩
abbrev S2 : Shape := ⟨1, ![2]⟩
abbrev S1x3200000 : Shape := ⟨2, ![1, 3200000]⟩
abbrev S_ : Shape := ⟨0, ![]⟩
abbrev S100000 : Shape := ⟨1, ![100000]⟩
abbrev S3300000 : Shape := ⟨1, ![3300000]⟩
abbrev S3300000x1 : Shape := ⟨2, ![3300000, 1]⟩
abbrev S1x64 : Shape := ⟨2, ![1, 64]⟩
abbrev S5000x512 : Shape := ⟨2, ![5000, 512]⟩
abbrev S5000x64 : Shape := ⟨2, ![5000, 64]⟩
abbrev S3300000x64 : Shape := ⟨2, ![3300000, 64]⟩
abbrev S1x512 : Shape := ⟨2, ![1, 512]⟩
abbrev S512x2 : Shape := ⟨2, ![512, 2]⟩
abbrev S64x2 : Shape := ⟨2, ![64, 2]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 121
  | .vmem => 27
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S100000x64, .f32⟩
  | .hbm, ⟨4, _⟩ => ⟨S512x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x512, .f32⟩
  | .hbm, ⟨9, _⟩ => ⟨S512, .f32⟩
  | .hbm, ⟨10, _⟩ => ⟨S576x2, .f32⟩
  | .hbm, ⟨11, _⟩ => ⟨S2, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .f32⟩
  | .hbm, ⟨17, _⟩ => ⟨S3200000, .f32⟩
  | .hbm, ⟨18, _⟩ => ⟨S3200000, .f32⟩
  | .hbm, ⟨19, _⟩ => ⟨S_, .f32⟩
  | .hbm, ⟨20, _⟩ => ⟨S3200000, .f32⟩
  | .hbm, ⟨21, _⟩ => ⟨S3200000, .f32⟩
  | .hbm, ⟨22, _⟩ => ⟨S100000, .i32⟩
  | .hbm, ⟨23, _⟩ => ⟨S3300000, .i32⟩
  | .hbm, ⟨24, _⟩ => ⟨S3300000, .i32⟩
  | .hbm, ⟨25, _⟩ => ⟨S_, .f32⟩
  | .hbm, ⟨26, _⟩ => ⟨S100000, .f32⟩
  | .hbm, ⟨27, _⟩ => ⟨S3300000, .f32⟩
  | .hbm, ⟨28, _⟩ => ⟨S_, .f32⟩
  | .hbm, ⟨29, _⟩ => ⟨S100000, .f32⟩
  | .hbm, ⟨30, _⟩ => ⟨S3300000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000, .f32⟩
  | .hbm, ⟨52, _⟩ => ⟨S3300000, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000, .f32⟩
  | .hbm, ⟨62, _⟩ => ⟨S3300000, .f32⟩
  | .hbm, ⟨63, _⟩ => ⟨S_, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S1x64, .f32⟩
  | .hbm, ⟨68, _⟩ => ⟨S100000x64, .f32⟩
  | .hbm, ⟨69, _⟩ => ⟨S3300000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S3300000x1, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000x64, .f32⟩
  | .hbm, ⟨103, _⟩ => ⟨S3300000x64, .f32⟩
  | .hbm, ⟨104, _⟩ => ⟨S3300000x64, .f32⟩
  | .hbm, ⟨105, _⟩ => ⟨S_, .f32⟩
  | .hbm, ⟨106, _⟩ => ⟨S100000x64, .f32⟩
  | .hbm, ⟨107, _⟩ => ⟨S3300000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S_, .f32⟩
  | .hbm, ⟨113, _⟩ => ⟨S100000x64, .f32⟩
  | .hbm, ⟨114, _⟩ => ⟨S100000x64, .f32⟩
  | .hbm, ⟨115, _⟩ => ⟨S1x512, .f32⟩
  | .hbm, ⟨116, _⟩ => ⟨S100000x512, .f32⟩
  | .hbm, ⟨117, _⟩ => ⟨S512x2, .f32⟩
  | .hbm, ⟨118, _⟩ => ⟨S64x2, .f32⟩
  | .hbm, ⟨119, _⟩ => ⟨S1x2, .f32⟩
  | .hbm, ⟨120, _⟩ => ⟨S100000x2, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x512, .f32⟩
  | .local _ .vmem, ⟨15, _⟩ => ⟨S1x512, .f32⟩
  | .local _ .vmem, ⟨16, _⟩ => ⟨S5000x512, .f32⟩
  | .local _ .vmem, ⟨17, _⟩ => ⟨S5000x512, .f32⟩
  | .local _ .vmem, ⟨18, _⟩ => ⟨S5000x512, .f32⟩
  | .local _ .vmem, ⟨19, _⟩ => ⟨S5000x512, .f32⟩
  | .local _ .vmem, ⟨20, _⟩ => ⟨S5000x64, .f32⟩
  | .local _ .vmem, ⟨21, _⟩ => ⟨S5000x64, .f32⟩
  | .local _ .vmem, ⟨22, _⟩ => ⟨S512x2, .f32⟩
  | .local _ .vmem, ⟨23, _⟩ => ⟨S64x2, .f32⟩
  | .local _ .vmem, ⟨24, _⟩ => ⟨S1x2, .f32⟩
  | .local _ .vmem, ⟨25, _⟩ => ⟨S5000x2, .f32⟩
  | .local _ .vmem, ⟨26, _⟩ => ⟨S5000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_13 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_cst : Ref sig .tc := ⟨.hbm, 88, rfl⟩
abbrev main_call1_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_14 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call2_cst : Ref sig .tc := ⟨.hbm, 112, rfl⟩
abbrev main_call2_v0 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S_S64 : S_.BroadcastsInDim S64 (![] : Fin 0 → Fin S64.rank)
  shapeCasts_S64_S1x64 : S64.ShapeCasts S1x64
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S512_S1x512 : S512.ShapeCasts S1x512
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  slices_S576x2_S512x2_0_0 : S576x2.Slices ![0, 0] S512x2
  slices_S576x2_S64x2_512_0 : S576x2.Slices ![512, 0] S64x2
  shapeCasts_S2_S1x2 : S2.ShapeCasts S1x2
  shapeCasts_S5000x512_S5000x512 : S5000x512.ShapeCasts S5000x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x64_S5000x64_1_0_0_1_n_n_wf : DotDims.WF S5000x512 S512x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x64_S64x512_S5000x512_1_0_0_1_n_n_wf : DotDims.WF S5000x64 S64x512 S5000x512 [1] [0] [0] [1] [] []
  dot_S5000x512_S512x2_S5000x2_1_0_0_1_n_n_wf : DotDims.WF S5000x512 S512x2 S5000x2 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S64x512.size a
  hwx2_1 : ∀ i : grid2.Coords, EltTy.bits .f32 = 32 ∨ (Rect.block (s := S64x512) S64x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x512.size a ≤ S100000x512.size a
  hwx2_3 : ∀ i : grid2.Coords, EltTy.bits .f32 = 32 ∨ (Rect.block (s := S100000x512) S5000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x512.size a ≤ S100000x512.size a
  hwx3_0 : ∀ i : grid3.Coords, EltTy.bits .f32 = 32 ∨ (Rect.block (s := S100000x512) S5000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x2.size a ≤ S512x2.size a
  hwx3_2 : ∀ i : grid3.Coords, EltTy.bits .f32 = 32 ∨ (Rect.block (s := S512x2) S512x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x2.size a ≤ S100000x2.size a
  hwx3_5 : ∀ i : grid3.Coords, EltTy.bits .f32 = 32 ∨ (Rect.block (s := S100000x2) S5000x2.size (cc3_transform_5 i) (hinb3_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf
def dot_S5000x512_S512x2_S5000x2_1_0_0_1_n_n : DotDims S5000x512 S512x2 S5000x2 where
  lhsContracting := [1]
  rhsContracting := [0]
  lhsNonContracting := [0]
  rhsNonContracting := [1]
  lhsBatch := []
  rhsBatch := []
  wf := dot_S5000x512_S512x2_S5000x2_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v77) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S5000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S5000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S512x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S64x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S5000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S100000x64 : Shape := ⟨2, ![100000, 64]⟩
abbrev S512x64 : Shape := ⟨2, ![512, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S576x2 : Shape := ⟨2, ![576, 2]⟩
abbrev S2 : Shape := ⟨1, ![2]⟩
abbrev S1x3200000 : Shape := ⟨2, ![1, 3200000]⟩
abbrev S_ : Shape := ⟨0, ![]⟩
abbrev S100000 : Shape := ⟨1, ![100000]⟩
abbrev S3300000 : Shape := ⟨1, ![3300000]⟩
abbrev S3300000x1 : Shape := ⟨2, ![3300000, 1]⟩
abbrev S3300000x64 : Shape := ⟨2, ![3300000, 64]⟩
abbrev S1x64 : Shape := ⟨2, ![1, 64]⟩
abbrev S1x512 : Shape := ⟨2, ![1, 512]⟩
abbrev S100000x576 : Shape := ⟨2, ![100000, 576]⟩
abbrev S100000x2 : Shape := ⟨2, ![100000, 2]⟩
abbrev S1x2 : Shape := ⟨2, ![1, 2]⟩

abbrev nBuf : Space → Nat
  | .hbm => 159
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S100000x64, .f32⟩
  | 4 => ⟨S512x64, .f32⟩
  | 5 => ⟨S64, .f32⟩
  | 6 => ⟨S64x64, .f32⟩
  | 7 => ⟨S64, .f32⟩
  | 8 => ⟨S64x512, .f32⟩
  | 9 => ⟨S512, .f32⟩
  | 10 => ⟨S576x2, .f32⟩
  | 11 => ⟨S2, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S3200000, .f32⟩
  | 19 => ⟨S_, .f32⟩
  | 20 => ⟨S3200000, .f32⟩
  | 21 => ⟨S3200000, .f32⟩
  | 22 => ⟨S100000x64, .f32⟩
  | 23 => ⟨S100000, .i32⟩
  | 24 => ⟨S3300000, .i32⟩
  | 25 => ⟨S3300000, .i32⟩
  | 26 => ⟨S_, .f32⟩
  | 27 => ⟨S100000, .f32⟩
  | 28 => ⟨S3300000, .f32⟩
  | 29 => ⟨S_, .f32⟩
  | 30 => ⟨S100000, .f32⟩
  | 31 => ⟨S3300000x1, .i32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S3300000x1, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x64, .f32⟩
  | 74 => ⟨S3300000x64, .f32⟩
  | 75 => ⟨S3300000x64, .f32⟩
  | 76 => ⟨S_, .f32⟩
  | 77 => ⟨S100000x64, .f32⟩
  | 78 => ⟨S3300000x1, .i32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S100000x64, .f32⟩
  | 87 => ⟨S100000, .i32⟩
  | 88 => ⟨S3300000, .i32⟩
  | 89 => ⟨S3300000, .i32⟩
  | 90 => ⟨S_, .f32⟩
  | 91 => ⟨S100000, .f32⟩
  | 92 => ⟨S3300000, .f32⟩
  | 93 => ⟨S_, .f32⟩
  | 94 => ⟨S100000, .f32⟩
  | 95 => ⟨S3300000x1, .i32⟩
  | 96 => ⟨S100000, .f32⟩
  | 97 => ⟨S_, .f32⟩
  | 98 => ⟨S100000, .f32⟩
  | 99 => ⟨S100000, .i1⟩
  | 100 => ⟨S_, .f32⟩
  | 101 => ⟨S100000, .f32⟩
  | 102 => ⟨S100000, .f32⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000, .f32⟩
  | 117 => ⟨S3300000, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000, .f32⟩
  | 127 => ⟨S3300000, .f32⟩
  | _ => ⟨S100000x512, .f32⟩

abbrev hbmTy0_1 (i : Nat) : BufTy := match i % 128 with
  | 0 => ⟨S3300000x1, .f32⟩
  | 1 => ⟨S_, .i32⟩
  | 2 => ⟨S3300000, .i32⟩
  | 3 => ⟨S3300000, .i1⟩
  | 4 => ⟨S_, .i32⟩
  | 5 => ⟨S3300000, .i32⟩
  | 6 => ⟨S3300000, .i32⟩
  | 7 => ⟨S3300000, .i32⟩
  | 8 => ⟨S3300000x1, .i32⟩
  | 9 => ⟨S3300000x64, .f32⟩
  | 10 => ⟨S3300000x64, .f32⟩
  | 11 => ⟨S3300000x64, .f32⟩
  | 12 => ⟨S_, .f32⟩
  | 13 => ⟨S100000x64, .f32⟩
  | 14 => ⟨S3300000x1, .i32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S100000x512, .f32⟩
  | 23 => ⟨S1x512, .f32⟩
  | 24 => ⟨S100000x512, .f32⟩
  | 25 => ⟨S100000x512, .f32⟩
  | 26 => ⟨S100000x576, .f32⟩
  | 27 => ⟨S100000x2, .f32⟩
  | 28 => ⟨S1x2, .f32⟩
  | 29 => ⟨S100000x2, .f32⟩
  | 30 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_16 : Ref sig .tc := ⟨.hbm, 104, rfl⟩
abbrev main_call2_v0 : Ref sig .tc := ⟨.hbm, 105, rfl⟩
abbrev main_call2_v1 : Ref sig .tc := ⟨.hbm, 106, rfl⟩
abbrev main_v70 : Ref sig .tc := ⟨.hbm, 107, rfl⟩
abbrev main_c_17 : Ref sig .tc := ⟨.hbm, 108, rfl⟩
abbrev main_v71 : Ref sig .tc := ⟨.hbm, 109, rfl⟩
abbrev main_v72 : Ref sig .tc := ⟨.hbm, 110, rfl⟩
abbrev main_c_18 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_19 : Ref sig .tc := ⟨.hbm, 118, rfl⟩
abbrev main_v79 : Ref sig .tc := ⟨.hbm, 119, rfl⟩
abbrev main_v80 : Ref sig .tc := ⟨.hbm, 120, rfl⟩
abbrev main_c_20 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_21 : Ref sig .tc := ⟨.hbm, 129, rfl⟩
abbrev main_v88 : Ref sig .tc := ⟨.hbm, 130, rfl⟩
abbrev main_v89 : Ref sig .tc := ⟨.hbm, 131, rfl⟩
abbrev main_c_22 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_23 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call3_cst : Ref sig .tc := ⟨.hbm, 147, rfl⟩
abbrev main_call3_v0 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  concatenates_S100000x512_S100000x64_S100000x576_d1 : Shape.Concatenates [S100000x512, S100000x64] S100000x576 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x512_S100000x512_1_0_0_1_n_n_wf : DotDims.WF S100000x64 S64x512 S100000x512 [1] [0] [0] [1] [] []
  dot_S100000x576_S576x2_S100000x2_1_0_0_1_n_n_wf : DotDims.WF S100000x576 S576x2 S100000x2 [1] [0] [0] [1] [] []

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x512_S100000x512_1_0_0_1_n_n : DotDims S100000x64 S64x512 S100000x512 where
  lhsContracting := [1]
  rhsContracting := [0]
  lhsNonContracting := [0]
  rhsNonContracting := [1]
  lhsBatch := []
  rhsBatch := []
  wf := dot_S100000x64_S64x512_S100000x512_1_0_0_1_n_n_wf
def dot_S100000x576_S576x2_S100000x2_1_0_0_1_n_n : DotDims S100000x576 S576x2 S100000x2 where
  lhsContracting := [1]
  rhsContracting := [0]
  lhsNonContracting := [0]
  rhsNonContracting := [1]
  lhsBatch := []
  rhsBatch := []
  wf := dot_S100000x576_S576x2_S100000x2_1_0_0_1_n_n_wf

class Facts : Prop extends Facts₀ where

variable [Facts]
-- ==== Proof.KernelRun.lean ====
import proofs.«144980_j6090263625952_1_alg».proof.Proof.Gen.KernelIdeal.Frame

/-!
  The kernel program's run with its RESULT array named. The frame argument — four row-tiled regions among stretches
  of host operations, every unscoped buffer carried from one boundary's contents to the next — ends with every
  unscoped buffer at the last boundary's contents; the frame claim reads the twelve arguments off that state, and this
  statement reads the result buffer off it as well: after the run the result holds the last boundary's contents at
  the result's buffer, a fold through the host stretches and the regions' written-back arrays.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the twelve argument arrays end as launched. -/
theorem run_named : θ_run defs (onTc (τ := τ) (main (F := F))) ⟨m, fun _ => 0, ρ⟩ (fun r => ∀ c : Dev nD,
      r.2.mem ((c.tc : Thread nD τ).loc main_v83) = W14 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v83 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.Gen

end
-- ==== Proof.Spec.lean ====
import proofs.«144980_j6090263625952_1_alg».proof.Proof.Gen.ReferenceIdeal

/-!
  The network as one function of its twelve argument arrays, stage by stage, written in the host's operations.

  A graph of 100000 nodes has 3200000 weighted edges (source row, target column, attribute a); every node also gets a
  loop of weight one, so there are 3300000 arcs. An arc's weight is w = 1 / (a + 1) (one for a loop); a node's degree
  is the sum of the weights of the arcs arriving at it; dinv is 1 / sqrt (max deg 1e-30) where the degree is positive
  and 0 elsewhere; an arc's coefficient is dinv(source) · w · dinv(target). One propagation layer takes node features
  h [100000, 64] and a bias b [64]: every arc carries coefficient · h(source), the carried rows are summed at the
  arc's target, the bias is added and the negative part dropped. The network is: features x times W1, a layer, times
  W2, a layer, times Wp plus bp, joined with the side features op along the columns, times Wfc plus bfc.
-/

noncomputable section

namespace Cert.Net

open Cert.ReferenceIdeal Cert.ReferenceIdeal.Gen Idealize.ShloMosaic

variable {F : FTy → Type} [FloatOps F]

/-- An array of a given shape and element type. -/
abbrev Arr (F : FTy → Type) (T : BufTy) : Type := T.Contents (Elt F)

/-- The arcs' source nodes: the edges' first row, then one loop per node. -/
def srcOf (ei : Arr F ⟨S2x3200000, .i32⟩) : Arr F ⟨S3300000, .i32⟩ :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The arcs' target nodes: the edges' second row, then one loop per node. -/
def dstOf (ei : Arr F ⟨S2x3200000, .i32⟩) : Arr F ⟨S3300000, .i32⟩ :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The arcs' weights: 1 / (a + 1) for an edge of attribute a, one for a loop. -/
def weightOf (ea : Arr F ⟨S3200000, .f32⟩) : Arr F ⟨S3300000, .f32⟩ :=
  concatenate S3300000 0 [⟨S3200000, (Host.divf (broadcastInDim S3200000 ![] bcast_S_S3200000 (constant S_ .f32 0x3F800000#32)) (addf ea (broadcastInDim S3200000 ![] bcast_S_S3200000 (constant S_ .f32 0x3F800000#32))))⟩, ⟨S100000, (broadcastInDim S100000 ![] bcast_S_S100000 (constant S_ .f32 0x3F800000#32))⟩] concatenates_S3200000_S100000_S3300000_d0

/-- A node's degree: the sum of the weights of the arcs arriving at it. -/
def degOf (ei : Arr F ⟨S2x3200000, .i32⟩) (ea : Arr F ⟨S3200000, .f32⟩) : Arr F ⟨S100000, .f32⟩ :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstOf ei)) (weightOf ea)

/-- 1 / sqrt (max deg 1e-30) where the degree is positive, zero elsewhere. -/
def dinvOf (ei : Arr F ⟨S2x3200000, .i32⟩) (ea : Arr F ⟨S3200000, .f32⟩) : Arr F ⟨S100000, .f32⟩ :=
  select (cmpf .ogt (degOf ei ea) (broadcastInDim S100000 ![] bcast_S_S100000 (constant S_ .f32 0x00000000#32))) (Host.rsqrt (maximumf (degOf ei ea) (broadcastInDim S100000 ![] bcast_S_S100000 (constant S_ .f32 0x0DA24260#32)))) (broadcastInDim S100000 ![] bcast_S_S100000 (id (constant S_ .f32 0x00000000#32)))

/-- Node numbers as a column of look-up positions, a negative number counted from the end. -/
def lookup (i : Arr F ⟨S3300000, .i32⟩) : Arr F ⟨S3300000x1, .i32⟩ :=
  broadcastInDim S3300000x1 ![0] bcast_S3300000_S3300000x1_0 (select (cmpi .slt i (broadcastInDim S3300000 ![] bcast_S_S3300000 (constantI S_ 32 0#32))) (addi i (broadcastInDim S3300000 ![] bcast_S_S3300000 (constantI S_ 32 100000#32))) i)

/-- An arc's coefficient: dinv(source) · w · dinv(target). -/
def coefOf (ei : Arr F ⟨S2x3200000, .i32⟩) (ea : Arr F ⟨S3200000, .f32⟩) : Arr F ⟨S3300000, .f32⟩ :=
  mulf (mulf (Host.gather gather_S100000_S3300000x1_S3300000_n_0_n_n_0_1_1 (dinvOf ei ea) (lookup (srcOf ei))) (weightOf ea)) (Host.gather gather_S100000_S3300000x1_S3300000_n_0_n_n_0_1_1 (dinvOf ei ea) (lookup (dstOf ei)))

/-- A layer before the negative part is dropped: coefficient-weighted source rows summed at each arc's target, plus
    the bias b on every row. -/
def preact (h : Arr F ⟨S100000x64, .f32⟩) (b : Arr F ⟨S64, .f32⟩) (ei : Arr F ⟨S2x3200000, .i32⟩) (ea : Arr F ⟨S3200000, .f32⟩) : Arr F ⟨S100000x64, .f32⟩ :=
  addf (Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 (dstOf ei)) (mulf (broadcastInDim S3300000x64 ![0, 1] bcast_S3300000x1_S3300000x64_0_1 (broadcastInDim S3300000x1 ![0] bcast_S3300000_S3300000x1_0 (coefOf ei ea))) (Host.gather gather_S100000x64_S3300000x1_S3300000x64_1_0_n_n_0_1_164 h (lookup (srcOf ei))))) (broadcastInDim S100000x64 ![0, 1] bcast_S1x64_S100000x64_0_1 (broadcastInDim S1x64 ![1] bcast_S64_S1x64_1 b))

/-- One propagation layer on node features h with bias b: the negative part of the above dropped. -/
def layer (h : Arr F ⟨S100000x64, .f32⟩) (b : Arr F ⟨S64, .f32⟩) (ei : Arr F ⟨S2x3200000, .i32⟩) (ea : Arr F ⟨S3200000, .f32⟩) : Arr F ⟨S100000x64, .f32⟩ :=
  maximumf (preact h b ei ea) (broadcastInDim S100000x64 ![] bcast_S_S100000x64 (constant S_ .f32 0x00000000#32))

/-- The embedding h · Wp + bp. -/
def embed (h : Arr F ⟨S100000x64, .f32⟩) (Wp : Arr F ⟨S64x512, .f32⟩) (bp : Arr F ⟨S512, .f32⟩) : Arr F ⟨S100000x512, .f32⟩ :=
  addf (Host.dotGeneral dot_S100000x64_S64x512_S100000x512_1_0_0_1_n_n none h Wp) (broadcastInDim S100000x512 ![0, 1] bcast_S1x512_S100000x512_0_1 (broadcastInDim S1x512 ![1] bcast_S512_S1x512_1 bp))

/-- The head: the embedding joined with the side features along the columns, times Wfc, plus bfc. -/
def head (e : Arr F ⟨S100000x512, .f32⟩) (op : Arr F ⟨S100000x64, .f32⟩) (Wfc : Arr F ⟨S576x2, .f32⟩) (bfc : Arr F ⟨S2, .f32⟩) : Arr F ⟨S100000x2, .f32⟩ :=
  addf (Host.dotGeneral dot_S100000x576_S576x2_S100000x2_1_0_0_1_n_n none (concatenate S100000x576 1 [⟨S100000x512, e⟩, ⟨S100000x64, op⟩] concatenates_S100000x512_S100000x64_S100000x576_d1) Wfc) (broadcastInDim S100000x2 ![0, 1] bcast_S1x2_S100000x2_0_1 (broadcastInDim S1x2 ![1] bcast_S2_S1x2_1 bfc))

/-- The first layer's output. -/
def hidden1 (x : Arr F ⟨S100000x512, .f32⟩) (ei : Arr F ⟨S2x3200000, .i32⟩) (ea : Arr F ⟨S3200000, .f32⟩) (W1 : Arr F ⟨S512x64, .f32⟩) (b1 : Arr F ⟨S64, .f32⟩) : Arr F ⟨S100000x64, .f32⟩ :=
  layer (Host.dotGeneral dot_S100000x512_S512x64_S100000x64_1_0_0_1_n_n none x W1) b1 ei ea

/-- The second layer's output. -/
def hidden2 (x : Arr F ⟨S100000x512, .f32⟩) (ei : Arr F ⟨S2x3200000, .i32⟩) (ea : Arr F ⟨S3200000, .f32⟩) (W1 : Arr F ⟨S512x64, .f32⟩) (b1 : Arr F ⟨S64, .f32⟩)
    (W2 : Arr F ⟨S64x64, .f32⟩) (b2 : Arr F ⟨S64, .f32⟩) : Arr F ⟨S100000x64, .f32⟩ :=
  layer (Host.dotGeneral dot_S100000x64_S64x64_S100000x64_1_0_0_1_n_n none (hidden1 x ei ea W1 b1) W2) b2 ei ea

/-- The whole network. -/
def net (x : Arr F ⟨S100000x512, .f32⟩) (ei : Arr F ⟨S2x3200000, .i32⟩) (ea : Arr F ⟨S3200000, .f32⟩) (op : Arr F ⟨S100000x64, .f32⟩)
    (W1 : Arr F ⟨S512x64, .f32⟩) (b1 : Arr F ⟨S64, .f32⟩) (W2 : Arr F ⟨S64x64, .f32⟩) (b2 : Arr F ⟨S64, .f32⟩) (Wp : Arr F ⟨S64x512, .f32⟩) (bp : Arr F ⟨S512, .f32⟩)
    (Wfc : Arr F ⟨S576x2, .f32⟩) (bfc : Arr F ⟨S2, .f32⟩) : Arr F ⟨S100000x2, .f32⟩ :=
  head (embed (hidden2 x ei ea W1 b1 W2 b2) Wp bp) op Wfc bfc

end Cert.Net

end
-- ==== Proof.LibJoinFold.lean ====
/-
  Reading what one buffer holds after a straight line of host operations, when the line joins arrays.

  Joining two arrays along an axis takes its pieces as a list of (shape, array) pairs, and the side condition it carries —
  that the pieces' extents add up to the result's along the joined axis and agree elsewhere — is stated about that
  list. A rewriting pass that evaluates a line of operations one buffer at a time therefore stops at a join: it cannot
  rewrite a piece without restating the side condition. The side condition only concerns the pieces' SHAPES, so a join of
  two pieces is the same function with the two arrays as plain arguments and the condition stated about the two shapes
  alone (join2, concatenate_two); in that form the pass goes on into the pieces.

  fold_results is the evaluation of a line's fold at one buffer — each operation's result at its own buffer is its
  function of its operands' contents, and at any other buffer what was there — with that restatement added, so that a
  line with joins is read down to the contents it started from.
-/
import Idealize.ShloMosaic.Lib.StableHlo.Run

namespace Idealize.ShloMosaic.JoinFold

open Idealize.ShloMosaic Idealize.ShloMosaic.StableHlo

/-- Two arrays joined along axis `a` of the result shape `t`, the pieces as plain arguments. -/
def join2 {α : Type} (t : Shape) (a : Fin t.rank) (s1 s2 : Shape) (x1 : s1.Idx → α) (x2 : s2.Idx → α)
    (h : Shape.Concatenates [s1, s2] t a) : t.Idx → α :=
  concatenate t a [⟨s1, x1⟩, ⟨s2, x2⟩] h

/-- A join of two pieces is that function of the two arrays. -/
theorem concatenate_two {α : Type} (t : Shape) (a : Fin t.rank) (s1 s2 : Shape) (x1 : s1.Idx → α) (x2 : s2.Idx → α)
    (h : Shape.Concatenates [s1, s2] t a) :
    concatenate t a [⟨s1, x1⟩, ⟨s2, x2⟩] h = join2 t a s1 s2 x1 x2 h := rfl

/-- What one buffer holds after a line of operations, read down to the contents the line started from, two-piece joins
    included. Extra rewriting rules (the contents at a boundary the line starts from) are passed in brackets. -/
syntax "fold_results" (" [" Lean.Parser.Tactic.simpLemma,* "]")? : tactic
macro_rules
  | `(tactic| fold_results) =>
    `(tactic| (simp (disch := decide) only [after_cons, after_nil, concatenate_two,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))
  | `(tactic| fold_results [$ls,*]) =>
    `(tactic| (simp (disch := decide) only [after_cons, after_nil, concatenate_two,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $ls,*]))

end Idealize.ShloMosaic.JoinFold
-- ==== Proof.LibHostLine.lean ====
/-
  Two facts about a straight line of host operations run over a memory, for a program whose entry function calls a
  function of its own or joins arrays.

  Running one line after another is running their concatenation (after_append): so a long line can be cut where a
  later operation's operands sit inside a structure a rewriting pass does not enter — the operand list of a join —, the
  first part evaluated once, and the rest run over the memory the first part leaves, named and never opened.

  The operations of a called function are stated over references that carry the type of the value they hold; such a
  reference moves contents between "contents of its buffer" and "contents at the value's type" along the equation of the
  two types. There and back is the identity (ofBuf_toBuf, toBuf_ofBuf): what one operation of the function writes and
  the next one reads is the value itself.
-/
import Idealize.ShloMosaic.Lib.StableHlo.Run

namespace Cert.Lib.HostLine

open Idealize.ShloMosaic Idealize.ShloMosaic.StableHlo

variable {τ : Topo} {sig : RefSig} {Val : EltTy → Type}

/-- Running one line after another is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents at the value's type, moved to the buffer's type and back, are the contents. -/
theorem ofBuf_toBuf {T : BufTy} (x : TRef sig T) (v : T.Contents Val) : x.ofBuf (x.toBuf v) = v := by
  obtain ⟨r, h, h1, h2⟩ := x
  subst h
  rfl

/-- Contents of the buffer, moved to the value's type and back, are the contents. -/
theorem toBuf_ofBuf {T : BufTy} (x : TRef sig T) (v : x.ref.ty.Contents Val) : x.toBuf (x.ofBuf v) = v := by
  obtain ⟨r, h, h1, h2⟩ := x
  subst h
  rfl

end Cert.Lib.HostLine
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«144980_j6090263625952_1_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.LibRowBlock.lean ====
/-
  Rows t·R, …, t·R + R − 1 of a [B, n] array form an [R, n] array. A program that works on each row by itself —
  entrywise arithmetic, a bias row added to every row, a matrix product with a fixed right factor, a run of columns
  cut out, arrays joined along their columns — produces, from those R rows, the same R rows of what it produces from
  the whole array. This file states that fact one operation at a time, on the extended reals, with the whole-array
  side written in the host's operations and the R-row side in the vector unit's, so that a kernel working through an
  array R rows at a time can be compared with a program working on the whole array at once.
  "IsRows t x' x" says: x' is rows t·R … t·R + R − 1 of x. The float formats of the two sides are free (on the
  extended reals a change of format is the identity), so a cast on one side needs no lemma of its own.
-/
import proofs.«144980_j6090263625952_1_alg».proof.Proof.LibPlainProduct
import Idealize.ShloMosaic.Lib.Pipeline.Value
import Idealize.ShloMosaic.Lib.ValueLayout
import Idealize.ShloMosaic.Lib.IdealHost

noncomputable section

open scoped BigOperators

namespace Idealize.ShloMosaic.RowBlock

open Idealize.ShloMosaic Idealize.ShloMosaic.ValueIdx

variable {B R : ℕ}

/-- Row p of the t-th group of R rows, as a row of the whole array. -/
abbrev row (t : ℕ) (h : t * R + R ≤ B) (p : Fin R) : Fin B := ⟨t * R + p.val, by have := p.isLt; omega⟩

/-- x' is rows t·R … t·R + R − 1 of x. -/
def IsRows {n : ℕ} (t : ℕ) (h : t * R + R ≤ B) (x' : (⟨2, ![R, n]⟩ : Shape).Idx → EReal)
    (x : (⟨2, ![B, n]⟩ : Shape).Idx → EReal) : Prop :=
  ∀ (p : Fin R) (q : Fin n), x' (ix2 p q) = x (ix2 (row t h p) q)

variable {t : ℕ} {h : t * R + R ≤ B}

/-- The rows themselves, as an array. -/
def rows {n : ℕ} (t : ℕ) (h : t * R + R ≤ B) (x : (⟨2, ![B, n]⟩ : Shape).Idx → EReal) :
    (⟨2, ![R, n]⟩ : Shape).Idx → EReal :=
  fun j => x (ix2 (row t h ⟨(j 0).val, idx2_lt0 j⟩) ⟨(j 1).val, idx2_lt1 j⟩)

theorem isRows_rows {n : ℕ} (x : (⟨2, ![B, n]⟩ : Shape).Idx → EReal) : IsRows t h (rows t h x) x :=
  fun _ _ => rfl

theorem IsRows.eq_rows {n : ℕ} {x' : (⟨2, ![R, n]⟩ : Shape).Idx → EReal} {x : (⟨2, ![B, n]⟩ : Shape).Idx → EReal}
    (hx : IsRows t h x' x) : x' = rows t h x := by
  funext j
  obtain ⟨p, q, rfl⟩ : ∃ (p : Fin R) (q : Fin n), j = ix2 p q := ⟨j 0, j 1, eq_ix2 j⟩
  exact hx p q

/-- A cast of the R rows to their own shape changes nothing. -/
theorem IsRows.castSelf {n : ℕ} {x' : (⟨2, ![R, n]⟩ : Shape).Idx → EReal} {x : (⟨2, ![B, n]⟩ : Shape).Idx → EReal}
    (hc : (⟨2, ![R, n]⟩ : Shape).ShapeCasts ⟨2, ![R, n]⟩) (hx : IsRows t h x' x) :
    IsRows t h (shapeCast ⟨2, ![R, n]⟩ x' hc) x := by
  rw [shapeCast_self]; exact hx

/-- A weight matrix cast to its own shape still agrees entry by entry. -/
theorem castSelf_entries {K N : ℕ} {w' w : (⟨2, ![K, N]⟩ : Shape).Idx → EReal}
    (hc : (⟨2, ![K, N]⟩ : Shape).ShapeCasts ⟨2, ![K, N]⟩) (hw : ∀ (k : Fin K) (q : Fin N), w' (ix2 k q) = w (ix2 k q)) :
    ∀ (k : Fin K) (q : Fin N), shapeCast ⟨2, ![K, N]⟩ w' hc (ix2 k q) = w (ix2 k q) := by
  rw [shapeCast_self]; exact hw

/-! ## Entrywise operations -/

section Entrywise

variable {n : ℕ} {φ φ' : FTy}
variable {a' b' : FVec Ideal ⟨2, ![R, n]⟩ φ'} {a b : FVec Ideal ⟨2, ![B, n]⟩ φ}

theorem IsRows.addf (ha : IsRows t h a' a) (hb : IsRows t h b' b) : IsRows t h (addf a' b') (addf a b) :=
  fun p q => congrArg₂ (· + ·) (ha p q) (hb p q)

theorem IsRows.subf (ha : IsRows t h a' a) (hb : IsRows t h b' b) : IsRows t h (subf a' b') (subf a b) :=
  fun p q => congrArg₂ (· - ·) (ha p q) (hb p q)

theorem IsRows.mulf (ha : IsRows t h a' a) (hb : IsRows t h b' b) : IsRows t h (mulf a' b') (mulf a b) :=
  fun p q => congrArg₂ (· * ·) (ha p q) (hb p q)

theorem IsRows.maximumf (ha : IsRows t h a' a) (hb : IsRows t h b' b) : IsRows t h (maximumf a' b') (maximumf a b) :=
  fun p q => congrArg₂ max (ha p q) (hb p q)

/-- A change of float format on the R-row side only. -/
theorem IsRows.truncf {ψ : FTy} {x : (⟨2, ![B, n]⟩ : Shape).Idx → EReal} (hψ : ψ.bits < φ'.bits) (ha : IsRows t h a' x) :
    IsRows t h (truncf ψ a' hψ) x :=
  fun p q => ha p q

/-- The vector unit's cosine against the host's. -/
theorem IsRows.cos (ha : IsRows t h a' a) : IsRows t h (cos a') (Host.cos a) :=
  fun p q => congrArg Ideal.cos (ha p q)

/-- The vector unit's hyperbolic tangent against the host's. -/
theorem IsRows.tanh (ha : IsRows t h a' a) : IsRows t h (tanh a') (Host.tanh a) :=
  fun p q => congrArg Ideal.tanh (ha p q)

/-- The logistic function against 1 / (1 + exp (−x)) spelt out in the host's operations: on the extended reals the
    logistic function is that quotient by definition, its values at −∞ and +∞ included. -/
theorem IsRows.logistic {one₁ one₂ : FVec Ideal ⟨2, ![B, n]⟩ φ} (h₁ : ∀ i, one₁ i = 1) (h₂ : ∀ i, one₂ i = 1)
    (ha : IsRows t h a' a) :
    IsRows t h (logistic a') (Host.divf one₁ (Idealize.ShloMosaic.addf one₂ (Host.exp (Host.negf a)))) := by
  intro p q
  show Ideal.logistic (a' (ix2 p q)) = Ideal.div (one₁ _) (one₂ _ + Ideal.exp (-(a _)))
  rw [h₁, h₂, ha p q]
  rfl

end Entrywise

/-! ## Constants and broadcasts -/

section Broadcasts

variable {n : ℕ}

/-- A scalar constant spread over the whole array against the same scalar spread over R rows. -/
theorem IsRows.const {φ : FTy} (c : BitVec φ.bits) (hb : (⟨0, ![]⟩ : Shape).BroadcastsInDim ⟨2, ![B, n]⟩ ![]) :
    IsRows t h (broadcast ⟨2, ![R, n]⟩ (Scalar.ofBits (F := Ideal) φ c))
      (broadcastInDim ⟨2, ![B, n]⟩ ![] hb (constant (F := Ideal) ⟨0, ![]⟩ φ c)) := by
  intro p q
  exact (broadcastInDim_apply ![] hb (constant (F := Ideal) ⟨0, ![]⟩ φ c) (ix2 (row t h p) q) ix0 (fun a => a.elim0)).symm

/-- The value of such a constant at any entry. -/
theorem const_apply {φ : FTy} (c : BitVec φ.bits) (hb : (⟨0, ![]⟩ : Shape).BroadcastsInDim ⟨2, ![B, n]⟩ ![])
    (i : (⟨2, ![B, n]⟩ : Shape).Idx) :
    broadcastInDim ⟨2, ![B, n]⟩ ![] hb (constant (F := Ideal) ⟨0, ![]⟩ φ c) i = Ideal.ofBits φ c :=
  broadcastInDim_apply ![] hb (constant (F := Ideal) ⟨0, ![]⟩ φ c) i ix0 (fun a => a.elim0)

/-- One row [1, n] repeated down the whole array (the host's way) against the same row repeated down R rows (the
    vector unit's way). -/
theorem IsRows.rowBroadcast (w : (⟨2, ![1, n]⟩ : Shape).Idx → EReal)
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ w hR) (broadcastInDim ⟨2, ![B, n]⟩ ![0, 1] hB w) := by
  intro p q
  rw [broadcastTo_1b_ab_apply w hR p q]
  refine (broadcastInDim_apply ![0, 1] hB w (ix2 (row t h p) q) (ix2 (0 : Fin 1) q) fun ax => ?_).symm
  match ax with
  | ⟨0, _⟩ => rfl
  | ⟨1, _⟩ =>
    show q.val = if n = 1 then 0 else q.val
    split
    · have := q.isLt; omega
    · rfl

/-- A vector [n] made a row [1, n]: by a cast (the vector unit's way) or by a broadcast along the new axis (the
    host's way), the same row. -/
theorem rowOfVector (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext j
  obtain ⟨u, q, rfl⟩ : ∃ (u : Fin 1) (q : Fin n), j = ix2 u q := ⟨j 0, j 1, eq_ix2 j⟩
  rw [shapeCast_a_1a_apply v hc u q]
  refine (broadcastInDim_apply ![1] hb v (ix2 u q) (ix1 q) fun ax => ?_).symm
  match ax with
  | ⟨0, _⟩ =>
    show q.val = if n = 1 then 0 else q.val
    split
    · have := q.isLt; omega
    · rfl

/-- A bias vector [n] added to every row: made a row and repeated down the whole array by two host broadcasts, against
    cast to a row and repeated down R rows by the vector unit. -/
theorem IsRows.bias (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1])
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ (shapeCast ⟨2, ![1, n]⟩ v hc) hR)
      (broadcastInDim ⟨2, ![B, n]⟩ ![0, 1] hB (broadcastInDim ⟨2, ![1, n]⟩ ![1] hb v)) := by
  rw [rowOfVector v hc hb]
  exact IsRows.rowBroadcast _ hB hR

/-- One column [B, 1] repeated across n columns (the host's way) against its R rows repeated across n columns (the
    vector unit's way). -/
theorem IsRows.colBroadcast {y' : (⟨2, ![R, 1]⟩ : Shape).Idx → EReal} {y : (⟨2, ![B, 1]⟩ : Shape).Idx → EReal}
    (hy : IsRows t h y' y)
    (hB : (⟨2, ![B, 1]⟩ : Shape).BroadcastsInDim ⟨2, ![B, n]⟩ ![0, 1])
    (hR : (⟨2, ![R, 1]⟩ : Shape).Broadcasts ⟨2, ![R, n]⟩) :
    IsRows t h (broadcastTo ⟨2, ![R, n]⟩ y' hR) (broadcastInDim ⟨2, ![B, n]⟩ ![0, 1] hB y) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  have e2 : broadcastInDim ⟨2, ![B, n]⟩ ![0, 1] hB y (ix2 (row t h p) q) = y (ix2 (row t h p) (0 : Fin 1)) := by
    refine broadcastInDim_apply ![0, 1] hB y (ix2 (row t h p) q) (ix2 (row t h p) (0 : Fin 1)) fun ax => ?_
    match ax with
    | ⟨0, _⟩ =>
      show t * R + p.val = if B = 1 then 0 else t * R + p.val
      split
      · have := p.isLt; omega
      · rfl
    | ⟨1, _⟩ => rfl
  rw [e1, e2]
  exact hy p 0

end Broadcasts

/-! ## A matrix product with a fixed right factor -/

/-- The plain product [B, K] × [K, N] on the host against the matrix unit's product of the R rows with the same right
    factor into a zero accumulator: entry (p, q) of either is the sum over k of (row's entry k) · w(k, q). -/
theorem IsRows.dot {K N : ℕ} {φ₁ φ₂ φ₁' φ₂' : FTy}
    {l' : FVec Ideal ⟨2, ![R, K]⟩ φ₁'} {l : FVec Ideal ⟨2, ![B, K]⟩ φ₁}
    {w' : FVec Ideal ⟨2, ![K, N]⟩ φ₂'} {w : FVec Ideal ⟨2, ![K, N]⟩ φ₂}
    (hl : IsRows t h l' l) (hw : ∀ (k : Fin K) (q : Fin N), w' (ix2 k q) = w (ix2 k q)) :
    IsRows t h (matmul (DotDims.plain R K N) none l' w' (constant ⟨2, ![R, N]⟩ .f32 0x00000000#32))
      (Host.dotGeneral (DotDims.plain B K N) none l w) := by
  intro p q
  rw [PlainProduct.matmul_zero_at R K N l' w' p q, PlainProduct.dotGeneral_at B K N l w (row t h p) q]
  exact Finset.sum_congr rfl fun k _ => congrArg₂ (· * ·) (hl p k) (hw k q)

/-! ## Columns cut out and arrays joined along their columns -/

/-- Columns o … o + m − 1 cut out of the whole array against the same columns cut out of the R rows. -/
theorem IsRows.slice {n m : ℕ} (o : ℕ) {x' : (⟨2, ![R, n]⟩ : Shape).Idx → EReal} {x : (⟨2, ![B, n]⟩ : Shape).Idx → EReal}
    (hx : IsRows t h x' x)
    (hB : (⟨2, ![B, n]⟩ : Shape).Slices ![0, o] ⟨2, ![B, m]⟩) (hR : (⟨2, ![R, n]⟩ : Shape).Slices ![0, o] ⟨2, ![R, m]⟩)
    (hom : o + m ≤ n) :
    IsRows t h (extractStridedSlice ⟨2, ![R, m]⟩ ![0, o] x' hR) (extractStridedSlice ⟨2, ![B, m]⟩ ![0, o] x hB) := by
  intro p q
  have hk : o + q.val < n := by have := q.isLt; omega
  rw [slice2_axis1_apply o x' hR p q ⟨o + q.val, hk⟩ rfl,
    slice2_axis1_apply o x hB (row t h p) q ⟨o + q.val, hk⟩ rfl]
  exact hx p ⟨o + q.val, hk⟩

/-! ### Arrays of rows joined along their columns, read at an entry -/

section Joined

variable {α : Type}

private theorem off_axis {a m N : ℕ} (r : Fin a) (c : Fin N) (c' : Fin m)
    (b : Fin (⟨2, ![a, m]⟩ : Shape).rank) (hb : b.cast (rfl : (⟨2, ![a, m]⟩ : Shape).rank = (⟨2, ![a, N]⟩ : Shape).rank) ≠ 1) :
    ((ix2 r c' : (⟨2, ![a, m]⟩ : Shape).Idx) b).val = ((ix2 r c : (⟨2, ![a, N]⟩ : Shape).Idx) (b.cast rfl)).val := by
  match b with
  | ⟨0, _⟩ => rfl
  | ⟨1, _⟩ => exact absurd rfl hb

variable {a n₁ n₂ n₃ n₄ N : ℕ}

/-- Four arrays joined: a column in the first stretch. -/
theorem joined4_first (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₁ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    0 (by show (0 : ℕ) < 4; omega) ⟨2, ![a, n₁]⟩ x₁ rfl rfl 0 rfl (ix2 r c') (off_axis r c c')
    (by show 0 + c'.val = c.val; omega)

/-- Four arrays joined: a column in the second stretch. -/
theorem joined4_second (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₂ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    1 (by show (1 : ℕ) < 4; omega) ⟨2, ![a, n₂]⟩ x₂ rfl rfl (n₁ + 0) rfl (ix2 r c') (off_axis r c c')
    (by show n₁ + 0 + c'.val = c.val; omega)

/-- Four arrays joined: a column in the third stretch. -/
theorem joined4_third (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₃) (e : n₁ + n₂ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₃ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    2 (by show (2 : ℕ) < 4; omega) ⟨2, ![a, n₃]⟩ x₃ rfl rfl (n₁ + (n₂ + 0)) rfl (ix2 r c') (off_axis r c c')
    (by show n₁ + (n₂ + 0) + c'.val = c.val; omega)

/-- Four arrays joined: a column in the fourth stretch. -/
theorem joined4_fourth (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₄) (e : n₁ + n₂ + n₃ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₄ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    3 (by show (3 : ℕ) < 4; omega) ⟨2, ![a, n₄]⟩ x₄ rfl rfl (n₁ + (n₂ + (n₃ + 0))) rfl (ix2 r c') (off_axis r c c')
    (by show n₁ + (n₂ + (n₃ + 0)) + c'.val = c.val; omega)

/-- Two arrays joined: a column in the first stretch. -/
theorem joined2_first (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩] hc (ix2 r c) = x₁ (ix2 r c') :=
  concatenate_apply_piece 1 [⟨⟨2, ![a, n₁]⟩, x₁⟩, ⟨⟨2, ![a, n₂]⟩, x₂⟩] hc (ix2 r c)
    0 (by show (0 : ℕ) < 2; omega) ⟨2, ![a, n₁]⟩ x₁ rfl rfl 0 rfl (ix2 r c') (off_axis r c c')
    (by show 0 + c'.val = c.val; omega)

/-- Two arrays joined: a column in the second stretch. -/
theorem joined2_second (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩] hc (ix2 r c) = x₂ (ix2 r c') :=
  concatenate_apply_piece 1 [⟨⟨2, ![a, n₁]⟩, x₁⟩, ⟨⟨2, ![a, n₂]⟩, x₂⟩] hc (ix2 r c)
    1 (by show (1 : ℕ) < 2; omega) ⟨2, ![a, n₂]⟩ x₂ rfl rfl (n₁ + 0) rfl (ix2 r c') (off_axis r c c')
    (by show n₁ + 0 + c'.val = c.val; omega)

end Joined

/-- Four arrays joined along their columns: the R rows of the joined array are the join of the R rows of each. -/
theorem IsRows.joined4 {n₁ n₂ n₃ n₄ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    {x₃' : (⟨2, ![R, n₃]⟩ : Shape).Idx → EReal} {x₃ : (⟨2, ![B, n₃]⟩ : Shape).Idx → EReal}
    {x₄' : (⟨2, ![R, n₄]⟩ : Shape).Idx → EReal} {x₄ : (⟨2, ![B, n₄]⟩ : Shape).Idx → EReal}
    (h₁ : IsRows t h x₁' x₁) (h₂ : IsRows t h x₂' x₂) (h₃ : IsRows t h x₃' x₃) (h₄ : IsRows t h x₄' x₄)
    (hN : n₁ + n₂ + n₃ + n₄ = N)
    (hR : Shape.Concatenates [⟨2, ![R, n₁]⟩, ⟨2, ![R, n₂]⟩, ⟨2, ![R, n₃]⟩, ⟨2, ![R, n₄]⟩] ⟨2, ![R, N]⟩ 1)
    (hB : Shape.Concatenates [⟨2, ![B, n₁]⟩, ⟨2, ![B, n₂]⟩, ⟨2, ![B, n₃]⟩, ⟨2, ![B, n₄]⟩] ⟨2, ![B, N]⟩ 1) :
    IsRows t h
      (concatenate ⟨2, ![R, N]⟩ 1 [⟨⟨2, ![R, n₁]⟩, x₁'⟩, ⟨⟨2, ![R, n₂]⟩, x₂'⟩, ⟨⟨2, ![R, n₃]⟩, x₃'⟩, ⟨⟨2, ![R, n₄]⟩, x₄'⟩] hR)
      (concatenate ⟨2, ![B, N]⟩ 1 [⟨⟨2, ![B, n₁]⟩, x₁⟩, ⟨⟨2, ![B, n₂]⟩, x₂⟩, ⟨⟨2, ![B, n₃]⟩, x₃⟩, ⟨⟨2, ![B, n₄]⟩, x₄⟩] hB) := by
  intro p q
  have hq := q.isLt
  by_cases c₁ : q.val < n₁
  · rw [joined4_first x₁' x₂' x₃' x₄' hR p q ⟨q.val, c₁⟩ rfl, joined4_first x₁ x₂ x₃ x₄ hB (row t h p) q ⟨q.val, c₁⟩ rfl]
    exact h₁ p _
  · by_cases c₂ : q.val < n₁ + n₂
    · have k : q.val - n₁ < n₂ := by omega
      rw [joined4_second x₁' x₂' x₃' x₄' hR p q ⟨q.val - n₁, k⟩ (by show n₁ + (q.val - n₁) = q.val; omega),
        joined4_second x₁ x₂ x₃ x₄ hB (row t h p) q ⟨q.val - n₁, k⟩ (by show n₁ + (q.val - n₁) = q.val; omega)]
      exact h₂ p _
    · by_cases c₃ : q.val < n₁ + n₂ + n₃
      · have k : q.val - (n₁ + n₂) < n₃ := by omega
        rw [joined4_third x₁' x₂' x₃' x₄' hR p q ⟨q.val - (n₁ + n₂), k⟩ (by show n₁ + n₂ + (q.val - (n₁ + n₂)) = q.val; omega),
          joined4_third x₁ x₂ x₃ x₄ hB (row t h p) q ⟨q.val - (n₁ + n₂), k⟩ (by show n₁ + n₂ + (q.val - (n₁ + n₂)) = q.val; omega)]
        exact h₃ p _
      · have k : q.val - (n₁ + n₂ + n₃) < n₄ := by omega
        rw [joined4_fourth x₁' x₂' x₃' x₄' hR p q ⟨q.val - (n₁ + n₂ + n₃), k⟩ (by show n₁ + n₂ + n₃ + (q.val - (n₁ + n₂ + n₃)) = q.val; omega),
          joined4_fourth x₁ x₂ x₃ x₄ hB (row t h p) q ⟨q.val - (n₁ + n₂ + n₃), k⟩ (by show n₁ + n₂ + n₃ + (q.val - (n₁ + n₂ + n₃)) = q.val; omega)]
        exact h₄ p _

/-- Two arrays joined along their columns: the R rows of the joined array are the join of the R rows of each. -/
theorem IsRows.joined2 {n₁ n₂ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    (h₁ : IsRows t h x₁' x₁) (h₂ : IsRows t h x₂' x₂) (hN : n₁ + n₂ = N)
    (hR : Shape.Concatenates [⟨2, ![R, n₁]⟩, ⟨2, ![R, n₂]⟩] ⟨2, ![R, N]⟩ 1)
    (hB : Shape.Concatenates [⟨2, ![B, n₁]⟩, ⟨2, ![B, n₂]⟩] ⟨2, ![B, N]⟩ 1) :
    IsRows t h (concatenate ⟨2, ![R, N]⟩ 1 [⟨⟨2, ![R, n₁]⟩, x₁'⟩, ⟨⟨2, ![R, n₂]⟩, x₂'⟩] hR)
      (concatenate ⟨2, ![B, N]⟩ 1 [⟨⟨2, ![B, n₁]⟩, x₁⟩, ⟨⟨2, ![B, n₂]⟩, x₂⟩] hB) := by
  intro p q
  have hq := q.isLt
  by_cases c₁ : q.val < n₁
  · rw [joined2_first x₁' x₂' hR p q ⟨q.val, c₁⟩ rfl, joined2_first x₁ x₂ hB (row t h p) q ⟨q.val, c₁⟩ rfl]
    exact h₁ p _
  · have k : q.val - n₁ < n₂ := by omega
    rw [joined2_second x₁' x₂' hR p q ⟨q.val - n₁, k⟩ (by show n₁ + (q.val - n₁) = q.val; omega),
      joined2_second x₁ x₂ hB (row t h p) q ⟨q.val - n₁, k⟩ (by show n₁ + (q.val - n₁) = q.val; omega)]
    exact h₂ p _

/-! ## Two arrays as the two slabs of a rank-3 array -/

section Slabs

variable {α : Type} {a n : ℕ}

/-- Two [a, n] arrays as the two slabs of a [2, a, n] array. -/
def slabs (f g : (⟨2, ![a, n]⟩ : Shape).Idx → α) : (⟨3, ![2, a, n]⟩ : Shape).Idx → α :=
  fun y => if (y 0).val = 0 then f (ix2 (⟨(y 1).val, (y 1).isLt⟩ : Fin a) (⟨(y 2).val, (y 2).isLt⟩ : Fin n))
    else g (ix2 (⟨(y 1).val, (y 1).isLt⟩ : Fin a) (⟨(y 2).val, (y 2).isLt⟩ : Fin n))

theorem slabs_zero (f g : (⟨2, ![a, n]⟩ : Shape).Idx → α) (y : (⟨3, ![2, a, n]⟩ : Shape).Idx)
    (p : Fin a) (q : Fin n) (e0 : (y 0).val = 0) (e1 : (y 1).val = p.val) (e2 : (y 2).val = q.val) :
    slabs f g y = f (ix2 p q) := by
  unfold slabs
  rw [if_pos e0]
  exact congrArg f (funext fun b => match b with | ⟨0, _⟩ => Fin.ext e1 | ⟨1, _⟩ => Fin.ext e2)

theorem slabs_one (f g : (⟨2, ![a, n]⟩ : Shape).Idx → α) (y : (⟨3, ![2, a, n]⟩ : Shape).Idx)
    (p : Fin a) (q : Fin n) (e0 : (y 0).val = 1) (e1 : (y 1).val = p.val) (e2 : (y 2).val = q.val) :
    slabs f g y = g (ix2 p q) := by
  unfold slabs
  rw [if_neg (by omega)]
  exact congrArg g (funext fun b => match b with | ⟨0, _⟩ => Fin.ext e1 | ⟨1, _⟩ => Fin.ext e2)

/-- Flattening the two slabs into one [2·a, n] array is the first array with the second joined below it: row r of the
    flattened array is row r of slab 0 for r < a and row r − a of slab 1 otherwise, in either reading. -/
theorem flatten_slabs {a2 : ℕ} (ha2 : a2 = a + a) (f g : (⟨2, ![a, n]⟩ : Shape).Idx → α)
    (hc : (⟨3, ![2, a, n]⟩ : Shape).ShapeCasts ⟨2, ![a2, n]⟩)
    (hj : Shape.Concatenates [⟨2, ![a, n]⟩, ⟨2, ![a, n]⟩] ⟨2, ![a2, n]⟩ 0) :
    shapeCast ⟨2, ![a2, n]⟩ (slabs f g) hc = concatenate ⟨2, ![a2, n]⟩ 0 [⟨⟨2, ![a, n]⟩, f⟩, ⟨⟨2, ![a, n]⟩, g⟩] hj := by
  subst ha2
  funext j
  obtain ⟨r, k, rfl⟩ : ∃ (r : Fin (a + a)) (k : Fin n), j = ix2 r k := ⟨j 0, j 1, eq_ix2 j⟩
  have off1 : ∀ (r' : Fin a) (b : Fin (⟨2, ![a, n]⟩ : Shape).rank),
      b.cast (rfl : (⟨2, ![a, n]⟩ : Shape).rank = (⟨2, ![a + a, n]⟩ : Shape).rank) ≠ 0 →
      ((ix2 r' k : (⟨2, ![a, n]⟩ : Shape).Idx) b).val = ((ix2 r k : (⟨2, ![a + a, n]⟩ : Shape).Idx) (b.cast rfl)).val := by
    intro r' b hb
    match b with
    | ⟨0, _⟩ => exact absurd rfl hb
    | ⟨1, _⟩ => rfl
  by_cases hr : r.val < a
  · have e1 : shapeCast ⟨2, ![a + a, n]⟩ (slabs f g) hc (ix2 r k) = slabs f g (ix3 (0 : Fin 2) (⟨r.val, hr⟩ : Fin a) k) :=
      shapeCast_apply (slabs f g) hc _ _ (by
        rw [Shape.rowMajor_val_three, Shape.rowMajor_val_two]
        show (0 * a + r.val) * n + k.val = r.val * n + k.val
        rw [Nat.zero_mul, Nat.zero_add])
    rw [e1, slabs_zero f g _ ⟨r.val, hr⟩ k rfl rfl rfl]
    exact (concatenate_apply_piece 0 [⟨⟨2, ![a, n]⟩, f⟩, ⟨⟨2, ![a, n]⟩, g⟩] hj (ix2 r k)
      0 (by show (0 : ℕ) < 2; omega) ⟨2, ![a, n]⟩ f rfl rfl 0 rfl (ix2 ⟨r.val, hr⟩ k) (off1 _)
      (by show 0 + r.val = r.val; omega)).symm
  · have hr' : r.val - a < a := by have := r.isLt; omega
    have e1 : shapeCast ⟨2, ![a + a, n]⟩ (slabs f g) hc (ix2 r k) = slabs f g (ix3 (1 : Fin 2) (⟨r.val - a, hr'⟩ : Fin a) k) :=
      shapeCast_apply (slabs f g) hc _ _ (by
        rw [Shape.rowMajor_val_three, Shape.rowMajor_val_two]
        show (1 * a + (r.val - a)) * n + k.val = r.val * n + k.val
        have : 1 * a + (r.val - a) = r.val := by omega
        rw [this])
    rw [e1, slabs_one f g _ ⟨r.val - a, hr'⟩ k rfl rfl rfl]
    exact (concatenate_apply_piece 0 [⟨⟨2, ![a, n]⟩, f⟩, ⟨⟨2, ![a, n]⟩, g⟩] hj (ix2 r k)
      1 (by show (1 : ℕ) < 2; omega) ⟨2, ![a, n]⟩ g rfl rfl (a + 0) rfl (ix2 ⟨r.val - a, hr'⟩ k) (off1 _)
      (by show a + 0 + (r.val - a) = r.val; omega)).symm

end Slabs

end Idealize.ShloMosaic.RowBlock

end
-- ==== Proof.LibSplitSum.lean ====
/-
  A finite sum over a + b, or a + b + c, consecutive positions is the sum of the sums over its consecutive stretches — in
  any additive commutative monoid, so also on the extended reals, where nothing is assumed finite. The dot-product form:
  a row made of three stretches, times a column, is the sum of the three stretches' dot products with the matching
  stretches of the column. This is the law that joins a product with a concatenated operand to the sum of products with
  the operand's pieces.
-/
import Mathlib.Algebra.BigOperators.Fin

namespace Cert.Lib.SplitSum

variable {M : Type} [AddCommMonoid M]

/-- Two stretches. -/
theorem sum_two (a b n : ℕ) (h : a + b = n) (f : Fin n → M) :
    ∑ k : Fin n, f k = (∑ k : Fin a, f ⟨k.val, by omega⟩) + ∑ k : Fin b, f ⟨a + k.val, by omega⟩ := by
  subst h
  rw [Fin.sum_univ_add]
  rfl

/-- Three stretches. -/
theorem sum_three (a b c n : ℕ) (h : a + b + c = n) (f : Fin n → M) :
    ∑ k : Fin n, f k
      = ((∑ k : Fin a, f ⟨k.val, by omega⟩) + ∑ k : Fin b, f ⟨a + k.val, by omega⟩)
        + ∑ k : Fin c, f ⟨a + b + k.val, by omega⟩ := by
  rw [sum_two (a + b) c n h f, sum_two a b (a + b) rfl (fun k => f ⟨k.val, by omega⟩)]

variable [Mul M]

/-- A row of two stretches times a column. -/
theorem dot_two (a b n : ℕ) (h : a + b = n) (x w : Fin n → M) (x₁ : Fin a → M) (x₂ : Fin b → M)
    (h₁ : ∀ k : Fin a, x ⟨k.val, by omega⟩ = x₁ k) (h₂ : ∀ k : Fin b, x ⟨a + k.val, by omega⟩ = x₂ k) :
    ∑ k : Fin n, x k * w k
      = (∑ k : Fin a, x₁ k * w ⟨k.val, by omega⟩) + ∑ k : Fin b, x₂ k * w ⟨a + k.val, by omega⟩ := by
  rw [sum_two a b n h]
  congr 1
  · exact Finset.sum_congr rfl fun k _ => by rw [h₁ k]
  · exact Finset.sum_congr rfl fun k _ => by rw [h₂ k]

/-- A row of three stretches times a column. -/
theorem dot_three (a b c n : ℕ) (h : a + b + c = n) (x w : Fin n → M) (x₁ : Fin a → M) (x₂ : Fin b → M) (x₃ : Fin c → M)
    (h₁ : ∀ k : Fin a, x ⟨k.val, by omega⟩ = x₁ k) (h₂ : ∀ k : Fin b, x ⟨a + k.val, by omega⟩ = x₂ k)
    (h₃ : ∀ k : Fin c, x ⟨a + b + k.val, by omega⟩ = x₃ k) :
    ∑ k : Fin n, x k * w k
      = ((∑ k : Fin a, x₁ k * w ⟨k.val, by omega⟩) + ∑ k : Fin b, x₂ k * w ⟨a + k.val, by omega⟩)
        + ∑ k : Fin c, x₃ k * w ⟨a + b + k.val, by omega⟩ := by
  rw [sum_three a b c n h]
  congr 1
  · congr 1
    · exact Finset.sum_congr rfl fun k _ => by rw [h₁ k]
    · exact Finset.sum_congr rfl fun k _ => by rw [h₂ k]
  · exact Finset.sum_congr rfl fun k _ => by rw [h₃ k]

end Cert.Lib.SplitSum
-- ==== Proof.LibRowMean.lean ====
/-
  Two further laws about rows t·R, …, t·R + R − 1 of a [B, n] array, on the extended reals with nothing assumed finite.
  The mean law: multiplying every row of the R rows by that row's reciprocal 1 / d(r), repeated across the columns, is
  dividing the whole array's rows by d(r), as long as no d(r) is zero — because off zero a quotient x / y is the product
  x · y⁻¹, so x · (1 / y) = x · (1 · y⁻¹) = x / y. The split product: the sum of two matrix products, of two arrays of rows
  with the upper and the lower stretch of a weight matrix's rows, is the one product of the two arrays joined along
  their columns with the whole weight matrix — a sum over K₁ + K₂ positions is the sum of the sums over its two
  stretches.
-/
import proofs.«144980_j6090263625952_1_alg».proof.Proof.LibRowBlock
import proofs.«144980_j6090263625952_1_alg».proof.Proof.LibSplitSum

noncomputable section

open scoped BigOperators

namespace Idealize.ShloMosaic.RowBlock

open Idealize.ShloMosaic Idealize.ShloMosaic.ValueIdx

variable {B R : ℕ} {t : ℕ} {h : t * R + R ≤ B}

/-- Off zero, multiplying by the reciprocal is dividing: x · (1 / y) = x / y for y ≠ 0, whatever x and y are otherwise
    (an infinite y has inverse 0 on either side). -/
theorem mul_div_one (x y : EReal) (hy : y ≠ 0) : x * Ideal.div 1 y = Ideal.div x y := by
  unfold Ideal.div
  rw [if_neg hy, if_neg hy, one_mul]

/-- A vector [B] made a column [B, 1] and repeated across n columns, read at an entry: row r holds d(r) everywhere. -/
theorem colOfVector_apply {n : ℕ} (d : (⟨1, ![B]⟩ : Shape).Idx → EReal)
    (hc : (⟨1, ![B]⟩ : Shape).BroadcastsInDim ⟨2, ![B, 1]⟩ ![0])
    (hB : (⟨2, ![B, 1]⟩ : Shape).BroadcastsInDim ⟨2, ![B, n]⟩ ![0, 1]) (r : Fin B) (q : Fin n) :
    broadcastInDim ⟨2, ![B, n]⟩ ![0, 1] hB (broadcastInDim ⟨2, ![B, 1]⟩ ![0] hc d) (ix2 r q) = d (ix1 r) := by
  have e2 : broadcastInDim ⟨2, ![B, n]⟩ ![0, 1] hB (broadcastInDim ⟨2, ![B, 1]⟩ ![0] hc d) (ix2 r q)
      = broadcastInDim ⟨2, ![B, 1]⟩ ![0] hc d (ix2 r (0 : Fin 1)) := by
    refine broadcastInDim_apply ![0, 1] hB _ (ix2 r q) (ix2 r (0 : Fin 1)) fun ax => ?_
    match ax with
    | ⟨0, _⟩ =>
      show r.val = if B = 1 then 0 else r.val
      split
      · have := r.isLt; omega
      · rfl
    | ⟨1, _⟩ => rfl
  have e3 : broadcastInDim ⟨2, ![B, 1]⟩ ![0] hc d (ix2 r (0 : Fin 1)) = d (ix1 r) := by
    refine broadcastInDim_apply ![0] hc d (ix2 r (0 : Fin 1)) (ix1 r) fun ax => ?_
    match ax with
    | ⟨0, _⟩ =>
      show r.val = if B = 1 then 0 else r.val
      split
      · have := r.isLt; omega
      · rfl
  rw [e2, e3]

/-- The mean law. The R rows of s, each multiplied by its own reciprocal 1 / d(r) held in a column [R, 1] and repeated
    across the columns (the vector unit's way), are the R rows of s divided by d made a column and repeated across the
    columns (the host's way), provided no d(r) is zero. Nothing is assumed finite. -/
theorem IsRows.mean {n : ℕ} {φ φ' : FTy} {s' : FVec Ideal ⟨2, ![R, n]⟩ φ'} {s : FVec Ideal ⟨2, ![B, n]⟩ φ}
    {y' : FVec Ideal ⟨2, ![R, 1]⟩ φ'} {d : FVec Ideal ⟨1, ![B]⟩ φ}
    (hs : IsRows t h s' s)
    (hy : ∀ p : Fin R, y' (ix2 p (0 : Fin 1)) = Ideal.div 1 (d (ix1 (row t h p))))
    (hne : ∀ r : Fin B, d (ix1 r) ≠ 0)
    (hR : (⟨2, ![R, 1]⟩ : Shape).Broadcasts ⟨2, ![R, n]⟩)
    (hc : (⟨1, ![B]⟩ : Shape).BroadcastsInDim ⟨2, ![B, 1]⟩ ![0])
    (hB : (⟨2, ![B, 1]⟩ : Shape).BroadcastsInDim ⟨2, ![B, n]⟩ ![0, 1]) :
    IsRows t h (Idealize.ShloMosaic.mulf s' (broadcastTo ⟨2, ![R, n]⟩ y' hR))
      (Host.divf s
        (broadcastInDim ⟨2, ![B, n]⟩ ![0, 1] hB (broadcastInDim ⟨2, ![B, 1]⟩ ![0] hc d))) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  show s' (ix2 p q) * broadcastTo ⟨2, ![R, n]⟩ y' hR (ix2 p q)
    = Ideal.div (s (ix2 (row t h p) q))
        (broadcastInDim ⟨2, ![B, n]⟩ ![0, 1] hB (broadcastInDim ⟨2, ![B, 1]⟩ ![0] hc d) (ix2 (row t h p) q))
  rw [e1, colOfVector_apply d hc hB (row t h p) q, hy p, hs p q]
  exact mul_div_one _ _ (hne (row t h p))

/-- The split product. The sum of the matrix unit's products of two arrays of R rows with the upper K₁ rows and the
    lower K₂ rows of a weight matrix (each into a zero accumulator) is the R rows of the host's one product of the two
    whole arrays joined along their columns with the whole weight matrix: entry (p, q) of either is the sum over the
    K₁ + K₂ positions of the joined row times the column, cut into its two stretches. -/
theorem IsRows.splitDot {K₁ K₂ K N : ℕ} {φ₁ φ₂ φ₁' φ₂' : FTy}
    {x₁' : FVec Ideal ⟨2, ![R, K₁]⟩ φ₁'} {x₁ : FVec Ideal ⟨2, ![B, K₁]⟩ φ₁}
    {x₂' : FVec Ideal ⟨2, ![R, K₂]⟩ φ₁'} {x₂ : FVec Ideal ⟨2, ![B, K₂]⟩ φ₁}
    {w₁' : FVec Ideal ⟨2, ![K₁, N]⟩ φ₂'} {w₂' : FVec Ideal ⟨2, ![K₂, N]⟩ φ₂'} {w : FVec Ideal ⟨2, ![K, N]⟩ φ₂}
    (h₁ : IsRows t h x₁' x₁) (h₂ : IsRows t h x₂' x₂) (hK : K₁ + K₂ = K)
    (hw₁ : ∀ (k : Fin K₁) (q : Fin N), w₁' (ix2 k q) = w (ix2 (⟨k.val, by omega⟩ : Fin K) q))
    (hw₂ : ∀ (k : Fin K₂) (q : Fin N), w₂' (ix2 k q) = w (ix2 (⟨K₁ + k.val, by omega⟩ : Fin K) q))
    (hj : Shape.Concatenates [⟨2, ![B, K₁]⟩, ⟨2, ![B, K₂]⟩] ⟨2, ![B, K]⟩ 1) :
    IsRows t h
      (Idealize.ShloMosaic.addf (matmul (DotDims.plain R K₁ N) none x₁' w₁' (constant ⟨2, ![R, N]⟩ .f32 0x00000000#32))
        (matmul (DotDims.plain R K₂ N) none x₂' w₂' (constant ⟨2, ![R, N]⟩ .f32 0x00000000#32)))
      (Host.dotGeneral (DotDims.plain B K N) none
        (concatenate ⟨2, ![B, K]⟩ 1 [⟨⟨2, ![B, K₁]⟩, x₁⟩, ⟨⟨2, ![B, K₂]⟩, x₂⟩] hj : FVec Ideal ⟨2, ![B, K]⟩ φ₁) w) := by
  intro p q
  show matmul (DotDims.plain R K₁ N) none x₁' w₁' (constant ⟨2, ![R, N]⟩ .f32 0x00000000#32) (ix2 p q)
      + matmul (DotDims.plain R K₂ N) none x₂' w₂' (constant ⟨2, ![R, N]⟩ .f32 0x00000000#32) (ix2 p q) = _
  rw [PlainProduct.matmul_zero_at R K₁ N x₁' w₁' p q, PlainProduct.matmul_zero_at R K₂ N x₂' w₂' p q,
    PlainProduct.dotGeneral_at B K N _ w (row t h p) q]
  rw [Cert.Lib.SplitSum.dot_two K₁ K₂ K hK
    (fun k => concatenate ⟨2, ![B, K]⟩ 1 [⟨⟨2, ![B, K₁]⟩, x₁⟩, ⟨⟨2, ![B, K₂]⟩, x₂⟩] hj (ix2 (row t h p) k))
    (fun k => w (ix2 k q)) (fun k => x₁ (ix2 (row t h p) k)) (fun k => x₂ (ix2 (row t h p) k))
    (fun k => joined2_first x₁ x₂ hj (row t h p) ⟨k.val, by have := k.isLt; omega⟩ k rfl)
    (fun k => joined2_second x₁ x₂ hj (row t h p) ⟨K₁ + k.val, by have := k.isLt; omega⟩ k rfl)]
  refine congrArg₂ (· + ·) ?_ ?_
  · exact Finset.sum_congr rfl fun k _ => congrArg₂ (· * ·) (h₁ p k) (hw₁ k q)
  · exact Finset.sum_congr rfl fun k _ => congrArg₂ (· * ·) (h₂ p k) (hw₂ k q)

end Idealize.ShloMosaic.RowBlock

end
-- ==== Proof.DenseRegions.lean ====
import proofs.«144980_j6090263625952_1_alg».proof.Proof.Gen.KernelIdeal.Frame
import proofs.«144980_j6090263625952_1_alg».proof.Proof.LibRowMean
import Idealize.ShloMosaic.Lib.Pipeline.Value
import Idealize.ShloMosaic.Lib.ValueIdx

noncomputable section
namespace Cert.KernelIdeal.RegionValue
open Cert.KernelIdeal Cert.KernelIdeal.Gen Idealize.ShloMosaic Idealize.ShloMosaic.ValueIdx Idealize.ShloMosaic.RowBlock Idealize.SL.Sem Idealize.ShloMosaic.TcCoe
variable (V : (c : Dev nD) → (b : Ref sig .tc) → Buf (Elt Ideal) ((c : Thread nD τ).loc b))

/-- The zero offset on two axes. -/
theorem hz : (![0, 0] : Fin 2 → Nat) = fun _ => 0 := funext fun a => by fin_cases a <;> rfl

/-! ## Region 0: out = a · w + bias row, 5000 rows at a time -/

/-- Rows t·5000 … t·5000 + 4999 of a · w + (the bias row repeated down the rows) are the product of those rows of a
    with w added into a zero accumulator, plus the bias row repeated down 5000 rows. -/
theorem pay0_rows {t : ℕ} (h : t * 5000 + 5000 ≤ 100000)
    (x' : Vec Ideal S5000x512 .f32) (w' : Vec Ideal S512x64 .f32) (b' : Vec Ideal S1x64 .f32)
    (x : FVec Ideal S100000x512 .f32) (w : FVec Ideal S512x64 .f32) (b : FVec Ideal S1x64 .f32)
    (hB : S1x64.BroadcastsInDim S100000x64 ![0, 1])
    (hx : IsRows t h x' x) (hw : ∀ (k : Fin 512) (q : Fin 64), w' (ix2 k q) = w (ix2 k q))
    (hb : ∀ (u : Fin 1) (q : Fin 64), b' (ix2 u q) = b (ix2 u q)) :
    IsRows t h (k0_pay1 x' w' b')
      (addf (Host.dotGeneral (DotDims.plain 100000 512 64) none x w) (broadcastInDim S100000x64 ![0, 1] hB b)) := by
  have eb : b' = b := by
    funext j
    obtain ⟨u, q, rfl⟩ : ∃ (u : Fin 1) (q : Fin 64), j = ix2 u q := ⟨j 0, j 1, eq_ix2 j⟩
    exact hb u q
  subst eb
  unfold k0_pay1
  refine IsRows.addf (IsRows.dot (IsRows.truncf _ hx) hw) ?_
  rw [shapeCast_self]
  exact IsRows.rowBroadcast _ hB _

/-- The block index of each window at grid point t: the row-tiled windows sit at row block t, the weight matrix and
    the bias row at their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, q) of the left operand's block at point t is entry (t·5000 + p, q) of the array. -/
theorem blk0_0 (c : Dev nD) (t : Fin cfg0.N) (p : Fin 5000) (q : Fin 512) (r : Fin 100000)
    (hr : r.val = t.val * 5000 + p.val) :
    iblk0 (F := Ideal) V c 0 t (ix2 p q) = (V c main_arg0 : FVec Ideal S100000x512 .f32) (ix2 r q) := by
  obtain ⟨e00, e01, -⟩ := idx0 t
  show V c main_arg0 (((cfg0.win 0).blk t).view.emb (ix2 p q)) = V c main_arg0 (ix2 r q)
  congr 1
  funext a; apply Fin.ext
  match a with
  | ⟨0, _⟩ => show win0_0.index t (0 : Fin 2) * 5000 + 1 * p.val = r.val; rw [e00, hr]; omega
  | ⟨1, _⟩ => show win0_0.index t (1 : Fin 2) * 512 + 1 * q.val = q.val; rw [e01]; omega

/-- The weight matrix's block at any point is the weight matrix. -/
theorem blk0_1 (c : Dev nD) (t : Fin cfg0.N) (k : Fin 512) (q : Fin 64) :
    iblk0 (F := Ideal) V c 1 t (ix2 k q) = (V c main_arg4 : FVec Ideal S512x64 .f32) (ix2 k q) := by
  obtain ⟨-, -, e10, e11, -⟩ := idx0 t
  show V c main_arg4 (((cfg0.win 1).blk t).view.emb (ix2 k q)) = V c main_arg4 (ix2 k q)
  congr 1
  funext a; apply Fin.ext
  match a with
  | ⟨0, _⟩ => show win0_1.index t (0 : Fin 2) * 512 + 1 * k.val = k.val; rw [e10]; omega
  | ⟨1, _⟩ => show win0_1.index t (1 : Fin 2) * 64 + 1 * q.val = q.val; rw [e11]; omega

/-- The bias row's block at any point is the bias row. -/
theorem blk0_2 (c : Dev nD) (t : Fin cfg0.N) (u : Fin 1) (q : Fin 64) :
    iblk0 (F := Ideal) V c 2 t (ix2 u q) = (V c main_v40 : FVec Ideal S1x64 .f32) (ix2 u q) := by
  obtain ⟨-, -, -, -, e20, e21, -⟩ := idx0 t
  show V c main_v40 (((cfg0.win 2).blk t).view.emb (ix2 u q)) = V c main_v40 (ix2 u q)
  congr 1
  funext a; apply Fin.ext
  match a with
  | ⟨0, _⟩ => show win0_2.index t (0 : Fin 2) * 1 + 1 * u.val = u.val; rw [e20]; omega
  | ⟨1, _⟩ => show win0_2.index t (1 : Fin 2) * 64 + 1 * q.val = q.val; rw [e21]; omega

/-- The whole output array: a · w plus the bias row repeated down the rows. -/
abbrev whole0 (c : Dev nD) (hB : S1x64.BroadcastsInDim S100000x64 ![0, 1]) : FVec Ideal S100000x64 .f32 :=
  addf (F := Ideal) (Host.dotGeneral (φ₁ := .f32) (φ₂ := .f32) (DotDims.plain 100000 512 64) none (V c main_arg0 : FVec Ideal S100000x512 .f32) (V c main_arg4 : FVec Ideal S512x64 .f32))
    (broadcastInDim S100000x64 ![0, 1] hB (V c main_v40 : FVec Ideal S1x64 .f32))

/-- What point t writes back is rows t·5000 … t·5000 + 4999 of the whole output array. -/
theorem flushed0_eq (c : Dev nD) (hB : S1x64.BroadcastsInDim S100000x64 ![0, 1]) (t : Fin cfg0.N) :
    (dat0 (F := Ideal) V c).flushed 3 t = ((cfg0.win 3).blk t).view.read (Elt Ideal) (whole0 V c hB) := by
  have hN : cfg0.N = 20 := N_0
  have ht : t.val * 5000 + 5000 ≤ 100000 := by have := t.isLt; omega
  obtain ⟨-, -, -, -, -, -, e30, e31⟩ := idx0 t
  show (cfg0.win 3).cut (grid0.coords t) ((dat0 (F := Ideal) V c).after 3 t) = _
  rw [after0_3]
  unfold out0_3
  rw [View.canon_unit_zero hz]
  simp only [View.ld_unit_zero (S := S5000x512) hz, View.ld_unit_zero (S := S512x64) hz, View.ld_unit_zero (S := S1x64) hz]
  have hrows := pay0_rows ht (iblk0 (F := Ideal) V c 0 t) (iblk0 (F := Ideal) V c 1 t) (iblk0 (F := Ideal) V c 2 t)
    (V c main_arg0) (V c main_arg4) (V c main_v40) hB
    (fun p q => blk0_0 V c t p q (row t.val ht p) rfl) (fun k q => blk0_1 V c t k q) (fun u q => blk0_2 V c t u q)
  funext j
  obtain ⟨p, q, rfl⟩ : ∃ (p : Fin 5000) (q : Fin 64), j = ix2 p q := ⟨j 0, j 1, eq_ix2 j⟩
  refine (hrows p q).trans ?_
  show whole0 V c hB (ix2 (row t.val ht p) q) = whole0 V c hB (((cfg0.win 3).blk t).view.emb (ix2 p q))
  congr 1
  funext a; apply Fin.ext
  match a with
  | ⟨0, _⟩ => show t.val * 5000 + p.val = win0_3.index t (0 : Fin 2) * 5000 + 1 * p.val; rw [e30]; omega
  | ⟨1, _⟩ => show q.val = win0_3.index t (1 : Fin 2) * 64 + 1 * q.val; rw [e31]; omega

/-- An index of the output array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v41).slice (win0_3.rect t)).set ↔ _
  rw [View.set_slice_whole, Rect.mem_set_unit]
  exact Iff.rfl

/-- Row r of the output array lies in the block of point r / 5000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, e30, e31⟩ := idx0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e31]
    omega

/-- The output array after the region is a · w plus the bias row repeated down the rows. -/
theorem dense0 (c : Dev nD) (hB : S1x64.BroadcastsInDim S100000x64 ![0, 1]) :
    (dat0 (F := Ideal) V c).arrAt 3 cfg0.N
      = (addf (F := Ideal) (Host.dotGeneral (φ₁ := .f32) (φ₂ := .f32) (DotDims.plain 100000 512 64) none (V c main_arg0 : FVec Ideal S100000x512 .f32) (V c main_arg4 : FVec Ideal S512x64 .f32))
          (broadcastInDim S100000x64 ![0, 1] hB (V c main_v40 : FVec Ideal S1x64 .f32)) : FVec Ideal S100000x64 .f32) :=
  (dat0 (F := Ideal) V c).arrAt_eq_of_cover 3 (whole0 V c hB) (fun t _ => flushed0_eq V c hB t) cover0

/-! ## Region 1: out = a · w + bias row, 5000 rows at a time -/

/-- Rows t·5000 … t·5000 + 4999 of a · w + (the bias row repeated down the rows) are the product of those rows of a
    with w added into a zero accumulator, plus the bias row repeated down 5000 rows. -/
theorem pay1_rows {t : ℕ} (h : t * 5000 + 5000 ≤ 100000)
    (x' : Vec Ideal S5000x64 .f32) (w' : Vec Ideal S64x64 .f32) (b' : Vec Ideal S1x64 .f32)
    (x : FVec Ideal S100000x64 .f32) (w : FVec Ideal S64x64 .f32) (b : FVec Ideal S1x64 .f32)
    (hB : S1x64.BroadcastsInDim S100000x64 ![0, 1])
    (hx : IsRows t h x' x) (hw : ∀ (k : Fin 64) (q : Fin 64), w' (ix2 k q) = w (ix2 k q))
    (hb : ∀ (u : Fin 1) (q : Fin 64), b' (ix2 u q) = b (ix2 u q)) :
    IsRows t h (k1_pay1 x' w' b')
      (addf (Host.dotGeneral (DotDims.plain 100000 64 64) none x w) (broadcastInDim S100000x64 ![0, 1] hB b)) := by
  have eb : b' = b := by
    funext j
    obtain ⟨u, q, rfl⟩ : ∃ (u : Fin 1) (q : Fin 64), j = ix2 u q := ⟨j 0, j 1, eq_ix2 j⟩
    exact hb u q
  subst eb
  unfold k1_pay1
  refine IsRows.addf (IsRows.dot (IsRows.truncf _ (IsRows.castSelf _ hx)) hw) ?_
  rw [shapeCast_self]
  exact IsRows.rowBroadcast _ hB _

/-- The block index of each window at grid point t: the row-tiled windows sit at row block t, the weight matrix and
    the bias row at their one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the left operand's block at point t is entry (t·5000 + p, q) of the array. -/
theorem blk1_0 (c : Dev nD) (t : Fin cfg1.N) (p : Fin 5000) (q : Fin 64) (r : Fin 100000)
    (hr : r.val = t.val * 5000 + p.val) :
    iblk1 (F := Ideal) V c 0 t (ix2 p q) = (V c main_v58 : FVec Ideal S100000x64 .f32) (ix2 r q) := by
  obtain ⟨e00, e01, -⟩ := idx1 t
  show V c main_v58 (((cfg1.win 0).blk t).view.emb (ix2 p q)) = V c main_v58 (ix2 r q)
  congr 1
  funext a; apply Fin.ext
  match a with
  | ⟨0, _⟩ => show win1_0.index t (0 : Fin 2) * 5000 + 1 * p.val = r.val; rw [e00, hr]; omega
  | ⟨1, _⟩ => show win1_0.index t (1 : Fin 2) * 64 + 1 * q.val = q.val; rw [e01]; omega

/-- The weight matrix's block at any point is the weight matrix. -/
theorem blk1_1 (c : Dev nD) (t : Fin cfg1.N) (k : Fin 64) (q : Fin 64) :
    iblk1 (F := Ideal) V c 1 t (ix2 k q) = (V c main_arg6 : FVec Ideal S64x64 .f32) (ix2 k q) := by
  obtain ⟨-, -, e10, e11, -⟩ := idx1 t
  show V c main_arg6 (((cfg1.win 1).blk t).view.emb (ix2 k q)) = V c main_arg6 (ix2 k q)
  congr 1
  funext a; apply Fin.ext
  match a with
  | ⟨0, _⟩ => show win1_1.index t (0 : Fin 2) * 64 + 1 * k.val = k.val; rw [e10]; omega
  | ⟨1, _⟩ => show win1_1.index t (1 : Fin 2) * 64 + 1 * q.val = q.val; rw [e11]; omega

/-- The bias row's block at any point is the bias row. -/
theorem blk1_2 (c : Dev nD) (t : Fin cfg1.N) (u : Fin 1) (q : Fin 64) :
    iblk1 (F := Ideal) V c 2 t (ix2 u q) = (V c main_v59 : FVec Ideal S1x64 .f32) (ix2 u q) := by
  obtain ⟨-, -, -, -, e20, e21, -⟩ := idx1 t
  show V c main_v59 (((cfg1.win 2).blk t).view.emb (ix2 u q)) = V c main_v59 (ix2 u q)
  congr 1
  funext a; apply Fin.ext
  match a with
  | ⟨0, _⟩ => show win1_2.index t (0 : Fin 2) * 1 + 1 * u.val = u.val; rw [e20]; omega
  | ⟨1, _⟩ => show win1_2.index t (1 : Fin 2) * 64 + 1 * q.val = q.val; rw [e21]; omega

/-- The whole output array: a · w plus the bias row repeated down the rows. -/
abbrev whole1 (c : Dev nD) (hB : S1x64.BroadcastsInDim S100000x64 ![0, 1]) : FVec Ideal S100000x64 .f32 :=
  addf (F := Ideal) (Host.dotGeneral (φ₁ := .f32) (φ₂ := .f32) (DotDims.plain 100000 64 64) none (V c main_v58 : FVec Ideal S100000x64 .f32) (V c main_arg6 : FVec Ideal S64x64 .f32))
    (broadcastInDim S100000x64 ![0, 1] hB (V c main_v59 : FVec Ideal S1x64 .f32))

/-- What point t writes back is rows t·5000 … t·5000 + 4999 of the whole output array. -/
theorem flushed1_eq (c : Dev nD) (hB : S1x64.BroadcastsInDim S100000x64 ![0, 1]) (t : Fin cfg1.N) :
    (dat1 (F := Ideal) V c).flushed 3 t = ((cfg1.win 3).blk t).view.read (Elt Ideal) (whole1 V c hB) := by
  have hN : cfg1.N = 20 := N_1
  have ht : t.val * 5000 + 5000 ≤ 100000 := by have := t.isLt; omega
  obtain ⟨-, -, -, -, -, -, e30, e31⟩ := idx1 t
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S64x64) hz, View.ld_unit_zero (S := S1x64) hz]
  have hrows := pay1_rows ht (iblk1 (F := Ideal) V c 0 t) (iblk1 (F := Ideal) V c 1 t) (iblk1 (F := Ideal) V c 2 t)
    (V c main_v58) (V c main_arg6) (V c main_v59) hB
    (fun p q => blk1_0 V c t p q (row t.val ht p) rfl) (fun k q => blk1_1 V c t k q) (fun u q => blk1_2 V c t u q)
  funext j
  obtain ⟨p, q, rfl⟩ : ∃ (p : Fin 5000) (q : Fin 64), j = ix2 p q := ⟨j 0, j 1, eq_ix2 j⟩
  refine (hrows p q).trans ?_
  show whole1 V c hB (ix2 (row t.val ht p) q) = whole1 V c hB (((cfg1.win 3).blk t).view.emb (ix2 p q))
  congr 1
  funext a; apply Fin.ext
  match a with
  | ⟨0, _⟩ => show t.val * 5000 + p.val = win1_3.index t (0 : Fin 2) * 5000 + 1 * p.val; rw [e30]; omega
  | ⟨1, _⟩ => show q.val = win1_3.index t (1 : Fin 2) * 64 + 1 * q.val; rw [e31]; omega

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v60).slice (win1_3.rect t)).set ↔ _
  rw [View.set_slice_whole, Rect.mem_set_unit]
  exact Iff.rfl

/-- Row r of the output array lies in the block of point r / 5000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, e30, e31⟩ := idx1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e31]
    omega

/-- The output array after the region is a · w plus the bias row repeated down the rows. -/
theorem dense1 (c : Dev nD) (hB : S1x64.BroadcastsInDim S100000x64 ![0, 1]) :
    (dat1 (F := Ideal) V c).arrAt 3 cfg1.N
      = (addf (F := Ideal) (Host.dotGeneral (φ₁ := .f32) (φ₂ := .f32) (DotDims.plain 100000 64 64) none (V c main_v58 : FVec Ideal S100000x64 .f32) (V c main_arg6 : FVec Ideal S64x64 .f32))
          (broadcastInDim S100000x64 ![0, 1] hB (V c main_v59 : FVec Ideal S1x64 .f32)) : FVec Ideal S100000x64 .f32) :=
  (dat1 (F := Ideal) V c).arrAt_eq_of_cover 3 (whole1 V c hB) (fun t _ => flushed1_eq V c hB t) cover1

/-! ## Region 2: out = a · w + bias row, 5000 rows at a time -/

/-- Rows t·5000 … t·5000 + 4999 of a · w + (the bias row repeated down the rows) are the product of those rows of a
    with w added into a zero accumulator, plus the bias row repeated down 5000 rows. -/
theorem pay2_rows {t : ℕ} (h : t * 5000 + 5000 ≤ 100000)
    (x' : Vec Ideal S5000x64 .f32) (w' : Vec Ideal S64x512 .f32) (b' : Vec Ideal S1x512 .f32)
    (x : FVec Ideal S100000x64 .f32) (w : FVec Ideal S64x512 .f32) (b : FVec Ideal S1x512 .f32)
    (hB : S1x512.BroadcastsInDim S100000x512 ![0, 1])
    (hx : IsRows t h x' x) (hw : ∀ (k : Fin 64) (q : Fin 512), w' (ix2 k q) = w (ix2 k q))
    (hb : ∀ (u : Fin 1) (q : Fin 512), b' (ix2 u q) = b (ix2 u q)) :
    IsRows t h (k2_pay1 x' w' b')
      (addf (Host.dotGeneral (DotDims.plain 100000 64 512) none x w) (broadcastInDim S100000x512 ![0, 1] hB b)) := by
  have eb : b' = b := by
    funext j
    obtain ⟨u, q, rfl⟩ : ∃ (u : Fin 1) (q : Fin 512), j = ix2 u q := ⟨j 0, j 1, eq_ix2 j⟩
    exact hb u q
  subst eb
  unfold k2_pay1
  refine IsRows.addf (IsRows.dot (IsRows.truncf _ (IsRows.castSelf _ hx)) hw) ?_
  rw [shapeCast_self]
  exact IsRows.rowBroadcast _ hB _

/-- The block index of each window at grid point t: the row-tiled windows sit at row block t, the weight matrix and
    the bias row at their one block. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, q) of the left operand's block at point t is entry (t·5000 + p, q) of the array. -/
theorem blk2_0 (c : Dev nD) (t : Fin cfg2.N) (p : Fin 5000) (q : Fin 64) (r : Fin 100000)
    (hr : r.val = t.val * 5000 + p.val) :
    iblk2 (F := Ideal) V c 0 t (ix2 p q) = (V c main_v77 : FVec Ideal S100000x64 .f32) (ix2 r q) := by
  obtain ⟨e00, e01, -⟩ := idx2 t
  show V c main_v77 (((cfg2.win 0).blk t).view.emb (ix2 p q)) = V c main_v77 (ix2 r q)
  congr 1
  funext a; apply Fin.ext
  match a with
  | ⟨0, _⟩ => show win2_0.index t (0 : Fin 2) * 5000 + 1 * p.val = r.val; rw [e00, hr]; omega
  | ⟨1, _⟩ => show win2_0.index t (1 : Fin 2) * 64 + 1 * q.val = q.val; rw [e01]; omega

/-- The weight matrix's block at any point is the weight matrix. -/
theorem blk2_1 (c : Dev nD) (t : Fin cfg2.N) (k : Fin 64) (q : Fin 512) :
    iblk2 (F := Ideal) V c 1 t (ix2 k q) = (V c main_arg8 : FVec Ideal S64x512 .f32) (ix2 k q) := by
  obtain ⟨-, -, e10, e11, -⟩ := idx2 t
  show V c main_arg8 (((cfg2.win 1).blk t).view.emb (ix2 k q)) = V c main_arg8 (ix2 k q)
  congr 1
  funext a; apply Fin.ext
  match a with
  | ⟨0, _⟩ => show win2_1.index t (0 : Fin 2) * 64 + 1 * k.val = k.val; rw [e10]; omega
  | ⟨1, _⟩ => show win2_1.index t (1 : Fin 2) * 512 + 1 * q.val = q.val; rw [e11]; omega

/-- The bias row's block at any point is the bias row. -/
theorem blk2_2 (c : Dev nD) (t : Fin cfg2.N) (u : Fin 1) (q : Fin 512) :
    iblk2 (F := Ideal) V c 2 t (ix2 u q) = (V c main_v78 : FVec Ideal S1x512 .f32) (ix2 u q) := by
  obtain ⟨-, -, -, -, e20, e21, -⟩ := idx2 t
  show V c main_v78 (((cfg2.win 2).blk t).view.emb (ix2 u q)) = V c main_v78 (ix2 u q)
  congr 1
  funext a; apply Fin.ext
  match a with
  | ⟨0, _⟩ => show win2_2.index t (0 : Fin 2) * 1 + 1 * u.val = u.val; rw [e20]; omega
  | ⟨1, _⟩ => show win2_2.index t (1 : Fin 2) * 512 + 1 * q.val = q.val; rw [e21]; omega

/-- The whole output array: a · w plus the bias row repeated down the rows. -/
abbrev whole2 (c : Dev nD) (hB : S1x512.BroadcastsInDim S100000x512 ![0, 1]) : FVec Ideal S100000x512 .f32 :=
  addf (F := Ideal) (Host.dotGeneral (φ₁ := .f32) (φ₂ := .f32) (DotDims.plain 100000 64 512) none (V c main_v77 : FVec Ideal S100000x64 .f32) (V c main_arg8 : FVec Ideal S64x512 .f32))
    (broadcastInDim S100000x512 ![0, 1] hB (V c main_v78 : FVec Ideal S1x512 .f32))

/-- What point t writes back is rows t·5000 … t·5000 + 4999 of the whole output array. -/
theorem flushed2_eq (c : Dev nD) (hB : S1x512.BroadcastsInDim S100000x512 ![0, 1]) (t : Fin cfg2.N) :
    (dat2 (F := Ideal) V c).flushed 3 t = ((cfg2.win 3).blk t).view.read (Elt Ideal) (whole2 V c hB) := by
  have hN : cfg2.N = 20 := N_2
  have ht : t.val * 5000 + 5000 ≤ 100000 := by have := t.isLt; omega
  obtain ⟨-, -, -, -, -, -, e30, e31⟩ := idx2 t
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S64x512) hz, View.ld_unit_zero (S := S1x512) hz]
  have hrows := pay2_rows ht (iblk2 (F := Ideal) V c 0 t) (iblk2 (F := Ideal) V c 1 t) (iblk2 (F := Ideal) V c 2 t)
    (V c main_v77) (V c main_arg8) (V c main_v78) hB
    (fun p q => blk2_0 V c t p q (row t.val ht p) rfl) (fun k q => blk2_1 V c t k q) (fun u q => blk2_2 V c t u q)
  funext j
  obtain ⟨p, q, rfl⟩ : ∃ (p : Fin 5000) (q : Fin 512), j = ix2 p q := ⟨j 0, j 1, eq_ix2 j⟩
  refine (hrows p q).trans ?_
  show whole2 V c hB (ix2 (row t.val ht p) q) = whole2 V c hB (((cfg2.win 3).blk t).view.emb (ix2 p q))
  congr 1
  funext a; apply Fin.ext
  match a with
  | ⟨0, _⟩ => show t.val * 5000 + p.val = win2_3.index t (0 : Fin 2) * 5000 + 1 * p.val; rw [e30]; omega
  | ⟨1, _⟩ => show q.val = win2_3.index t (1 : Fin 2) * 512 + 1 * q.val; rw [e31]; omega

/-- An index of the output array is in point t's block iff each coordinate is in the block's range on its axis. -/
theorem mem_blk2 (t : Fin cfg2.N) (i : S100000x512.Idx) :
    i ∈ ((cfg2.win 3).blk t).view.set ↔ ∀ a : Fin 2, win2_3.index t a * S5000x512.size a ≤ (i a).val ∧ (i a).val < win2_3.index t a * S5000x512.size a + S5000x512.size a := by
  show i ∈ ((View.whole main_v79).slice (win2_3.rect t)).set ↔ _
  rw [View.set_slice_whole, Rect.mem_set_unit]
  exact Iff.rfl

/-- Row r of the output array lies in the block of point r / 5000. -/
theorem cover2 (i : S100000x512.Idx) :
    ∃ t : Fin cfg2.N, (cfg2.win 3).flush t = true ∧ i ∈ ((cfg2.win 3).blk t).view.set := by
  have hi0 : (i 0).val < 100000 := (i 0).isLt
  have hi1 : (i 1).val < 512 := (i 1).isLt
  have hN : cfg2.N = 20 := N_2
  have ht : (i 0).val / 5000 < cfg2.N := by rw [hN]; omega
  obtain ⟨-, -, -, -, -, -, e30, e31⟩ := idx2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 512 ≤ (i 1).val ∧ (i 1).val < win2_3.index ⟨(i 0).val / 5000, ht⟩ (1 : Fin 2) * 512 + 512
    rw [e31]
    omega

/-- The output array after the region is a · w plus the bias row repeated down the rows. -/
theorem dense2 (c : Dev nD) (hB : S1x512.BroadcastsInDim S100000x512 ![0, 1]) :
    (dat2 (F := Ideal) V c).arrAt 3 cfg2.N
      = (addf (F := Ideal) (Host.dotGeneral (φ₁ := .f32) (φ₂ := .f32) (DotDims.plain 100000 64 512) none (V c main_v77 : FVec Ideal S100000x64 .f32) (V c main_arg8 : FVec Ideal S64x512 .f32))
          (broadcastInDim S100000x512 ![0, 1] hB (V c main_v78 : FVec Ideal S1x512 .f32)) : FVec Ideal S100000x512 .f32) :=
  (dat2 (F := Ideal) V c).arrAt_eq_of_cover 3 (whole2 V c hB) (fun t _ => flushed2_eq V c hB t) cover2

end Cert.KernelIdeal.RegionValue
end
-- ==== Proof.FinalRegion.lean ====
/-
  The last region of the kernel program, read as one whole-array expression. The region walks a [100000, 2] array in
  twenty groups of 5000 rows. At group t it takes rows 5000·t … 5000·t + 4999 of an embedding array [100000, 512] and of
  a second array [100000, 64], multiplies the first by a [512, 2] weight block and the second by a [64, 2] weight block
  (each product into a zero accumulator), adds the two products, and adds a bias row [1, 2] to every row. A sum over
  512 + 64 positions is the sum of the sums over its two stretches, so the two products together are the rows of ONE
  product: of the two arrays joined along their columns with the [576, 2] matrix whose upper 512 rows and lower 64 rows
  are the two weight blocks. Every row of the output lies in exactly one group, so the output array after the region is
  that one product plus the bias row repeated down the array.
-/
import proofs.«144980_j6090263625952_1_alg».proof.Proof.Gen.KernelIdeal.Frame
import proofs.«144980_j6090263625952_1_alg».proof.Proof.LibRowMean
import Idealize.ShloMosaic.Lib.Pipeline.Value
import Idealize.ShloMosaic.Lib.ValueIdx

noncomputable section
namespace Cert.KernelIdeal.RegionValue
open Cert.KernelIdeal Cert.KernelIdeal.Gen Idealize.ShloMosaic Idealize.ShloMosaic.TcCoe Idealize.ShloMosaic.ValueIdx Idealize.ShloMosaic.RowBlock Idealize.SL.Sem
variable (V : (c : Dev nD) → (b : Ref sig .tc) → Buf (Elt Ideal) ((c : Thread nD τ).loc b))

/-- The whole-array expression: the joined arrays times the whole weight matrix, plus the bias row down the array. -/
abbrev finalG (X0 : FVec Ideal S100000x512 .f32) (X1 : FVec Ideal S100000x64 .f32) (W : FVec Ideal S576x2 .f32)
    (b : FVec Ideal S1x2 .f32)
    (hj : Shape.Concatenates [S100000x512, S100000x64] (⟨2, ![100000, 576]⟩ : Shape) 1)
    (hB : S1x2.BroadcastsInDim S100000x2 ![0, 1]) : FVec Ideal S100000x2 .f32 :=
  addf (Host.dotGeneral (DotDims.plain 100000 576 2) none
          (concatenate (⟨2, ![100000, 576]⟩ : Shape) 1 [⟨S100000x512, X0⟩, ⟨S100000x64, X1⟩] hj) W)
    (broadcastInDim S100000x2 ![0, 1] hB b)

/-! ## One group of rows -/

/-- At one group of rows: the body's arithmetic on the 5000 rows is the 5000 rows of the whole-array expression. The two
    casts of an array to its own shape and the changes of float format are the identity on the extended reals; the two
    products into zero accumulators, added, are the rows of the one product of the joined arrays; the bias row repeated
    down 5000 rows is 5000 rows of the bias row repeated down the whole array. -/
theorem final_rows {t : ℕ} (h : t * 5000 + 5000 ≤ 100000)
    (x0 : FVec Ideal S5000x512 .f32) (x1 : FVec Ideal S5000x64 .f32) (w0 : FVec Ideal S512x2 .f32)
    (w1 : FVec Ideal S64x2 .f32) (b' : FVec Ideal S1x2 .f32)
    (X0 : FVec Ideal S100000x512 .f32) (X1 : FVec Ideal S100000x64 .f32) (W : FVec Ideal S576x2 .f32)
    (b : FVec Ideal S1x2 .f32)
    (h0 : IsRows t h x0 X0) (h1 : IsRows t h x1 X1) (hb : b' = b)
    (hW1 : ∀ (k : Fin 512) (q : Fin 2), w0 (ix2 k q) = W (ix2 (⟨k.val, by omega⟩ : Fin 576) q))
    (hW2 : ∀ (k : Fin 64) (q : Fin 2), w1 (ix2 k q) = W (ix2 (⟨512 + k.val, by omega⟩ : Fin 576) q))
    (hj : Shape.Concatenates [S100000x512, S100000x64] (⟨2, ![100000, 576]⟩ : Shape) 1)
    (hB : S1x2.BroadcastsInDim S100000x2 ![0, 1]) :
    IsRows t h (k3_pay1 (F := Ideal) x0 x1 w0 w1 b') (finalG X0 X1 W b hj hB) := by
  subst hb
  unfold k3_pay1 finalG
  refine IsRows.addf ?_ ?_
  · exact IsRows.splitDot (IsRows.truncf _ (IsRows.castSelf _ h0)) (IsRows.truncf _ h1) rfl
      (fun k q => by
        show shapeCast S512x2 w0 _ (ix2 k q) = _
        rw [shapeCast_self]; exact hW1 k q)
      (fun k q => by
        show shapeCast S64x2 w1 _ (ix2 k q) = _
        rw [shapeCast_self]; exact hW2 k q) hj
  · rw [shapeCast_self]
    exact IsRows.rowBroadcast b' hB _

/-! ## The blocks the body sees at a point of the grid -/

theorem zero_offsets : (![0, 0] : Fin 2 → Nat) = fun _ => 0 := funext fun a => by fin_cases a <;> rfl

/-- The block indices at point t: the three row-tiled windows (the two input arrays and the output) sit at block
    (t, 0); the two weight blocks and the bias row are whole, at block (0, 0). Decided over the twenty points. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Every group of 5000 rows lies inside the 100000 rows. -/
theorem group_le (t : Fin cfg3.N) : t.val * 5000 + 5000 ≤ 100000 := by
  have hN : grid3.N = 20 := N_3
  have h2 : t.val < 20 := by rw [← hN]; exact t.isLt
  omega

/-- Window 0's block at point t is rows 5000·t … 5000·t + 4999 of the embedding array. -/
theorem rows_emb (c : Dev nD) (t : Fin cfg3.N) :
    IsRows t.val (group_le t) (iblk3 V c 0 t : Vec Ideal S5000x512 .f32) (V c main_v79 : FVec Ideal S100000x512 .f32) := by
  intro p q
  unfold iblk3
  rw [View.read_apply]
  show V c main_v79 (((cfg3.win 0).blk t).view.emb (ix2 p q)) = V c main_v79 _
  refine congrArg _ (funext fun a => Fin.ext ?_)
  obtain ⟨e0, e1, -⟩ := block_indices t
  match a with
  | ⟨0, _⟩ => show win3_0.index t (0 : Fin 2) * 5000 + 1 * p.val = t.val * 5000 + p.val; rw [e0]; omega
  | ⟨1, _⟩ => show win3_0.index t (1 : Fin 2) * 512 + 1 * q.val = q.val; rw [e1]; omega

/-- Window 1's block at point t is rows 5000·t … 5000·t + 4999 of the second array. -/
theorem rows_op (c : Dev nD) (t : Fin cfg3.N) :
    IsRows t.val (group_le t) (iblk3 V c 1 t : Vec Ideal S5000x64 .f32) (V c main_arg3 : FVec Ideal S100000x64 .f32) := by
  intro p q
  unfold iblk3
  rw [View.read_apply]
  show V c main_arg3 (((cfg3.win 1).blk t).view.emb (ix2 p q)) = V c main_arg3 _
  refine congrArg _ (funext fun a => Fin.ext ?_)
  obtain ⟨-, -, e0, e1, -⟩ := block_indices t
  match a with
  | ⟨0, _⟩ => show win3_1.index t (0 : Fin 2) * 5000 + 1 * p.val = t.val * 5000 + p.val; rw [e0]; omega
  | ⟨1, _⟩ => show win3_1.index t (1 : Fin 2) * 64 + 1 * q.val = q.val; rw [e1]; omega

/-- Window 2's block at any point is the whole upper weight block. -/
theorem block_wa (c : Dev nD) (t : Fin cfg3.N) (k : Fin 512) (q : Fin 2) :
    (iblk3 V c 2 t : Vec Ideal S512x2 .f32) (ix2 k q) = (V c main_v80 : FVec Ideal S512x2 .f32) (ix2 k q) := by
  unfold iblk3
  rw [View.read_apply]
  show V c main_v80 (((cfg3.win 2).blk t).view.emb (ix2 k q)) = V c main_v80 _
  refine congrArg _ (funext fun a => Fin.ext ?_)
  obtain ⟨-, -, -, -, e0, e1, -⟩ := block_indices t
  match a with
  | ⟨0, _⟩ => show win3_2.index t (0 : Fin 2) * 512 + 1 * k.val = k.val; rw [e0]; omega
  | ⟨1, _⟩ => show win3_2.index t (1 : Fin 2) * 2 + 1 * q.val = q.val; rw [e1]; omega

/-- Window 3's block at any point is the whole lower weight block. -/
theorem block_wb (c : Dev nD) (t : Fin cfg3.N) (k : Fin 64) (q : Fin 2) :
    (iblk3 V c 3 t : Vec Ideal S64x2 .f32) (ix2 k q) = (V c main_v81 : FVec Ideal S64x2 .f32) (ix2 k q) := by
  unfold iblk3
  rw [View.read_apply]
  show V c main_v81 (((cfg3.win 3).blk t).view.emb (ix2 k q)) = V c main_v81 _
  refine congrArg _ (funext fun a => Fin.ext ?_)
  obtain ⟨-, -, -, -, -, -, e0, e1, -⟩ := block_indices t
  match a with
  | ⟨0, _⟩ => show win3_3.index t (0 : Fin 2) * 64 + 1 * k.val = k.val; rw [e0]; omega
  | ⟨1, _⟩ => show win3_3.index t (1 : Fin 2) * 2 + 1 * q.val = q.val; rw [e1]; omega

/-- Window 4's block at any point is the whole bias row. -/
theorem block_bias (c : Dev nD) (t : Fin cfg3.N) :
    (iblk3 V c 4 t : Vec Ideal S1x2 .f32) = (V c main_v82 : FVec Ideal S1x2 .f32) := by
  funext y
  obtain ⟨u, q, rfl⟩ : ∃ (u : Fin 1) (q : Fin 2), y = ix2 u q := ⟨y 0, y 1, eq_ix2 y⟩
  unfold iblk3
  rw [View.read_apply]
  show V c main_v82 (((cfg3.win 4).blk t).view.emb (ix2 u q)) = V c main_v82 _
  refine congrArg _ (funext fun a => Fin.ext ?_)
  obtain ⟨-, -, -, -, -, -, -, -, e0, e1, -⟩ := block_indices t
  match a with
  | ⟨0, _⟩ => show win3_4.index t (0 : Fin 2) * 1 + 1 * u.val = u.val; rw [e0]; omega
  | ⟨1, _⟩ => show win3_4.index t (1 : Fin 2) * 2 + 1 * q.val = q.val; rw [e1]; omega

/-- A [5000, 2] block that is rows 5000·t … 5000·t + 4999 of a whole array is that array read through the output
    window's block at point t. -/
theorem read_of_rows (t : Fin cfg3.N) (f : FVec Ideal S5000x2 .f32) (G : FVec Ideal S100000x2 .f32)
    (hr : IsRows t.val (group_le t) f G) :
    (cfg3.win 5).cut (grid3.coords t) f = ((cfg3.win 5).blk t).view.read (Elt Ideal) G := by
  funext y
  rw [View.read_apply]
  obtain ⟨p, q, rfl⟩ : ∃ (p : Fin 5000) (q : Fin 2), y = ix2 p q := ⟨y 0, y 1, eq_ix2 y⟩
  show f (ix2 p q) = G (((cfg3.win 5).blk t).view.emb (ix2 p q))
  rw [hr p q]
  refine congrArg _ (funext fun a => Fin.ext ?_)
  obtain ⟨-, -, -, -, -, -, -, -, -, -, e0, e1⟩ := block_indices t
  match a with
  | ⟨0, _⟩ => show t.val * 5000 + p.val = win3_5.index t (0 : Fin 2) * 5000 + 1 * p.val; rw [e0]; omega
  | ⟨1, _⟩ => show q.val = win3_5.index t (1 : Fin 2) * 2 + 1 * q.val; rw [e1]; omega

/-! ## What a point writes back, and the whole array -/

/-- What point t writes back is block t of the whole-array expression of the arrays as the region finds them. -/
theorem flushed3_eq (c : Dev nD) (W : FVec Ideal S576x2 .f32)
    (hW1 : ∀ (k : Fin 512) (q : Fin 2), V c main_v80 (ix2 k q) = W (ix2 (⟨k.val, by omega⟩ : Fin 576) q))
    (hW2 : ∀ (k : Fin 64) (q : Fin 2), V c main_v81 (ix2 k q) = W (ix2 (⟨512 + k.val, by omega⟩ : Fin 576) q))
    (hj : Shape.Concatenates [S100000x512, S100000x64] (⟨2, ![100000, 576]⟩ : Shape) 1)
    (hB : S1x2.BroadcastsInDim S100000x2 ![0, 1]) (t : Fin cfg3.N) :
    (dat3 (F := Ideal) V c).flushed 5 t
      = ((cfg3.win 5).blk t).view.read (Elt Ideal)
          (finalG (V c main_v79) (V c main_arg3) W (V c main_v82) hj hB) := by
  show (cfg3.win 5).cut (grid3.coords t) ((dat3 (F := Ideal) V c).after 5 t) = _
  rw [after3_5]
  unfold out3_5
  rw [View.canon_unit_zero zero_offsets]
  simp only [View.ld_unit_zero (S := S5000x512) zero_offsets, View.ld_unit_zero (S := S5000x64) zero_offsets,
    View.ld_unit_zero (S := S512x2) zero_offsets, View.ld_unit_zero (S := S64x2) zero_offsets,
    View.ld_unit_zero (S := S1x2) zero_offsets]
  exact read_of_rows t _ _
    (final_rows (group_le t) _ _ _ _ _ _ _ W _ (rows_emb V c t) (rows_op V c t) (block_bias V c t)
      (fun k q => (block_wa V c t k q).trans (hW1 k q)) (fun k q => (block_wb V c t k q).trans (hW2 k q)) hj hB)

/-- An index of the output array is in point t's block iff each coordinate is in the block's range on its axis. -/
theorem mem_block (t : Fin cfg3.N) (i : S100000x2.Idx) :
    i ∈ ((cfg3.win 5).blk t).view.set ↔ ∀ a : Fin 2, win3_5.index t a * S5000x2.size a ≤ (i a).val
      ∧ (i a).val < win3_5.index t a * S5000x2.size a + S5000x2.size a := by
  show i ∈ ((View.whole main_v83).slice (win3_5.rect t)).set ↔ _
  rw [View.set_slice_whole, Rect.mem_set_unit]
  exact Iff.rfl

/-- Every row r of the output lies in the group r / 5000, and every point writes its block back. -/
theorem cover (i : S100000x2.Idx) :
    ∃ t : Fin cfg3.N, (cfg3.win 5).flush t = true ∧ i ∈ ((cfg3.win 5).blk t).view.set := by
  have hi0 : (i 0).val < 100000 := (i 0).isLt
  have hi1 : (i 1).val < 2 := (i 1).isLt
  have hN : grid3.N = 20 := N_3
  have ht : (i 0).val / 5000 < cfg3.N := by show (i 0).val / 5000 < grid3.N; rw [hN]; omega
  refine ⟨⟨(i 0).val / 5000, ht⟩, flush3_5 _, ?_⟩
  rw [mem_block]
  obtain ⟨-, -, -, -, -, -, -, -, -, -, e0, e1⟩ := block_indices ⟨(i 0).val / 5000, ht⟩
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ (1 : Fin 2) * 2 ≤ (i 1).val
      ∧ (i 1).val < win3_5.index ⟨(i 0).val / 5000, ht⟩ (1 : Fin 2) * 2 + 2
    rw [e1]; omega

/-- The output array after the region: the joined arrays times the whole weight matrix, plus the bias row. -/
theorem final3 (c : Dev nD) (W : FVec Ideal S576x2 .f32)
    (hW1 : ∀ (k : Fin 512) (q : Fin 2), V c main_v80 (ix2 k q) = W (ix2 (⟨k.val, by omega⟩ : Fin 576) q))
    (hW2 : ∀ (k : Fin 64) (q : Fin 2), V c main_v81 (ix2 k q) = W (ix2 (⟨512 + k.val, by omega⟩ : Fin 576) q))
    (hj : Shape.Concatenates [S100000x512, S100000x64] (⟨2, ![100000, 576]⟩ : Shape) 1)
    (hB : S1x2.BroadcastsInDim S100000x2 ![0, 1]) :
    (dat3 (F := Ideal) V c).arrAt 5 cfg3.N
      = addf (Host.dotGeneral (φ₁ := .f32) (DotDims.plain 100000 576 2) none
               (concatenate (⟨2, ![100000, 576]⟩ : Shape) 1 [⟨S100000x512, V c main_v79⟩, ⟨S100000x64, V c main_arg3⟩] hj) W)
          (broadcastInDim S100000x2 ![0, 1] hB (V c main_v82)) :=
  (dat3 (F := Ideal) V c).arrAt_eq_of_cover 5 (finalG (V c main_v79) (V c main_arg3) W (V c main_v82) hj hB)
    (fun t _ => flushed3_eq V c W hW1 hW2 hj hB t) cover

end Cert.KernelIdeal.RegionValue
end
-- ==== Proof.HostChain.lean ====
import proofs.«144980_j6090263625952_1_alg».proof.Proof.Gen.KernelIdeal.Frame
import proofs.«144980_j6090263625952_1_alg».proof.Proof.Spec
import Idealize.ShloMosaic.PureOps.Ideal
import Idealize.ShloMosaic.PureOps.Ideal.Laws
import Idealize.ShloMosaic.Lib.ValueLayout
import Idealize.ShloMosaic.Lib.Pipeline.Value
import proofs.«144980_j6090263625952_1_alg».proof.Proof.LibJoinFold
import proofs.«144980_j6090263625952_1_alg».proof.Proof.LibHostLine
import proofs.«144980_j6090263625952_1_alg».proof.Proof.DenseRegions
import proofs.«144980_j6090263625952_1_alg».proof.Proof.FinalRegion

/-!
  The kernel program's buffers when its first region is entered: the arcs' sources, targets and coefficients as the
  network's stage functions of the edge arguments, the zero bias rows, and the arguments themselves.
-/

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo Idealize.ShloMosaic.JoinFold Idealize.ShloMosaic.ValueIdx

variable (m : (ℓ : Loc nD τ sig) → Buf (Elt Ideal) ℓ) (ρ : Dev nD → PrngReg) (c : Dev nD)

/-- After the first stretch: the arcs' sources. -/
theorem W1_src : W1 m ρ c (Proc.devRef .tc main_v9) = Cert.Net.srcOf (F := Ideal) (m ((c.tc : Thread nD τ).loc main_arg1)) := by
  dsimp only [W1, hostOps0]
  fold_results
  rfl

/-- The arcs' targets. -/
theorem W1_dst : W1 m ρ c (Proc.devRef .tc main_v10) = Cert.Net.dstOf (F := Ideal) (m ((c.tc : Thread nD τ).loc main_arg1)) := by
  dsimp only [W1, hostOps0]
  fold_results
  rfl

/-- The arcs' weights. -/
theorem W1_w : W1 m ρ c (Proc.devRef .tc main_v12) = Cert.Net.weightOf (F := Ideal) (m ((c.tc : Thread nD τ).loc main_arg2)) := by
  dsimp only [W1, hostOps0]
  fold_results
  rfl

/-- Where the degree is positive. -/
theorem W1_gt : W1 m ρ c (Proc.devRef .tc main_v17) = cmpf .ogt (Cert.Net.degOf (F := Ideal) (m ((c.tc : Thread nD τ).loc main_arg1)) (m ((c.tc : Thread nD τ).loc main_arg2))) (broadcastInDim S100000 ![] bcast_S_S100000 (constant (F := Ideal) S_ .f32 0x00000000#32)) := by
  dsimp only [W1, hostOps0]
  fold_results
  rfl

/-- The reciprocal square root of the degree, floored. -/
theorem W1_rs : W1 m ρ c (Proc.devRef .tc main_v20) = Host.rsqrt (maximumf (Cert.Net.degOf (F := Ideal) (m ((c.tc : Thread nD τ).loc main_arg1)) (m ((c.tc : Thread nD τ).loc main_arg2))) (broadcastInDim S100000 ![] bcast_S_S100000 (constant (F := Ideal) S_ .f32 0x0DA24260#32))) := by
  dsimp only [W1, hostOps0]
  fold_results
  rfl

/-- The scalar zero the selection falls back to. -/
theorem W1_cst5 : W1 m ρ c (Proc.devRef .tc main_cst_5) = constant (F := Ideal) S_ .f32 0x00000000#32 := by
  dsimp only [W1, hostOps0]
  fold_results

/-! The outlined selection moves its operands between a buffer's contents and a value's contents along an equation of
    two equal types: the identity, once per buffer. -/
theorem ofBuf_v17 (p q r) (v : (⟨S100000, .i1⟩ : BufTy).Contents (Elt Ideal)) :
    (TRef.of (sig := sig) (T := ⟨S100000, .i1⟩) main_v17 p q r).ofBuf (Val := Elt Ideal) v = v := rfl
theorem ofBuf_v20 (p q r) (v : (⟨S100000, .f32⟩ : BufTy).Contents (Elt Ideal)) :
    (TRef.of (sig := sig) (T := ⟨S100000, .f32⟩) main_v20 p q r).ofBuf (Val := Elt Ideal) v = v := rfl
theorem ofBuf_cst_5 (p q r) (v : (⟨S_, .f32⟩ : BufTy).Contents (Elt Ideal)) :
    (TRef.of (sig := sig) (T := ⟨S_, .f32⟩) main_cst_5 p q r).ofBuf (Val := Elt Ideal) v = v := rfl
theorem toBuf_v21 (p q r) (v : (⟨S100000, .f32⟩ : BufTy).Contents (Elt Ideal)) :
    (TRef.of (sig := sig) (T := ⟨S100000, .f32⟩) main_v21 p q r).toBuf (Val := Elt Ideal) v = v := rfl

/-- After the selection: dinv. -/
theorem W2_dinv : W2 m ρ c (Proc.devRef .tc main_v21) = Cert.Net.dinvOf (F := Ideal) (m ((c.tc : Thread nD τ).loc main_arg1)) (m ((c.tc : Thread nD τ).loc main_arg2)) := by
  have h0 := W1_gt m ρ c
  have h1 := W1_rs m ρ c
  have h2 := W1_cst5 m ρ c
  dsimp only [W2, hostOps0_1]
  generalize W1 m ρ c = V at h0 h1 h2 ⊢
  fold_results [h0, h1, h2, Cert.Lib.HostLine.ofBuf_toBuf, ofBuf_v17, ofBuf_v20, ofBuf_cst_5, toBuf_v21]
  rfl

theorem W2_src : W2 m ρ c (Proc.devRef .tc main_v9) = Cert.Net.srcOf (F := Ideal) (m ((c.tc : Thread nD τ).loc main_arg1)) := by
  have h0 := W1_src m ρ c
  dsimp only [W2, hostOps0_1]
  generalize W1 m ρ c = V at h0 ⊢
  fold_results [h0]

theorem W2_dst : W2 m ρ c (Proc.devRef .tc main_v10) = Cert.Net.dstOf (F := Ideal) (m ((c.tc : Thread nD τ).loc main_arg1)) := by
  have h0 := W1_dst m ρ c
  dsimp only [W2, hostOps0_1]
  generalize W1 m ρ c = V at h0 ⊢
  fold_results [h0]

theorem W2_w : W2 m ρ c (Proc.devRef .tc main_v12) = Cert.Net.weightOf (F := Ideal) (m ((c.tc : Thread nD τ).loc main_arg2)) := by
  have h0 := W1_w m ρ c
  dsimp only [W2, hostOps0_1]
  generalize W1 m ρ c = V at h0 ⊢
  fold_results [h0]

/-- When the first region is entered: the arcs' coefficients. -/
theorem W3_coef : W3 m ρ c (Proc.devRef .tc main_v37) = Cert.Net.coefOf (F := Ideal) (m ((c.tc : Thread nD τ).loc main_arg1)) (m ((c.tc : Thread nD τ).loc main_arg2)) := by
  have h0 := W2_dinv m ρ c
  have h1 := W2_src m ρ c
  have h2 := W2_dst m ρ c
  have h3 := W2_w m ρ c
  dsimp only [W3, hostOps0_2]
  generalize W2 m ρ c = V at h0 h1 h2 h3 ⊢
  fold_results [h0, h1, h2, h3]
  rfl

theorem W3_src : W3 m ρ c (Proc.devRef .tc main_v9) = Cert.Net.srcOf (F := Ideal) (m ((c.tc : Thread nD τ).loc main_arg1)) := by
  have h0 := W2_src m ρ c
  dsimp only [W3, hostOps0_2]
  generalize W2 m ρ c = V at h0 ⊢
  fold_results [h0]

theorem W3_dst : W3 m ρ c (Proc.devRef .tc main_v10) = Cert.Net.dstOf (F := Ideal) (m ((c.tc : Thread nD τ).loc main_arg1)) := by
  have h0 := W2_dst m ρ c
  dsimp only [W3, hostOps0_2]
  generalize W2 m ρ c = V at h0 ⊢
  fold_results [h0]

/-- The first region's bias row: zeros. -/
theorem W3_z40 : W3 m ρ c (Proc.devRef .tc main_v40) = shapeCast S1x64 (broadcastInDim S64 ![] bcast_S_S64 (constant (F := Ideal) S_ .f32 0x00000000#32)) shapeCasts_S64_S1x64 := by
  dsimp only [W3, hostOps0_2]
  generalize W2 m ρ c = V
  fold_results
  rfl

/-- The zero vector the second region's bias row is made of. -/
theorem W3_z39 : W3 m ρ c (Proc.devRef .tc main_v39) = broadcastInDim S64 ![] bcast_S_S64 (constant (F := Ideal) S_ .f32 0x00000000#32) := by
  dsimp only [W3, hostOps0_2]
  generalize W2 m ρ c = V
  fold_results

/-! ## Two facts about bias rows -/

/-- Adding a row of zeros to every row changes nothing. -/
theorem add_zero_row {B n : ℕ} (X : FVec Ideal ⟨2, ![B, n]⟩ .f32)
    (hB : (⟨2, ![1, n]⟩ : Shape).BroadcastsInDim ⟨2, ![B, n]⟩ ![0, 1])
    (hc : (⟨1, ![n]⟩ : Shape).ShapeCasts ⟨2, ![1, n]⟩) (hb : (⟨0, ![]⟩ : Shape).BroadcastsInDim ⟨1, ![n]⟩ ![]) :
    addf X (broadcastInDim ⟨2, ![B, n]⟩ ![0, 1] hB
      (shapeCast ⟨2, ![1, n]⟩ (broadcastInDim ⟨1, ![n]⟩ ![] hb (constant (F := Ideal) ⟨0, ![]⟩ .f32 0x00000000#32)) hc)) = X := by
  funext i
  obtain ⟨p, q, rfl⟩ : ∃ (p : Fin B) (q : Fin n), i = ix2 p q := ⟨i 0, i 1, eq_ix2 i⟩
  have e1 : broadcastInDim ⟨2, ![B, n]⟩ ![0, 1] hB
      (shapeCast ⟨2, ![1, n]⟩ (broadcastInDim ⟨1, ![n]⟩ ![] hb (constant (F := Ideal) ⟨0, ![]⟩ .f32 0x00000000#32)) hc) (ix2 p q)
      = shapeCast ⟨2, ![1, n]⟩ (broadcastInDim ⟨1, ![n]⟩ ![] hb (constant (F := Ideal) ⟨0, ![]⟩ .f32 0x00000000#32)) hc (ix2 (0 : Fin 1) q) := by
    refine broadcastInDim_apply ![0, 1] hB _ (ix2 p q) (ix2 (0 : Fin 1) q) fun ax => ?_
    match ax with
    | ⟨0, _⟩ => rfl
    | ⟨1, _⟩ =>
      show q.val = if n = 1 then 0 else q.val
      split
      · have := q.isLt; omega
      · rfl
  have e2 : broadcastInDim ⟨1, ![n]⟩ ![] hb (constant (F := Ideal) ⟨0, ![]⟩ .f32 0x00000000#32) (ix1 q) = (0 : EReal) :=
    (broadcastInDim_apply ![] hb (constant (F := Ideal) ⟨0, ![]⟩ .f32 0x00000000#32) (ix1 q) ix0 (fun a => a.elim0)).trans
      Ideal.ofBits_zero_f32
  show X (ix2 p q) + _ = X (ix2 p q)
  rw [e1, shapeCast_a_1a_apply _ hc (0 : Fin 1) q, e2, add_zero]

theorem W3_arg0 : W3 m ρ c (Proc.devRef .tc main_arg0) = (m ((c.tc : Thread nD τ).loc main_arg0)) := by
  dsimp only [W3, W2, W1, hostOps0, hostOps0_1, hostOps0_2]
  fold_results
theorem W3_arg3 : W3 m ρ c (Proc.devRef .tc main_arg3) = (m ((c.tc : Thread nD τ).loc main_arg3)) := by
  dsimp only [W3, W2, W1, hostOps0, hostOps0_1, hostOps0_2]
  fold_results
theorem W3_arg4 : W3 m ρ c (Proc.devRef .tc main_arg4) = (m ((c.tc : Thread nD τ).loc main_arg4)) := by
  dsimp only [W3, W2, W1, hostOps0, hostOps0_1, hostOps0_2]
  fold_results
theorem W3_arg5 : W3 m ρ c (Proc.devRef .tc main_arg5) = (m ((c.tc : Thread nD τ).loc main_arg5)) := by
  dsimp only [W3, W2, W1, hostOps0, hostOps0_1, hostOps0_2]
  fold_results
theorem W3_arg6 : W3 m ρ c (Proc.devRef .tc main_arg6) = (m ((c.tc : Thread nD τ).loc main_arg6)) := by
  dsimp only [W3, W2, W1, hostOps0, hostOps0_1, hostOps0_2]
  fold_results
theorem W3_arg7 : W3 m ρ c (Proc.devRef .tc main_arg7) = (m ((c.tc : Thread nD τ).loc main_arg7)) := by
  dsimp only [W3, W2, W1, hostOps0, hostOps0_1, hostOps0_2]
  fold_results
theorem W3_arg8 : W3 m ρ c (Proc.devRef .tc main_arg8) = (m ((c.tc : Thread nD τ).loc main_arg8)) := by
  dsimp only [W3, W2, W1, hostOps0, hostOps0_1, hostOps0_2]
  fold_results
theorem W3_arg9 : W3 m ρ c (Proc.devRef .tc main_arg9) = (m ((c.tc : Thread nD τ).loc main_arg9)) := by
  dsimp only [W3, W2, W1, hostOps0, hostOps0_1, hostOps0_2]
  fold_results
theorem W3_arg10 : W3 m ρ c (Proc.devRef .tc main_arg10) = (m ((c.tc : Thread nD τ).loc main_arg10)) := by
  dsimp only [W3, W2, W1, hostOps0, hostOps0_1, hostOps0_2]
  fold_results
theorem W3_arg11 : W3 m ρ c (Proc.devRef .tc main_arg11) = (m ((c.tc : Thread nD τ).loc main_arg11)) := by
  dsimp only [W3, W2, W1, hostOps0, hostOps0_1, hostOps0_2]
  fold_results

/-! ## The first region and the first layer -/

/-- The first region leaves the product of the features with the first weights (its bias row is zero). -/
theorem W4_h : W4 m ρ c (Proc.devRef .tc main_v41) = (Host.dotGeneral (F := Ideal) (φ₁ := .f32) (φ₂ := .f32) (DotDims.plain 100000 512 64) none (m ((c.tc : Thread nD τ).loc main_arg0)) (m ((c.tc : Thread nD τ).loc main_arg4))) := by
  refine ((W4_arr m ρ c 3).trans (RegionValue.dense0 (V3 m ρ) c bcast_S1x64_S100000x64_0_1)).trans ?_
  dsimp only [V3]
  rw [W3_arg0 m ρ c, W3_arg4 m ρ c, W3_z40 m ρ c]
  exact add_zero_row _ _ _ _

theorem W4_coef : W4 m ρ c (Proc.devRef .tc main_v37) = Cert.Net.coefOf (F := Ideal) (m ((c.tc : Thread nD τ).loc main_arg1)) (m ((c.tc : Thread nD τ).loc main_arg2)) :=
  (W4_of_ne m ρ c main_v37 (by decide)).trans (W3_coef m ρ c)
theorem W4_src : W4 m ρ c (Proc.devRef .tc main_v9) = Cert.Net.srcOf (F := Ideal) (m ((c.tc : Thread nD τ).loc main_arg1)) :=
  (W4_of_ne m ρ c main_v9 (by decide)).trans (W3_src m ρ c)
theorem W4_dst : W4 m ρ c (Proc.devRef .tc main_v10) = Cert.Net.dstOf (F := Ideal) (m ((c.tc : Thread nD τ).loc main_arg1)) :=
  (W4_of_ne m ρ c main_v10 (by decide)).trans (W3_dst m ρ c)
theorem W4_z39 : W4 m ρ c (Proc.devRef .tc main_v39) = broadcastInDim S64 ![] bcast_S_S64 (constant (F := Ideal) S_ .f32 0x00000000#32) :=
  (W4_of_ne m ρ c main_v39 (by decide)).trans (W3_z39 m ρ c)
theorem W4_arg3 : W4 m ρ c (Proc.devRef .tc main_arg3) = (m ((c.tc : Thread nD τ).loc main_arg3)) :=
  (W4_of_ne m ρ c main_arg3 (by decide)).trans (W3_arg3 m ρ c)
theorem W4_arg5 : W4 m ρ c (Proc.devRef .tc main_arg5) = (m ((c.tc : Thread nD τ).loc main_arg5)) :=
  (W4_of_ne m ρ c main_arg5 (by decide)).trans (W3_arg5 m ρ c)
theorem W4_arg6 : W4 m ρ c (Proc.devRef .tc main_arg6) = (m ((c.tc : Thread nD τ).loc main_arg6)) :=
  (W4_of_ne m ρ c main_arg6 (by decide)).trans (W3_arg6 m ρ c)
theorem W4_arg7 : W4 m ρ c (Proc.devRef .tc main_arg7) = (m ((c.tc : Thread nD τ).loc main_arg7)) :=
  (W4_of_ne m ρ c main_arg7 (by decide)).trans (W3_arg7 m ρ c)
theorem W4_arg8 : W4 m ρ c (Proc.devRef .tc main_arg8) = (m ((c.tc : Thread nD τ).loc main_arg8)) :=
  (W4_of_ne m ρ c main_arg8 (by decide)).trans (W3_arg8 m ρ c)
theorem W4_arg9 : W4 m ρ c (Proc.devRef .tc main_arg9) = (m ((c.tc : Thread nD τ).loc main_arg9)) :=
  (W4_of_ne m ρ c main_arg9 (by decide)).trans (W3_arg9 m ρ c)
theorem W4_arg10 : W4 m ρ c (Proc.devRef .tc main_arg10) = (m ((c.tc : Thread nD τ).loc main_arg10)) :=
  (W4_of_ne m ρ c main_arg10 (by decide)).trans (W3_arg10 m ρ c)
theorem W4_arg11 : W4 m ρ c (Proc.devRef .tc main_arg11) = (m ((c.tc : Thread nD τ).loc main_arg11)) :=
  (W4_of_ne m ρ c main_arg11 (by decide)).trans (W3_arg11 m ρ c)

/-- The first layer before its negative part is dropped. -/
theorem W5_pre : W5 m ρ c (Proc.devRef .tc main_v57) = Cert.Net.preact (F := Ideal) (Host.dotGeneral (F := Ideal) (φ₁ := .f32) (φ₂ := .f32) (DotDims.plain 100000 512 64) none (m ((c.tc : Thread nD τ).loc main_arg0)) (m ((c.tc : Thread nD τ).loc main_arg4))) (m ((c.tc : Thread nD τ).loc main_arg5)) (m ((c.tc : Thread nD τ).loc main_arg1)) (m ((c.tc : Thread nD τ).loc main_arg2)) := by
  have h0 := W4_h m ρ c
  have h1 := W4_coef m ρ c
  have h2 := W4_src m ρ c
  have h3 := W4_dst m ρ c
  have h4 := W4_arg5 m ρ c
  dsimp only [W5, hostOps1]
  generalize W4 m ρ c = V at h0 h1 h2 h3 h4 ⊢
  fold_results [h0, h1, h2, h3, h4]
  rfl

theorem ofBuf_v57 (p q r) (v : (⟨S100000x64, .f32⟩ : BufTy).Contents (Elt Ideal)) :
    (TRef.of (sig := sig) (T := ⟨S100000x64, .f32⟩) main_v57 p q r).ofBuf (Val := Elt Ideal) v = v := rfl
theorem toBuf_v58 (p q r) (v : (⟨S100000x64, .f32⟩ : BufTy).Contents (Elt Ideal)) :
    (TRef.of (sig := sig) (T := ⟨S100000x64, .f32⟩) main_v58 p q r).toBuf (Val := Elt Ideal) v = v := rfl

/-- When the second region is entered: the first layer's output. -/
theorem W7_h1 : W7 m ρ c (Proc.devRef .tc main_v58) = (Cert.Net.hidden1 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) := by
  have h0 := W5_pre m ρ c
  dsimp only [W7, W6, hostOps1_1, hostOps1_2]
  generalize W5 m ρ c = V at h0 ⊢
  fold_results [h0, Cert.Lib.HostLine.ofBuf_toBuf, ofBuf_v57, toBuf_v58]
  rfl

/-- The second region's bias row: zeros. -/
theorem W7_z59 : W7 m ρ c (Proc.devRef .tc main_v59) = shapeCast S1x64 (broadcastInDim S64 ![] bcast_S_S64 (constant (F := Ideal) S_ .f32 0x00000000#32)) shapeCasts_S64_S1x64 := by
  have h0 := W4_z39 m ρ c
  dsimp only [W7, W6, W5, hostOps1, hostOps1_1, hostOps1_2]
  generalize W4 m ρ c = V at h0 ⊢
  fold_results [h0]
  rfl

theorem W7_coef : W7 m ρ c (Proc.devRef .tc main_v37) = Cert.Net.coefOf (F := Ideal) (m ((c.tc : Thread nD τ).loc main_arg1)) (m ((c.tc : Thread nD τ).loc main_arg2)) := by
  have h0 := W4_coef m ρ c
  dsimp only [W7, W6, W5, hostOps1, hostOps1_1, hostOps1_2]
  generalize W4 m ρ c = V at h0 ⊢
  fold_results [h0]

theorem W7_src : W7 m ρ c (Proc.devRef .tc main_v9) = Cert.Net.srcOf (F := Ideal) (m ((c.tc : Thread nD τ).loc main_arg1)) := by
  have h0 := W4_src m ρ c
  dsimp only [W7, W6, W5, hostOps1, hostOps1_1, hostOps1_2]
  generalize W4 m ρ c = V at h0 ⊢
  fold_results [h0]

theorem W7_dst : W7 m ρ c (Proc.devRef .tc main_v10) = Cert.Net.dstOf (F := Ideal) (m ((c.tc : Thread nD τ).loc main_arg1)) := by
  have h0 := W4_dst m ρ c
  dsimp only [W7, W6, W5, hostOps1, hostOps1_1, hostOps1_2]
  generalize W4 m ρ c = V at h0 ⊢
  fold_results [h0]

theorem W7_arg3 : W7 m ρ c (Proc.devRef .tc main_arg3) = (m ((c.tc : Thread nD τ).loc main_arg3)) := by
  have h0 := W4_arg3 m ρ c
  dsimp only [W7, W6, W5, hostOps1, hostOps1_1, hostOps1_2]
  generalize W4 m ρ c = V at h0 ⊢
  fold_results [h0]

theorem W7_arg6 : W7 m ρ c (Proc.devRef .tc main_arg6) = (m ((c.tc : Thread nD τ).loc main_arg6)) := by
  have h0 := W4_arg6 m ρ c
  dsimp only [W7, W6, W5, hostOps1, hostOps1_1, hostOps1_2]
  generalize W4 m ρ c = V at h0 ⊢
  fold_results [h0]

theorem W7_arg7 : W7 m ρ c (Proc.devRef .tc main_arg7) = (m ((c.tc : Thread nD τ).loc main_arg7)) := by
  have h0 := W4_arg7 m ρ c
  dsimp only [W7, W6, W5, hostOps1, hostOps1_1, hostOps1_2]
  generalize W4 m ρ c = V at h0 ⊢
  fold_results [h0]

theorem W7_arg8 : W7 m ρ c (Proc.devRef .tc main_arg8) = (m ((c.tc : Thread nD τ).loc main_arg8)) := by
  have h0 := W4_arg8 m ρ c
  dsimp only [W7, W6, W5, hostOps1, hostOps1_1, hostOps1_2]
  generalize W4 m ρ c = V at h0 ⊢
  fold_results [h0]

theorem W7_arg9 : W7 m ρ c (Proc.devRef .tc main_arg9) = (m ((c.tc : Thread nD τ).loc main_arg9)) := by
  have h0 := W4_arg9 m ρ c
  dsimp only [W7, W6, W5, hostOps1, hostOps1_1, hostOps1_2]
  generalize W4 m ρ c = V at h0 ⊢
  fold_results [h0]

theorem W7_arg10 : W7 m ρ c (Proc.devRef .tc main_arg10) = (m ((c.tc : Thread nD τ).loc main_arg10)) := by
  have h0 := W4_arg10 m ρ c
  dsimp only [W7, W6, W5, hostOps1, hostOps1_1, hostOps1_2]
  generalize W4 m ρ c = V at h0 ⊢
  fold_results [h0]

theorem W7_arg11 : W7 m ρ c (Proc.devRef .tc main_arg11) = (m ((c.tc : Thread nD τ).loc main_arg11)) := by
  have h0 := W4_arg11 m ρ c
  dsimp only [W7, W6, W5, hostOps1, hostOps1_1, hostOps1_2]
  generalize W4 m ρ c = V at h0 ⊢
  fold_results [h0]

/-! ## The second region and the second layer -/

/-- The second region leaves the product of the first layer's output with the second weights. -/
theorem W8_h : W8 m ρ c (Proc.devRef .tc main_v60) = (Host.dotGeneral (F := Ideal) (φ₁ := .f32) (φ₂ := .f32) (DotDims.plain 100000 64 64) none (Cert.Net.hidden1 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6))) := by
  refine ((W8_arr m ρ c 3).trans (RegionValue.dense1 (V7 m ρ) c bcast_S1x64_S100000x64_0_1)).trans ?_
  dsimp only [V7]
  rw [W7_h1 m ρ c, W7_arg6 m ρ c, W7_z59 m ρ c]
  exact add_zero_row _ _ _ _

theorem W8_coef : W8 m ρ c (Proc.devRef .tc main_v37) = Cert.Net.coefOf (F := Ideal) (m ((c.tc : Thread nD τ).loc main_arg1)) (m ((c.tc : Thread nD τ).loc main_arg2)) :=
  (W8_of_ne m ρ c main_v37 (by decide)).trans (W7_coef m ρ c)
theorem W8_src : W8 m ρ c (Proc.devRef .tc main_v9) = Cert.Net.srcOf (F := Ideal) (m ((c.tc : Thread nD τ).loc main_arg1)) :=
  (W8_of_ne m ρ c main_v9 (by decide)).trans (W7_src m ρ c)
theorem W8_dst : W8 m ρ c (Proc.devRef .tc main_v10) = Cert.Net.dstOf (F := Ideal) (m ((c.tc : Thread nD τ).loc main_arg1)) :=
  (W8_of_ne m ρ c main_v10 (by decide)).trans (W7_dst m ρ c)
theorem W8_arg3 : W8 m ρ c (Proc.devRef .tc main_arg3) = (m ((c.tc : Thread nD τ).loc main_arg3)) :=
  (W8_of_ne m ρ c main_arg3 (by decide)).trans (W7_arg3 m ρ c)
theorem W8_arg7 : W8 m ρ c (Proc.devRef .tc main_arg7) = (m ((c.tc : Thread nD τ).loc main_arg7)) :=
  (W8_of_ne m ρ c main_arg7 (by decide)).trans (W7_arg7 m ρ c)
theorem W8_arg8 : W8 m ρ c (Proc.devRef .tc main_arg8) = (m ((c.tc : Thread nD τ).loc main_arg8)) :=
  (W8_of_ne m ρ c main_arg8 (by decide)).trans (W7_arg8 m ρ c)
theorem W8_arg9 : W8 m ρ c (Proc.devRef .tc main_arg9) = (m ((c.tc : Thread nD τ).loc main_arg9)) :=
  (W8_of_ne m ρ c main_arg9 (by decide)).trans (W7_arg9 m ρ c)
theorem W8_arg10 : W8 m ρ c (Proc.devRef .tc main_arg10) = (m ((c.tc : Thread nD τ).loc main_arg10)) :=
  (W8_of_ne m ρ c main_arg10 (by decide)).trans (W7_arg10 m ρ c)
theorem W8_arg11 : W8 m ρ c (Proc.devRef .tc main_arg11) = (m ((c.tc : Thread nD τ).loc main_arg11)) :=
  (W8_of_ne m ρ c main_arg11 (by decide)).trans (W7_arg11 m ρ c)

/-- The second layer before its negative part is dropped. -/
theorem W9_pre : W9 m ρ c (Proc.devRef .tc main_v76) = Cert.Net.preact (F := Ideal) (Host.dotGeneral (F := Ideal) (φ₁ := .f32) (φ₂ := .f32) (DotDims.plain 100000 64 64) none (Cert.Net.hidden1 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6))) (m ((c.tc : Thread nD τ).loc main_arg7)) (m ((c.tc : Thread nD τ).loc main_arg1)) (m ((c.tc : Thread nD τ).loc main_arg2)) := by
  have h0 := W8_h m ρ c
  have h1 := W8_coef m ρ c
  have h2 := W8_src m ρ c
  have h3 := W8_dst m ρ c
  have h4 := W8_arg7 m ρ c
  dsimp only [W9, hostOps2]
  generalize W8 m ρ c = V at h0 h1 h2 h3 h4 ⊢
  fold_results [h0, h1, h2, h3, h4]
  rfl

theorem ofBuf_v76 (p q r) (v : (⟨S100000x64, .f32⟩ : BufTy).Contents (Elt Ideal)) :
    (TRef.of (sig := sig) (T := ⟨S100000x64, .f32⟩) main_v76 p q r).ofBuf (Val := Elt Ideal) v = v := rfl
theorem toBuf_v77 (p q r) (v : (⟨S100000x64, .f32⟩ : BufTy).Contents (Elt Ideal)) :
    (TRef.of (sig := sig) (T := ⟨S100000x64, .f32⟩) main_v77 p q r).toBuf (Val := Elt Ideal) v = v := rfl

/-- When the third region is entered: the second layer's output. -/
theorem W11_h2 : W11 m ρ c (Proc.devRef .tc main_v77) = (Cert.Net.hidden2 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) := by
  have h0 := W9_pre m ρ c
  dsimp only [W11, W10, hostOps2_1, hostOps2_2]
  generalize W9 m ρ c = V at h0 ⊢
  fold_results [h0, Cert.Lib.HostLine.ofBuf_toBuf, ofBuf_v76, toBuf_v77]
  rfl

/-- The third region's bias row: the embedding's bias as a row. -/
theorem W11_b78 : W11 m ρ c (Proc.devRef .tc main_v78) = shapeCast S1x512 (m ((c.tc : Thread nD τ).loc main_arg9)) shapeCasts_S512_S1x512 := by
  have h0 := W8_arg9 m ρ c
  dsimp only [W11, W10, W9, hostOps2, hostOps2_1, hostOps2_2]
  generalize W8 m ρ c = V at h0 ⊢
  fold_results [h0]
  rfl

theorem W11_arg3 : W11 m ρ c (Proc.devRef .tc main_arg3) = (m ((c.tc : Thread nD τ).loc main_arg3)) := by
  have h0 := W8_arg3 m ρ c
  dsimp only [W11, W10, W9, hostOps2, hostOps2_1, hostOps2_2]
  generalize W8 m ρ c = V at h0 ⊢
  fold_results [h0]

theorem W11_arg8 : W11 m ρ c (Proc.devRef .tc main_arg8) = (m ((c.tc : Thread nD τ).loc main_arg8)) := by
  have h0 := W8_arg8 m ρ c
  dsimp only [W11, W10, W9, hostOps2, hostOps2_1, hostOps2_2]
  generalize W8 m ρ c = V at h0 ⊢
  fold_results [h0]

theorem W11_arg10 : W11 m ρ c (Proc.devRef .tc main_arg10) = (m ((c.tc : Thread nD τ).loc main_arg10)) := by
  have h0 := W8_arg10 m ρ c
  dsimp only [W11, W10, W9, hostOps2, hostOps2_1, hostOps2_2]
  generalize W8 m ρ c = V at h0 ⊢
  fold_results [h0]

theorem W11_arg11 : W11 m ρ c (Proc.devRef .tc main_arg11) = (m ((c.tc : Thread nD τ).loc main_arg11)) := by
  have h0 := W8_arg11 m ρ c
  dsimp only [W11, W10, W9, hostOps2, hostOps2_1, hostOps2_2]
  generalize W8 m ρ c = V at h0 ⊢
  fold_results [h0]

/-! ## The third region: the embedding -/

theorem W12_emb : W12 m ρ c (Proc.devRef .tc main_v79) = (Cert.Net.embed (F := Ideal) (Cert.Net.hidden2 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9))) := by
  refine ((W12_arr m ρ c 3).trans (RegionValue.dense2 (V11 m ρ) c Cert.ReferenceIdeal.Gen.bcast_S1x512_S100000x512_0_1)).trans ?_
  dsimp only [V11]
  rw [W11_h2 m ρ c, W11_arg8 m ρ c, W11_b78 m ρ c, RowBlock.rowOfVector _ _ Cert.ReferenceIdeal.Gen.bcast_S512_S1x512_1]
  rfl

theorem W12_arg3 : W12 m ρ c (Proc.devRef .tc main_arg3) = (m ((c.tc : Thread nD τ).loc main_arg3)) :=
  (W12_of_ne m ρ c main_arg3 (by decide)).trans (W11_arg3 m ρ c)
theorem W12_arg10 : W12 m ρ c (Proc.devRef .tc main_arg10) = (m ((c.tc : Thread nD τ).loc main_arg10)) :=
  (W12_of_ne m ρ c main_arg10 (by decide)).trans (W11_arg10 m ρ c)
theorem W12_arg11 : W12 m ρ c (Proc.devRef .tc main_arg11) = (m ((c.tc : Thread nD τ).loc main_arg11)) :=
  (W12_of_ne m ρ c main_arg11 (by decide)).trans (W11_arg11 m ρ c)

/-- The head's weights, rows 0 … 511. -/
theorem W13_wa : W13 m ρ c (Proc.devRef .tc main_v80) = extractStridedSlice S512x2 ![0, 0] (m ((c.tc : Thread nD τ).loc main_arg10)) slices_S576x2_S512x2_0_0 := by
  have h0 := W12_arg10 m ρ c
  dsimp only [W13, hostOps3]
  generalize W12 m ρ c = V at h0 ⊢
  fold_results [h0]

/-- The head's weights, rows 512 … 575. -/
theorem W13_wb : W13 m ρ c (Proc.devRef .tc main_v81) = extractStridedSlice S64x2 ![512, 0] (m ((c.tc : Thread nD τ).loc main_arg10)) slices_S576x2_S64x2_512_0 := by
  have h0 := W12_arg10 m ρ c
  dsimp only [W13, hostOps3]
  generalize W12 m ρ c = V at h0 ⊢
  fold_results [h0]

/-- The head's bias as a row. -/
theorem W13_b : W13 m ρ c (Proc.devRef .tc main_v82) = shapeCast S1x2 (m ((c.tc : Thread nD τ).loc main_arg11)) shapeCasts_S2_S1x2 := by
  have h0 := W12_arg11 m ρ c
  dsimp only [W13, hostOps3]
  generalize W12 m ρ c = V at h0 ⊢
  fold_results [h0]
  rfl

theorem W13_emb : W13 m ρ c (Proc.devRef .tc main_v79) = (Cert.Net.embed (F := Ideal) (Cert.Net.hidden2 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9))) := by
  have h0 := W12_emb m ρ c
  dsimp only [W13, hostOps3]
  generalize W12 m ρ c = V at h0 ⊢
  fold_results [h0]

theorem W13_arg3 : W13 m ρ c (Proc.devRef .tc main_arg3) = (m ((c.tc : Thread nD τ).loc main_arg3)) := by
  have h0 := W12_arg3 m ρ c
  dsimp only [W13, hostOps3]
  generalize W12 m ρ c = V at h0 ⊢
  fold_results [h0]

/-! ## The fourth region: the head -/

/-- The kernel program's result is the network of its twelve arguments: the fourth region's two products with the
    upper and the lower rows of the head's weights are the one product of the joined features with all of them. -/
theorem W14_out : W14 m ρ c (Proc.devRef .tc main_v83) = Cert.Net.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine ((W14_arr m ρ c 5).trans (RegionValue.final3 (V13 m ρ) c (m ((c.tc : Thread nD τ).loc main_arg10)) ?hW1 ?hW2
    Cert.ReferenceIdeal.Gen.concatenates_S100000x512_S100000x64_S100000x576_d1
    Cert.ReferenceIdeal.Gen.bcast_S1x2_S100000x2_0_1)).trans ?_
  case hW1 =>
    intro k q
    dsimp only [V13]
    rw [W13_wa m ρ c]
    exact slice2_axis0_apply 0 _ _ k q _ (Nat.zero_add _).symm
  case hW2 =>
    intro k q
    dsimp only [V13]
    rw [W13_wb m ρ c]
    exact slice2_axis0_apply 512 _ _ k q _ rfl
  dsimp only [V13]
  rw [W13_emb m ρ c, W13_arg3 m ρ c, W13_b m ρ c, RowBlock.rowOfVector _ _ Cert.ReferenceIdeal.Gen.bcast_S2_S1x2_1]
  rfl

end Cert.KernelIdeal.HostChain

end
-- ==== Proof.RefRun.lean ====
import proofs.«144980_j6090263625952_1_alg».proof.Proof.Gen.ReferenceIdeal
import proofs.«144980_j6090263625952_1_alg».proof.Proof.LibHostLine
import Idealize.ShloMosaic.Lib.StableHlo.Run

/-!
  The reference program is a straight line of 147 host operations (the outlined functions' operations standing at
  their calls). Its run ends with every buffer at the fold of the line over the launch contents. The line is cut here
  into eleven stretches — sources, targets, weights, degrees and the first product; the selection that makes dinv; the
  coefficients; the first layer; its negative part dropped; then the second product and the same again; the head — so
  that a buffer's final contents are read one stretch at a time: the fold over a concatenation is the folds in turn.
-/

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The whole line. -/
abbrev ops : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    binary main_arg2 main_v4 main_v5 (addf : (⟨S3200000, .f32⟩ : BufTy).Contents (Elt F) → (⟨S3200000, .f32⟩ : BufTy).Contents (Elt F) → (⟨S3200000, .f32⟩ : BufTy).Contents (Elt F)),
    nullary main_cst_0 (constant S_ .f32 0x3F800000#32),
    unary main_cst_0 main_v6 (broadcastInDim S3200000 ![] bcast_S_S3200000 : (⟨S_, .f32⟩ : BufTy).Contents (Elt F) → (⟨S3200000, .f32⟩ : BufTy).Contents (Elt F)),
    binary main_v6 main_v5 main_v7 (Host.divf : (⟨S3200000, .f32⟩ : BufTy).Contents (Elt F) → (⟨S3200000, .f32⟩ : BufTy).Contents (Elt F) → (⟨S3200000, .f32⟩ : BufTy).Contents (Elt F)),
    binary main_arg0 main_arg4 main_v8 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_v9 (iotaInDim S100000 32 0),
    binary main_v1 main_v9 main_v10 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v9 main_v11 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_1 (constant S_ .f32 0x3F800000#32),
    unary main_cst_1 main_v12 (broadcastInDim S100000 ![] bcast_S_S100000 : (⟨S_, .f32⟩ : BufTy).Contents (Elt F) → (⟨S100000, .f32⟩ : BufTy).Contents (Elt F)),
    binary main_v7 main_v12 main_v13 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    unary main_v11 main_v15 (broadcastInDim S3300000x1 ![0] bcast_S3300000_S3300000x1_0 : (⟨S3300000, .i32⟩ : BufTy).Contents (Elt F) → (⟨S3300000x1, .i32⟩ : BufTy).Contents (Elt F)),
    ternary main_v14 main_v15 main_v13 main_v16 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_3 (constant S_ .f32 0x00000000#32),
    unary main_cst_3 main_v17 (broadcastInDim S100000 ![] bcast_S_S100000 : (⟨S_, .f32⟩ : BufTy).Contents (Elt F) → (⟨S100000, .f32⟩ : BufTy).Contents (Elt F)),
    binary main_v16 main_v17 main_v18 (cmpf .ogt : (⟨S100000, .f32⟩ : BufTy).Contents (Elt F) → (⟨S100000, .f32⟩ : BufTy).Contents (Elt F) → (⟨S100000, .i1⟩ : BufTy).Contents (Elt F)),
    nullary main_cst_4 (constant S_ .f32 0x0DA24260#32),
    unary main_cst_4 main_v19 (broadcastInDim S100000 ![] bcast_S_S100000 : (⟨S_, .f32⟩ : BufTy).Contents (Elt F) → (⟨S100000, .f32⟩ : BufTy).Contents (Elt F)),
    binary main_v16 main_v19 main_v20 (maximumf : (⟨S100000, .f32⟩ : BufTy).Contents (Elt F) → (⟨S100000, .f32⟩ : BufTy).Contents (Elt F) → (⟨S100000, .f32⟩ : BufTy).Contents (Elt F)),
    unary main_v20 main_v21 (Host.rsqrt : (⟨S100000, .f32⟩ : BufTy).Contents (Elt F) → (⟨S100000, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v18) (TRef.of (T := ⟨S100000, .f32⟩) main_v21) (TRef.of (T := ⟨S100000, .f32⟩) main_call0_v1) (TRef.of (T := ⟨S100000, .f32⟩) main_v22) select,
    nullary main_c (constantI S_ 32 0#32),
    unary main_c main_v23 (broadcastInDim S3300000 ![] bcast_S_S3300000 : (⟨S_, .i32⟩ : BufTy).Contents (Elt F) → (⟨S3300000, .i32⟩ : BufTy).Contents (Elt F)),
    binary main_v10 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v25 (broadcastInDim S3300000 ![] bcast_S_S3300000 : (⟨S_, .i32⟩ : BufTy).Contents (Elt F) → (⟨S3300000, .i32⟩ : BufTy).Contents (Elt F)),
    binary main_v10 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v10 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v22 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v29 main_v13 main_v30 (mulf : (⟨S3300000, .f32⟩ : BufTy).Contents (Elt F) → (⟨S3300000, .f32⟩ : BufTy).Contents (Elt F) → (⟨S3300000, .f32⟩ : BufTy).Contents (Elt F)),
    nullary main_c_7 (constantI S_ 32 0#32),
    unary main_c_7 main_v31 (broadcastInDim S3300000 ![] bcast_S_S3300000 : (⟨S_, .i32⟩ : BufTy).Contents (Elt F) → (⟨S3300000, .i32⟩ : BufTy).Contents (Elt F)),
    binary main_v11 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v33 (broadcastInDim S3300000 ![] bcast_S_S3300000 : (⟨S_, .i32⟩ : BufTy).Contents (Elt F) → (⟨S3300000, .i32⟩ : BufTy).Contents (Elt F)),
    binary main_v11 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v11 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v22 main_v36 main_v37 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v30 main_v37 main_v38 (mulf : (⟨S3300000, .f32⟩ : BufTy).Contents (Elt F) → (⟨S3300000, .f32⟩ : BufTy).Contents (Elt F) → (⟨S3300000, .f32⟩ : BufTy).Contents (Elt F)),
    unary main_v38 main_v39 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v40 (broadcastInDim S3300000 ![] bcast_S_S3300000 : (⟨S_, .i32⟩ : BufTy).Contents (Elt F) → (⟨S3300000, .i32⟩ : BufTy).Contents (Elt F)),
    binary main_v10 main_v40 main_v41 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v42 (broadcastInDim S3300000 ![] bcast_S_S3300000 : (⟨S_, .i32⟩ : BufTy).Contents (Elt F) → (⟨S3300000, .i32⟩ : BufTy).Contents (Elt F)),
    binary main_v10 main_v42 main_v43 (addi : (⟨S3300000, .i32⟩ : BufTy).Contents (Elt F) → (⟨S3300000, .i32⟩ : BufTy).Contents (Elt F) → (⟨S3300000, .i32⟩ : BufTy).Contents (Elt F)),
    ternary main_v41 main_v43 main_v10 main_v44 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v44 main_v45 (broadcastInDim S3300000x1 ![0] bcast_S3300000_S3300000x1_0 : (⟨S3300000, .i32⟩ : BufTy).Contents (Elt F) → (⟨S3300000x1, .i32⟩ : BufTy).Contents (Elt F)),
    binary main_v8 main_v45 main_v46 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v39 main_v47 (broadcastInDim S3300000x64 ![0, 1] bcast_S3300000x1_S3300000x64_0_1 : (⟨S3300000x1, .f32⟩ : BufTy).Contents (Elt F) → (⟨S3300000x64, .f32⟩ : BufTy).Contents (Elt F)),
    binary main_v47 main_v46 main_v48 (mulf : (⟨S3300000x64, .f32⟩ : BufTy).Contents (Elt F) → (⟨S3300000x64, .f32⟩ : BufTy).Contents (Elt F) → (⟨S3300000x64, .f32⟩ : BufTy).Contents (Elt F)),
    nullary main_cst_11 (constant S_ .f32 0x00000000#32),
    unary main_cst_11 main_v49 (broadcastInDim S100000x64 ![] bcast_S_S100000x64 : (⟨S_, .f32⟩ : BufTy).Contents (Elt F) → (⟨S100000x64, .f32⟩ : BufTy).Contents (Elt F)),
    unary main_v11 main_v50 (broadcastInDim S3300000x1 ![0] bcast_S3300000_S3300000x1_0 : (⟨S3300000, .i32⟩ : BufTy).Contents (Elt F) → (⟨S3300000x1, .i32⟩ : BufTy).Contents (Elt F)),
    ternary main_v49 main_v50 main_v48 main_v51 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v51 main_v53 main_v54 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v54) (TRef.of (T := ⟨S100000x64, .f32⟩) main_call1_v0) (TRef.of (T := ⟨S100000x64, .f32⟩) main_v55) maximumf,
    binary main_v55 main_arg6 main_v56 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_v57 (iotaInDim S100000 32 0),
    binary main_v1 main_v57 main_v58 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v57 main_v59 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_12 (constant S_ .f32 0x3F800000#32),
    unary main_cst_12 main_v60 (broadcastInDim S100000 ![] bcast_S_S100000 : (⟨S_, .f32⟩ : BufTy).Contents (Elt F) → (⟨S100000, .f32⟩ : BufTy).Contents (Elt F)),
    binary main_v7 main_v60 main_v61 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_13 (constant S_ .f32 0x00000000#32),
    unary main_cst_13 main_v62 (broadcastInDim S100000 ![] bcast_S_S100000 : (⟨S_, .f32⟩ : BufTy).Contents (Elt F) → (⟨S100000, .f32⟩ : BufTy).Contents (Elt F)),
    unary main_v59 main_v63 (broadcastInDim S3300000x1 ![0] bcast_S3300000_S3300000x1_0 : (⟨S3300000, .i32⟩ : BufTy).Contents (Elt F) → (⟨S3300000x1, .i32⟩ : BufTy).Contents (Elt F)),
    ternary main_v62 main_v63 main_v61 main_v64 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_14 (constant S_ .f32 0x00000000#32),
    unary main_cst_14 main_v65 (broadcastInDim S100000 ![] bcast_S_S100000 : (⟨S_, .f32⟩ : BufTy).Contents (Elt F) → (⟨S100000, .f32⟩ : BufTy).Contents (Elt F)),
    binary main_v64 main_v65 main_v66 (cmpf .ogt : (⟨S100000, .f32⟩ : BufTy).Contents (Elt F) → (⟨S100000, .f32⟩ : BufTy).Contents (Elt F) → (⟨S100000, .i1⟩ : BufTy).Contents (Elt F)),
    nullary main_cst_15 (constant S_ .f32 0x0DA24260#32),
    unary main_cst_15 main_v67 (broadcastInDim S100000 ![] bcast_S_S100000 : (⟨S_, .f32⟩ : BufTy).Contents (Elt F) → (⟨S100000, .f32⟩ : BufTy).Contents (Elt F)),
    binary main_v64 main_v67 main_v68 (maximumf : (⟨S100000, .f32⟩ : BufTy).Contents (Elt F) → (⟨S100000, .f32⟩ : BufTy).Contents (Elt F) → (⟨S100000, .f32⟩ : BufTy).Contents (Elt F)),
    unary main_v68 main_v69 (Host.rsqrt : (⟨S100000, .f32⟩ : BufTy).Contents (Elt F) → (⟨S100000, .f32⟩ : BufTy).Contents (Elt F)),
    nullary main_cst_16 (constant S_ .f32 0x00000000#32),
    TRef.unary (TRef.of (T := ⟨S_, .f32⟩) main_cst_16) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v66) (TRef.of (T := ⟨S100000, .f32⟩) main_v69) (TRef.of (T := ⟨S100000, .f32⟩) main_call2_v1) (TRef.of (T := ⟨S100000, .f32⟩) main_v70) select,
    nullary main_c_17 (constantI S_ 32 0#32),
    unary main_c_17 main_v71 (broadcastInDim S3300000 ![] bcast_S_S3300000 : (⟨S_, .i32⟩ : BufTy).Contents (Elt F) → (⟨S3300000, .i32⟩ : BufTy).Contents (Elt F)),
    binary main_v58 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v73 (broadcastInDim S3300000 ![] bcast_S_S3300000 : (⟨S_, .i32⟩ : BufTy).Contents (Elt F) → (⟨S3300000, .i32⟩ : BufTy).Contents (Elt F)),
    binary main_v58 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v58 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v70 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v77 main_v61 main_v78 (mulf : (⟨S3300000, .f32⟩ : BufTy).Contents (Elt F) → (⟨S3300000, .f32⟩ : BufTy).Contents (Elt F) → (⟨S3300000, .f32⟩ : BufTy).Contents (Elt F)),
    nullary main_c_19 (constantI S_ 32 0#32),
    unary main_c_19 main_v79 (broadcastInDim S3300000 ![] bcast_S_S3300000 : (⟨S_, .i32⟩ : BufTy).Contents (Elt F) → (⟨S3300000, .i32⟩ : BufTy).Contents (Elt F)),
    binary main_v59 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v81 (broadcastInDim S3300000 ![] bcast_S_S3300000 : (⟨S_, .i32⟩ : BufTy).Contents (Elt F) → (⟨S3300000, .i32⟩ : BufTy).Contents (Elt F)),
    binary main_v59 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v59 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v70 main_v84 main_v85 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v78 main_v85 main_v86 (mulf : (⟨S3300000, .f32⟩ : BufTy).Contents (Elt F) → (⟨S3300000, .f32⟩ : BufTy).Contents (Elt F) → (⟨S3300000, .f32⟩ : BufTy).Contents (Elt F)),
    unary main_v86 main_v87 (broadcastInDim S3300000x1 ![0] bcast_S3300000_S3300000x1_0 : (⟨S3300000, .f32⟩ : BufTy).Contents (Elt F) → (⟨S3300000x1, .f32⟩ : BufTy).Contents (Elt F)),
    nullary main_c_21 (constantI S_ 32 0#32),
    unary main_c_21 main_v88 (broadcastInDim S3300000 ![] bcast_S_S3300000 : (⟨S_, .i32⟩ : BufTy).Contents (Elt F) → (⟨S3300000, .i32⟩ : BufTy).Contents (Elt F)),
    binary main_v58 main_v88 main_v89 (cmpi .slt : (⟨S3300000, .i32⟩ : BufTy).Contents (Elt F) → (⟨S3300000, .i32⟩ : BufTy).Contents (Elt F) → (⟨S3300000, .i1⟩ : BufTy).Contents (Elt F)),
    nullary main_c_22 (constantI S_ 32 100000#32),
    unary main_c_22 main_v90 (broadcastInDim S3300000 ![] bcast_S_S3300000 : (⟨S_, .i32⟩ : BufTy).Contents (Elt F) → (⟨S3300000, .i32⟩ : BufTy).Contents (Elt F)),
    binary main_v58 main_v90 main_v91 (addi : (⟨S3300000, .i32⟩ : BufTy).Contents (Elt F) → (⟨S3300000, .i32⟩ : BufTy).Contents (Elt F) → (⟨S3300000, .i32⟩ : BufTy).Contents (Elt F)),
    ternary main_v89 main_v91 main_v58 main_v92 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v92 main_v93 (broadcastInDim S3300000x1 ![0] bcast_S3300000_S3300000x1_0 : (⟨S3300000, .i32⟩ : BufTy).Contents (Elt F) → (⟨S3300000x1, .i32⟩ : BufTy).Contents (Elt F)),
    binary main_v56 main_v93 main_v94 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v87 main_v95 (broadcastInDim S3300000x64 ![0, 1] bcast_S3300000x1_S3300000x64_0_1 : (⟨S3300000x1, .f32⟩ : BufTy).Contents (Elt F) → (⟨S3300000x64, .f32⟩ : BufTy).Contents (Elt F)),
    binary main_v95 main_v94 main_v96 (mulf : (⟨S3300000x64, .f32⟩ : BufTy).Contents (Elt F) → (⟨S3300000x64, .f32⟩ : BufTy).Contents (Elt F) → (⟨S3300000x64, .f32⟩ : BufTy).Contents (Elt F)),
    nullary main_cst_23 (constant S_ .f32 0x00000000#32),
    unary main_cst_23 main_v97 (broadcastInDim S100000x64 ![] bcast_S_S100000x64 : (⟨S_, .f32⟩ : BufTy).Contents (Elt F) → (⟨S100000x64, .f32⟩ : BufTy).Contents (Elt F)),
    unary main_v59 main_v98 (broadcastInDim S3300000x1 ![0] bcast_S3300000_S3300000x1_0 : (⟨S3300000, .i32⟩ : BufTy).Contents (Elt F) → (⟨S3300000x1, .i32⟩ : BufTy).Contents (Elt F)),
    ternary main_v97 main_v98 main_v96 main_v99 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg7 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v99 main_v101 main_v102 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v102) (TRef.of (T := ⟨S100000x64, .f32⟩) main_call3_v0) (TRef.of (T := ⟨S100000x64, .f32⟩) main_v103) maximumf,
    binary main_v103 main_arg8 main_v104 ((fun l r => Host.dotGeneral dot_S100000x64_S64x512_S100000x512_1_0_0_1_n_n none l r) : (⟨S100000x64, .f32⟩ : BufTy).Contents (Elt F) → (⟨S64x512, .f32⟩ : BufTy).Contents (Elt F) → (⟨S100000x512, .f32⟩ : BufTy).Contents (Elt F)),
    unary main_arg9 main_v105 (broadcastInDim S1x512 ![1] bcast_S512_S1x512_1 : (⟨S512, .f32⟩ : BufTy).Contents (Elt F) → (⟨S1x512, .f32⟩ : BufTy).Contents (Elt F)),
    unary main_v105 main_v106 (broadcastInDim S100000x512 ![0, 1] bcast_S1x512_S100000x512_0_1 : (⟨S1x512, .f32⟩ : BufTy).Contents (Elt F) → (⟨S100000x512, .f32⟩ : BufTy).Contents (Elt F)),
    binary main_v104 main_v106 main_v107 (addf : (⟨S100000x512, .f32⟩ : BufTy).Contents (Elt F) → (⟨S100000x512, .f32⟩ : BufTy).Contents (Elt F) → (⟨S100000x512, .f32⟩ : BufTy).Contents (Elt F)),
    binary main_v107 main_arg3 main_v108 ((fun a b => concatenate S100000x576 1 [⟨S100000x512, a⟩, ⟨S100000x64, b⟩] concatenates_S100000x512_S100000x64_S100000x576_d1) : (⟨S100000x512, .f32⟩ : BufTy).Contents (Elt F) → (⟨S100000x64, .f32⟩ : BufTy).Contents (Elt F) → (⟨S100000x576, .f32⟩ : BufTy).Contents (Elt F)),
    binary main_v108 main_arg10 main_v109 ((fun l r => Host.dotGeneral dot_S100000x576_S576x2_S100000x2_1_0_0_1_n_n none l r) : (⟨S100000x576, .f32⟩ : BufTy).Contents (Elt F) → (⟨S576x2, .f32⟩ : BufTy).Contents (Elt F) → (⟨S100000x2, .f32⟩ : BufTy).Contents (Elt F)),
    unary main_arg11 main_v110 (broadcastInDim S1x2 ![1] bcast_S2_S1x2_1 : (⟨S2, .f32⟩ : BufTy).Contents (Elt F) → (⟨S1x2, .f32⟩ : BufTy).Contents (Elt F)),
    unary main_v110 main_v111 (broadcastInDim S100000x2 ![0, 1] bcast_S1x2_S100000x2_0_1 : (⟨S1x2, .f32⟩ : BufTy).Contents (Elt F) → (⟨S100000x2, .f32⟩ : BufTy).Contents (Elt F)),
    binary main_v109 main_v111 main_v112 (addf : (⟨S100000x2, .f32⟩ : BufTy).Contents (Elt F) → (⟨S100000x2, .f32⟩ : BufTy).Contents (Elt F) → (⟨S100000x2, .f32⟩ : BufTy).Contents (Elt F)) ]

/-- The arcs' sources, targets and weights, the degrees, and the first product. -/
abbrev ops1 : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    binary main_arg2 main_v4 main_v5 (addf : (⟨S3200000, .f32⟩ : BufTy).Contents (Elt F) → (⟨S3200000, .f32⟩ : BufTy).Contents (Elt F) → (⟨S3200000, .f32⟩ : BufTy).Contents (Elt F)),
    nullary main_cst_0 (constant S_ .f32 0x3F800000#32),
    unary main_cst_0 main_v6 (broadcastInDim S3200000 ![] bcast_S_S3200000 : (⟨S_, .f32⟩ : BufTy).Contents (Elt F) → (⟨S3200000, .f32⟩ : BufTy).Contents (Elt F)),
    binary main_v6 main_v5 main_v7 (Host.divf : (⟨S3200000, .f32⟩ : BufTy).Contents (Elt F) → (⟨S3200000, .f32⟩ : BufTy).Contents (Elt F) → (⟨S3200000, .f32⟩ : BufTy).Contents (Elt F)),
    binary main_arg0 main_arg4 main_v8 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    nullary main_v9 (iotaInDim S100000 32 0),
    binary main_v1 main_v9 main_v10 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v9 main_v11 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_1 (constant S_ .f32 0x3F800000#32),
    unary main_cst_1 main_v12 (broadcastInDim S100000 ![] bcast_S_S100000 : (⟨S_, .f32⟩ : BufTy).Contents (Elt F) → (⟨S100000, .f32⟩ : BufTy).Contents (Elt F)),
    binary main_v7 main_v12 main_v13 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    unary main_v11 main_v15 (broadcastInDim S3300000x1 ![0] bcast_S3300000_S3300000x1_0 : (⟨S3300000, .i32⟩ : BufTy).Contents (Elt F) → (⟨S3300000x1, .i32⟩ : BufTy).Contents (Elt F)),
    ternary main_v14 main_v15 main_v13 main_v16 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_3 (constant S_ .f32 0x00000000#32),
    unary main_cst_3 main_v17 (broadcastInDim S100000 ![] bcast_S_S100000 : (⟨S_, .f32⟩ : BufTy).Contents (Elt F) → (⟨S100000, .f32⟩ : BufTy).Contents (Elt F)),
    binary main_v16 main_v17 main_v18 (cmpf .ogt : (⟨S100000, .f32⟩ : BufTy).Contents (Elt F) → (⟨S100000, .f32⟩ : BufTy).Contents (Elt F) → (⟨S100000, .i1⟩ : BufTy).Contents (Elt F)),
    nullary main_cst_4 (constant S_ .f32 0x0DA24260#32),
    unary main_cst_4 main_v19 (broadcastInDim S100000 ![] bcast_S_S100000 : (⟨S_, .f32⟩ : BufTy).Contents (Elt F) → (⟨S100000, .f32⟩ : BufTy).Contents (Elt F)),
    binary main_v16 main_v19 main_v20 (maximumf : (⟨S100000, .f32⟩ : BufTy).Contents (Elt F) → (⟨S100000, .f32⟩ : BufTy).Contents (Elt F) → (⟨S100000, .f32⟩ : BufTy).Contents (Elt F)),
    unary main_v20 main_v21 (Host.rsqrt : (⟨S100000, .f32⟩ : BufTy).Contents (Elt F) → (⟨S100000, .f32⟩ : BufTy).Contents (Elt F)),
    nullary main_cst_5 (constant S_ .f32 0x00000000#32) ]

/-- The selection that makes dinv. -/
abbrev ops2 : List (HloOp τ sig (Elt F)) :=
  [ TRef.unary (TRef.of (T := ⟨S_, .f32⟩) main_cst_5) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v18) (TRef.of (T := ⟨S100000, .f32⟩) main_v21) (TRef.of (T := ⟨S100000, .f32⟩) main_call0_v1) (TRef.of (T := ⟨S100000, .f32⟩) main_v22) select ]

/-- The arcs' coefficients. -/
abbrev ops3 : List (HloOp τ sig (Elt F)) :=
  [ nullary main_c (constantI S_ 32 0#32),
    unary main_c main_v23 (broadcastInDim S3300000 ![] bcast_S_S3300000 : (⟨S_, .i32⟩ : BufTy).Contents (Elt F) → (⟨S3300000, .i32⟩ : BufTy).Contents (Elt F)),
    binary main_v10 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v25 (broadcastInDim S3300000 ![] bcast_S_S3300000 : (⟨S_, .i32⟩ : BufTy).Contents (Elt F) → (⟨S3300000, .i32⟩ : BufTy).Contents (Elt F)),
    binary main_v10 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v10 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v22 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v29 main_v13 main_v30 (mulf : (⟨S3300000, .f32⟩ : BufTy).Contents (Elt F) → (⟨S3300000, .f32⟩ : BufTy).Contents (Elt F) → (⟨S3300000, .f32⟩ : BufTy).Contents (Elt F)),
    nullary main_c_7 (constantI S_ 32 0#32),
    unary main_c_7 main_v31 (broadcastInDim S3300000 ![] bcast_S_S3300000 : (⟨S_, .i32⟩ : BufTy).Contents (Elt F) → (⟨S3300000, .i32⟩ : BufTy).Contents (Elt F)),
    binary main_v11 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v33 (broadcastInDim S3300000 ![] bcast_S_S3300000 : (⟨S_, .i32⟩ : BufTy).Contents (Elt F) → (⟨S3300000, .i32⟩ : BufTy).Contents (Elt F)),
    binary main_v11 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v11 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v22 main_v36 main_v37 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v30 main_v37 main_v38 (mulf : (⟨S3300000, .f32⟩ : BufTy).Contents (Elt F) → (⟨S3300000, .f32⟩ : BufTy).Contents (Elt F) → (⟨S3300000, .f32⟩ : BufTy).Contents (Elt F)) ]

/-- The first layer before the negative part is dropped. -/
abbrev ops4 : List (HloOp τ sig (Elt F)) :=
  [ unary main_v38 main_v39 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v40 (broadcastInDim S3300000 ![] bcast_S_S3300000 : (⟨S_, .i32⟩ : BufTy).Contents (Elt F) → (⟨S3300000, .i32⟩ : BufTy).Contents (Elt F)),
    binary main_v10 main_v40 main_v41 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v42 (broadcastInDim S3300000 ![] bcast_S_S3300000 : (⟨S_, .i32⟩ : BufTy).Contents (Elt F) → (⟨S3300000, .i32⟩ : BufTy).Contents (Elt F)),
    binary main_v10 main_v42 main_v43 (addi : (⟨S3300000, .i32⟩ : BufTy).Contents (Elt F) → (⟨S3300000, .i32⟩ : BufTy).Contents (Elt F) → (⟨S3300000, .i32⟩ : BufTy).Contents (Elt F)),
    ternary main_v41 main_v43 main_v10 main_v44 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v44 main_v45 (broadcastInDim S3300000x1 ![0] bcast_S3300000_S3300000x1_0 : (⟨S3300000, .i32⟩ : BufTy).Contents (Elt F) → (⟨S3300000x1, .i32⟩ : BufTy).Contents (Elt F)),
    binary main_v8 main_v45 main_v46 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v39 main_v47 (broadcastInDim S3300000x64 ![0, 1] bcast_S3300000x1_S3300000x64_0_1 : (⟨S3300000x1, .f32⟩ : BufTy).Contents (Elt F) → (⟨S3300000x64, .f32⟩ : BufTy).Contents (Elt F)),
    binary main_v47 main_v46 main_v48 (mulf : (⟨S3300000x64, .f32⟩ : BufTy).Contents (Elt F) → (⟨S3300000x64, .f32⟩ : BufTy).Contents (Elt F) → (⟨S3300000x64, .f32⟩ : BufTy).Contents (Elt F)),
    nullary main_cst_11 (constant S_ .f32 0x00000000#32),
    unary main_cst_11 main_v49 (broadcastInDim S100000x64 ![] bcast_S_S100000x64 : (⟨S_, .f32⟩ : BufTy).Contents (Elt F) → (⟨S100000x64, .f32⟩ : BufTy).Contents (Elt F)),
    unary main_v11 main_v50 (broadcastInDim S3300000x1 ![0] bcast_S3300000_S3300000x1_0 : (⟨S3300000, .i32⟩ : BufTy).Contents (Elt F) → (⟨S3300000x1, .i32⟩ : BufTy).Contents (Elt F)),
    ternary main_v49 main_v50 main_v48 main_v51 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v51 main_v53 main_v54 (addf : (⟨S100000x64, .f32⟩ : BufTy).Contents (Elt F) → (⟨S100000x64, .f32⟩ : BufTy).Contents (Elt F) → (⟨S100000x64, .f32⟩ : BufTy).Contents (Elt F)) ]

/-- The first layer's negative part dropped. -/
abbrev ops5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v54) (TRef.of (T := ⟨S100000x64, .f32⟩) main_call1_v0) (TRef.of (T := ⟨S100000x64, .f32⟩) main_v55) maximumf ]

/-- The second product, and the arcs' sources, targets, weights and degrees again. -/
abbrev ops6 : List (HloOp τ sig (Elt F)) :=
  [ binary main_v55 main_arg6 main_v56 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_v57 (iotaInDim S100000 32 0),
    binary main_v1 main_v57 main_v58 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v57 main_v59 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_12 (constant S_ .f32 0x3F800000#32),
    unary main_cst_12 main_v60 (broadcastInDim S100000 ![] bcast_S_S100000 : (⟨S_, .f32⟩ : BufTy).Contents (Elt F) → (⟨S100000, .f32⟩ : BufTy).Contents (Elt F)),
    binary main_v7 main_v60 main_v61 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_13 (constant S_ .f32 0x00000000#32),
    unary main_cst_13 main_v62 (broadcastInDim S100000 ![] bcast_S_S100000 : (⟨S_, .f32⟩ : BufTy).Contents (Elt F) → (⟨S100000, .f32⟩ : BufTy).Contents (Elt F)),
    unary main_v59 main_v63 (broadcastInDim S3300000x1 ![0] bcast_S3300000_S3300000x1_0 : (⟨S3300000, .i32⟩ : BufTy).Contents (Elt F) → (⟨S3300000x1, .i32⟩ : BufTy).Contents (Elt F)),
    ternary main_v62 main_v63 main_v61 main_v64 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_14 (constant S_ .f32 0x00000000#32),
    unary main_cst_14 main_v65 (broadcastInDim S100000 ![] bcast_S_S100000 : (⟨S_, .f32⟩ : BufTy).Contents (Elt F) → (⟨S100000, .f32⟩ : BufTy).Contents (Elt F)),
    binary main_v64 main_v65 main_v66 (cmpf .ogt : (⟨S100000, .f32⟩ : BufTy).Contents (Elt F) → (⟨S100000, .f32⟩ : BufTy).Contents (Elt F) → (⟨S100000, .i1⟩ : BufTy).Contents (Elt F)),
    nullary main_cst_15 (constant S_ .f32 0x0DA24260#32),
    unary main_cst_15 main_v67 (broadcastInDim S100000 ![] bcast_S_S100000 : (⟨S_, .f32⟩ : BufTy).Contents (Elt F) → (⟨S100000, .f32⟩ : BufTy).Contents (Elt F)),
    binary main_v64 main_v67 main_v68 (maximumf : (⟨S100000, .f32⟩ : BufTy).Contents (Elt F) → (⟨S100000, .f32⟩ : BufTy).Contents (Elt F) → (⟨S100000, .f32⟩ : BufTy).Contents (Elt F)),
    unary main_v68 main_v69 (Host.rsqrt : (⟨S100000, .f32⟩ : BufTy).Contents (Elt F) → (⟨S100000, .f32⟩ : BufTy).Contents (Elt F)),
    nullary main_cst_16 (constant S_ .f32 0x00000000#32) ]

/-- The selection that makes dinv, again. -/
abbrev ops7 : List (HloOp τ sig (Elt F)) :=
  [ TRef.unary (TRef.of (T := ⟨S_, .f32⟩) main_cst_16) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v66) (TRef.of (T := ⟨S100000, .f32⟩) main_v69) (TRef.of (T := ⟨S100000, .f32⟩) main_call2_v1) (TRef.of (T := ⟨S100000, .f32⟩) main_v70) select ]

/-- The arcs' coefficients, again. -/
abbrev ops8 : List (HloOp τ sig (Elt F)) :=
  [ nullary main_c_17 (constantI S_ 32 0#32),
    unary main_c_17 main_v71 (broadcastInDim S3300000 ![] bcast_S_S3300000 : (⟨S_, .i32⟩ : BufTy).Contents (Elt F) → (⟨S3300000, .i32⟩ : BufTy).Contents (Elt F)),
    binary main_v58 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v73 (broadcastInDim S3300000 ![] bcast_S_S3300000 : (⟨S_, .i32⟩ : BufTy).Contents (Elt F) → (⟨S3300000, .i32⟩ : BufTy).Contents (Elt F)),
    binary main_v58 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v58 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v70 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v77 main_v61 main_v78 (mulf : (⟨S3300000, .f32⟩ : BufTy).Contents (Elt F) → (⟨S3300000, .f32⟩ : BufTy).Contents (Elt F) → (⟨S3300000, .f32⟩ : BufTy).Contents (Elt F)),
    nullary main_c_19 (constantI S_ 32 0#32),
    unary main_c_19 main_v79 (broadcastInDim S3300000 ![] bcast_S_S3300000 : (⟨S_, .i32⟩ : BufTy).Contents (Elt F) → (⟨S3300000, .i32⟩ : BufTy).Contents (Elt F)),
    binary main_v59 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v81 (broadcastInDim S3300000 ![] bcast_S_S3300000 : (⟨S_, .i32⟩ : BufTy).Contents (Elt F) → (⟨S3300000, .i32⟩ : BufTy).Contents (Elt F)),
    binary main_v59 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v59 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v70 main_v84 main_v85 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v78 main_v85 main_v86 (mulf : (⟨S3300000, .f32⟩ : BufTy).Contents (Elt F) → (⟨S3300000, .f32⟩ : BufTy).Contents (Elt F) → (⟨S3300000, .f32⟩ : BufTy).Contents (Elt F)) ]

/-- The second layer before the negative part is dropped. -/
abbrev ops9 : List (HloOp τ sig (Elt F)) :=
  [ unary main_v86 main_v87 (broadcastInDim S3300000x1 ![0] bcast_S3300000_S3300000x1_0 : (⟨S3300000, .f32⟩ : BufTy).Contents (Elt F) → (⟨S3300000x1, .f32⟩ : BufTy).Contents (Elt F)),
    nullary main_c_21 (constantI S_ 32 0#32),
    unary main_c_21 main_v88 (broadcastInDim S3300000 ![] bcast_S_S3300000 : (⟨S_, .i32⟩ : BufTy).Contents (Elt F) → (⟨S3300000, .i32⟩ : BufTy).Contents (Elt F)),
    binary main_v58 main_v88 main_v89 (cmpi .slt : (⟨S3300000, .i32⟩ : BufTy).Contents (Elt F) → (⟨S3300000, .i32⟩ : BufTy).Contents (Elt F) → (⟨S3300000, .i1⟩ : BufTy).Contents (Elt F)),
    nullary main_c_22 (constantI S_ 32 100000#32),
    unary main_c_22 main_v90 (broadcastInDim S3300000 ![] bcast_S_S3300000 : (⟨S_, .i32⟩ : BufTy).Contents (Elt F) → (⟨S3300000, .i32⟩ : BufTy).Contents (Elt F)),
    binary main_v58 main_v90 main_v91 (addi : (⟨S3300000, .i32⟩ : BufTy).Contents (Elt F) → (⟨S3300000, .i32⟩ : BufTy).Contents (Elt F) → (⟨S3300000, .i32⟩ : BufTy).Contents (Elt F)),
    ternary main_v89 main_v91 main_v58 main_v92 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v92 main_v93 (broadcastInDim S3300000x1 ![0] bcast_S3300000_S3300000x1_0 : (⟨S3300000, .i32⟩ : BufTy).Contents (Elt F) → (⟨S3300000x1, .i32⟩ : BufTy).Contents (Elt F)),
    binary main_v56 main_v93 main_v94 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v87 main_v95 (broadcastInDim S3300000x64 ![0, 1] bcast_S3300000x1_S3300000x64_0_1 : (⟨S3300000x1, .f32⟩ : BufTy).Contents (Elt F) → (⟨S3300000x64, .f32⟩ : BufTy).Contents (Elt F)),
    binary main_v95 main_v94 main_v96 (mulf : (⟨S3300000x64, .f32⟩ : BufTy).Contents (Elt F) → (⟨S3300000x64, .f32⟩ : BufTy).Contents (Elt F) → (⟨S3300000x64, .f32⟩ : BufTy).Contents (Elt F)),
    nullary main_cst_23 (constant S_ .f32 0x00000000#32),
    unary main_cst_23 main_v97 (broadcastInDim S100000x64 ![] bcast_S_S100000x64 : (⟨S_, .f32⟩ : BufTy).Contents (Elt F) → (⟨S100000x64, .f32⟩ : BufTy).Contents (Elt F)),
    unary main_v59 main_v98 (broadcastInDim S3300000x1 ![0] bcast_S3300000_S3300000x1_0 : (⟨S3300000, .i32⟩ : BufTy).Contents (Elt F) → (⟨S3300000x1, .i32⟩ : BufTy).Contents (Elt F)),
    ternary main_v97 main_v98 main_v96 main_v99 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg7 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v99 main_v101 main_v102 (addf : (⟨S100000x64, .f32⟩ : BufTy).Contents (Elt F) → (⟨S100000x64, .f32⟩ : BufTy).Contents (Elt F) → (⟨S100000x64, .f32⟩ : BufTy).Contents (Elt F)) ]

/-- The second layer's negative part dropped. -/
abbrev ops10 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v102) (TRef.of (T := ⟨S100000x64, .f32⟩) main_call3_v0) (TRef.of (T := ⟨S100000x64, .f32⟩) main_v103) maximumf ]

/-- The head. -/
abbrev ops11 : List (HloOp τ sig (Elt F)) :=
  [ binary main_v103 main_arg8 main_v104 ((fun l r => Host.dotGeneral dot_S100000x64_S64x512_S100000x512_1_0_0_1_n_n none l r) : (⟨S100000x64, .f32⟩ : BufTy).Contents (Elt F) → (⟨S64x512, .f32⟩ : BufTy).Contents (Elt F) → (⟨S100000x512, .f32⟩ : BufTy).Contents (Elt F)),
    unary main_arg9 main_v105 (broadcastInDim S1x512 ![1] bcast_S512_S1x512_1 : (⟨S512, .f32⟩ : BufTy).Contents (Elt F) → (⟨S1x512, .f32⟩ : BufTy).Contents (Elt F)),
    unary main_v105 main_v106 (broadcastInDim S100000x512 ![0, 1] bcast_S1x512_S100000x512_0_1 : (⟨S1x512, .f32⟩ : BufTy).Contents (Elt F) → (⟨S100000x512, .f32⟩ : BufTy).Contents (Elt F)),
    binary main_v104 main_v106 main_v107 (addf : (⟨S100000x512, .f32⟩ : BufTy).Contents (Elt F) → (⟨S100000x512, .f32⟩ : BufTy).Contents (Elt F) → (⟨S100000x512, .f32⟩ : BufTy).Contents (Elt F)),
    binary main_v107 main_arg3 main_v108 ((fun a b => concatenate S100000x576 1 [⟨S100000x512, a⟩, ⟨S100000x64, b⟩] concatenates_S100000x512_S100000x64_S100000x576_d1) : (⟨S100000x512, .f32⟩ : BufTy).Contents (Elt F) → (⟨S100000x64, .f32⟩ : BufTy).Contents (Elt F) → (⟨S100000x576, .f32⟩ : BufTy).Contents (Elt F)),
    binary main_v108 main_arg10 main_v109 ((fun l r => Host.dotGeneral dot_S100000x576_S576x2_S100000x2_1_0_0_1_n_n none l r) : (⟨S100000x576, .f32⟩ : BufTy).Contents (Elt F) → (⟨S576x2, .f32⟩ : BufTy).Contents (Elt F) → (⟨S100000x2, .f32⟩ : BufTy).Contents (Elt F)),
    unary main_arg11 main_v110 (broadcastInDim S1x2 ![1] bcast_S2_S1x2_1 : (⟨S2, .f32⟩ : BufTy).Contents (Elt F) → (⟨S1x2, .f32⟩ : BufTy).Contents (Elt F)),
    unary main_v110 main_v111 (broadcastInDim S100000x2 ![0, 1] bcast_S1x2_S100000x2_0_1 : (⟨S1x2, .f32⟩ : BufTy).Contents (Elt F) → (⟨S100000x2, .f32⟩ : BufTy).Contents (Elt F)),
    binary main_v109 main_v111 main_v112 (addf : (⟨S100000x2, .f32⟩ : BufTy).Contents (Elt F) → (⟨S100000x2, .f32⟩ : BufTy).Contents (Elt F) → (⟨S100000x2, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub ..⟩

set_option maxRecDepth 8192 in
/-- The line is its stretches in order. -/
theorem ops_split : (ops : List (HloOp τ sig (Elt F))) = ops1 ++ (ops2 ++ (ops3 ++ (ops4 ++ (ops5 ++ (ops6 ++ (ops7 ++ (ops8 ++ (ops9 ++ (ops10 ++ ops11))))))))) := rfl

variable (m : (ℓ : Loc nD τ sig) → Buf (Elt F) ℓ) (ρ : Dev nD → PrngReg)

/-! The buffers' contents after each stretch. -/
def B1 (c : Dev nD) : Valuation τ sig (Elt F) := after ops1 (launchContents m c)
def B2 (c : Dev nD) : Valuation τ sig (Elt F) := after ops2 (B1 m c)
def B3 (c : Dev nD) : Valuation τ sig (Elt F) := after ops3 (B2 m c)
def B4 (c : Dev nD) : Valuation τ sig (Elt F) := after ops4 (B3 m c)
def B5 (c : Dev nD) : Valuation τ sig (Elt F) := after ops5 (B4 m c)
def B6 (c : Dev nD) : Valuation τ sig (Elt F) := after ops6 (B5 m c)
def B7 (c : Dev nD) : Valuation τ sig (Elt F) := after ops7 (B6 m c)
def B8 (c : Dev nD) : Valuation τ sig (Elt F) := after ops8 (B7 m c)
def B9 (c : Dev nD) : Valuation τ sig (Elt F) := after ops9 (B8 m c)
def B10 (c : Dev nD) : Valuation τ sig (Elt F) := after ops10 (B9 m c)
def B11 (c : Dev nD) : Valuation τ sig (Elt F) := after ops11 (B10 m c)

theorem after_ops (c : Dev nD) : after ops (launchContents m c) = B11 m c := by
  rw [ops_split]
  simp only [Cert.Lib.HostLine.after_append]
  rfl

set_option maxRecDepth 8192 in
/-- Every weakly fair execution terminates without a fault, every buffer ending at the last stretch's contents. -/
theorem run : θ_run defs (onTc (τ := τ) (main (F := F))) ⟨m, fun _ => 0, ρ⟩ fun r =>
    ∀ (c : Dev nD) (b : Ref sig .tc), r.2.mem ((c.tc : Thread nD τ).loc b) = B11 m c (Proc.devRef .tc b) :=
  (θ_run defs _ _).mono (fun _ h c b => (h c b).trans (congrFun (after_ops m c) _))
    (run_seq scopedRefs_eq scopedSems_eq defs main (fun _ => ops) main_eq (fun _ => ops_sub) m ρ)

end Cert.ReferenceIdeal.Line

end
-- ==== Proof.RefChain.lean ====
import proofs.«144980_j6090263625952_1_alg».proof.Proof.Spec
import proofs.«144980_j6090263625952_1_alg».proof.Proof.RefRun
import proofs.«144980_j6090263625952_1_alg».proof.Proof.LibJoinFold
import proofs.«144980_j6090263625952_1_alg».proof.Proof.LibHostLine
import Idealize.ShloMosaic.PureOps.Ideal

/-!
  The reference program's buffers after each of its eleven stretches, read as the network's stage functions of the
  twelve argument arrays.

  The reference builds the arcs (sources, targets, weights), the degrees and dinv, and the arcs' coefficients once per
  propagation layer, from the same edge arguments each time: both builds are the same functions srcOf, dstOf, weightOf,
  degOf, dinvOf and coefOf of the edge arrays. A layer is the product of the incoming features with the layer's
  weights, carried along the arcs with those coefficients, summed at the targets, the bias added and the negative part
  dropped; the head is the embedding joined with the side features, times the head's weights, plus its bias. Each
  statement below says what one buffer holds after one stretch, given what the stretch's operands held after the
  stretch before; the last one says the result buffer holds the network of the arguments.
-/

set_option maxRecDepth 16384

noncomputable section

namespace Cert.ReferenceIdeal.Chain

open Cert.ReferenceIdeal Cert.ReferenceIdeal.Gen Cert.ReferenceIdeal.Line Idealize.ShloMosaic Idealize.ShloMosaic.TcCoe Idealize.SL.Sem Idealize.ShloMosaic.StableHlo Idealize.ShloMosaic.JoinFold

/-- The edges' source nodes: the first row of the edge array. -/
def edgeSrc (ei : Cert.Net.Arr Ideal ⟨S2x3200000, .i32⟩) : Cert.Net.Arr Ideal ⟨S3200000, .i32⟩ :=
  shapeCast _ (extractStridedSlice S1x3200000 ![0, 0] ei slices_S2x3200000_S1x3200000_0_0) shapeCasts_S1x3200000_S3200000

/-- The edges' target nodes: the second row of the edge array. -/
def edgeDst (ei : Cert.Net.Arr Ideal ⟨S2x3200000, .i32⟩) : Cert.Net.Arr Ideal ⟨S3200000, .i32⟩ :=
  shapeCast _ (extractStridedSlice S1x3200000 ![1, 0] ei slices_S2x3200000_S1x3200000_1_0) shapeCasts_S1x3200000_S3200000

/-- The edges' weights 1 / (a + 1). -/
def edgeWeight (ea : Cert.Net.Arr Ideal ⟨S3200000, .f32⟩) : Cert.Net.Arr Ideal ⟨S3200000, .f32⟩ :=
  Host.divf (broadcastInDim S3200000 ![] bcast_S_S3200000 (constant (F := Ideal) S_ .f32 0x3F800000#32)) (addf ea (broadcastInDim S3200000 ![] bcast_S_S3200000 (constant (F := Ideal) S_ .f32 0x3F800000#32)))

variable (m : (ℓ : Loc nD τ sig) → Buf (Elt Ideal) ℓ) (c : Dev nD)

/-! ## The first stretch: arcs, degrees, the first product -/

/-- The arcs' sources. -/
theorem B1_src : B1 m c (Proc.devRef .tc main_v10) = Cert.Net.srcOf (F := Ideal) (m ((c.tc : Thread nD τ).loc main_arg1)) := by
  dsimp only [B1, ops1]
  fold_results
  all_goals rfl
/-- The arcs' targets. -/
theorem B1_dst : B1 m c (Proc.devRef .tc main_v11) = Cert.Net.dstOf (F := Ideal) (m ((c.tc : Thread nD τ).loc main_arg1)) := by
  dsimp only [B1, ops1]
  fold_results
  all_goals rfl
/-- The arcs' weights. -/
theorem B1_w : B1 m c (Proc.devRef .tc main_v13) = Cert.Net.weightOf (F := Ideal) (m ((c.tc : Thread nD τ).loc main_arg2)) := by
  dsimp only [B1, ops1]
  fold_results
  all_goals rfl
/-- Where the degree is positive. -/
theorem B1_gt : B1 m c (Proc.devRef .tc main_v18) = cmpf .ogt (Cert.Net.degOf (F := Ideal) (m ((c.tc : Thread nD τ).loc main_arg1)) (m ((c.tc : Thread nD τ).loc main_arg2))) (broadcastInDim S100000 ![] bcast_S_S100000 (constant (F := Ideal) S_ .f32 0x00000000#32)) := by
  dsimp only [B1, ops1]
  fold_results
  all_goals rfl
/-- The reciprocal square root of the degree, floored. -/
theorem B1_rs : B1 m c (Proc.devRef .tc main_v21) = Host.rsqrt (maximumf (Cert.Net.degOf (F := Ideal) (m ((c.tc : Thread nD τ).loc main_arg1)) (m ((c.tc : Thread nD τ).loc main_arg2))) (broadcastInDim S100000 ![] bcast_S_S100000 (constant (F := Ideal) S_ .f32 0x0DA24260#32))) := by
  dsimp only [B1, ops1]
  fold_results
  all_goals rfl
/-- The scalar zero the selection falls back to. -/
theorem B1_cst5 : B1 m c (Proc.devRef .tc main_cst_5) = (constant (F := Ideal) S_ .f32 0x00000000#32) := by
  dsimp only [B1, ops1]
  fold_results
  all_goals rfl
/-- The features times the first weights. -/
theorem B1_g : B1 m c (Proc.devRef .tc main_v8) = (Host.dotGeneral (F := Ideal) (φ₁ := .f32) (φ₂ := .f32) dot_S100000x512_S512x64_S100000x64_1_0_0_1_n_n none (m ((c.tc : Thread nD τ).loc main_arg0)) (m ((c.tc : Thread nD τ).loc main_arg4))) := by
  dsimp only [B1, ops1]
  fold_results
  all_goals rfl
/-- The edges' sources, kept for the second layer. -/
theorem B1_e1 : B1 m c (Proc.devRef .tc main_v1) = edgeSrc (m ((c.tc : Thread nD τ).loc main_arg1)) := by
  dsimp only [B1, ops1]
  fold_results
  all_goals rfl
/-- The edges' targets, kept for the second layer. -/
theorem B1_e3 : B1 m c (Proc.devRef .tc main_v3) = edgeDst (m ((c.tc : Thread nD τ).loc main_arg1)) := by
  dsimp only [B1, ops1]
  fold_results
  all_goals rfl
/-- The edges' weights, kept for the second layer. -/
theorem B1_e7 : B1 m c (Proc.devRef .tc main_v7) = edgeWeight (m ((c.tc : Thread nD τ).loc main_arg2)) := by
  dsimp only [B1, ops1]
  fold_results
  all_goals rfl

/-! The outlined functions move their operands between a buffer's contents and a value's contents along an equation of
    two equal types: the identity, once per buffer. -/
theorem ofBuf_v18 (p q r) (v : (⟨S100000, .i1⟩ : BufTy).Contents (Elt Ideal)) :
    (TRef.of (sig := sig) (T := ⟨S100000, .i1⟩) main_v18 p q r).ofBuf (Val := Elt Ideal) v = v := rfl
theorem ofBuf_v21 (p q r) (v : (⟨S100000, .f32⟩ : BufTy).Contents (Elt Ideal)) :
    (TRef.of (sig := sig) (T := ⟨S100000, .f32⟩) main_v21 p q r).ofBuf (Val := Elt Ideal) v = v := rfl
theorem ofBuf_cst_5 (p q r) (v : (⟨S_, .f32⟩ : BufTy).Contents (Elt Ideal)) :
    (TRef.of (sig := sig) (T := ⟨S_, .f32⟩) main_cst_5 p q r).ofBuf (Val := Elt Ideal) v = v := rfl
theorem toBuf_v22 (p q r) (v : (⟨S100000, .f32⟩ : BufTy).Contents (Elt Ideal)) :
    (TRef.of (sig := sig) (T := ⟨S100000, .f32⟩) main_v22 p q r).toBuf (Val := Elt Ideal) v = v := rfl
theorem ofBuf_v54 (p q r) (v : (⟨S100000x64, .f32⟩ : BufTy).Contents (Elt Ideal)) :
    (TRef.of (sig := sig) (T := ⟨S100000x64, .f32⟩) main_v54 p q r).ofBuf (Val := Elt Ideal) v = v := rfl
theorem toBuf_v55 (p q r) (v : (⟨S100000x64, .f32⟩ : BufTy).Contents (Elt Ideal)) :
    (TRef.of (sig := sig) (T := ⟨S100000x64, .f32⟩) main_v55 p q r).toBuf (Val := Elt Ideal) v = v := rfl
theorem ofBuf_v66 (p q r) (v : (⟨S100000, .i1⟩ : BufTy).Contents (Elt Ideal)) :
    (TRef.of (sig := sig) (T := ⟨S100000, .i1⟩) main_v66 p q r).ofBuf (Val := Elt Ideal) v = v := rfl
theorem ofBuf_v69 (p q r) (v : (⟨S100000, .f32⟩ : BufTy).Contents (Elt Ideal)) :
    (TRef.of (sig := sig) (T := ⟨S100000, .f32⟩) main_v69 p q r).ofBuf (Val := Elt Ideal) v = v := rfl
theorem ofBuf_cst_16 (p q r) (v : (⟨S_, .f32⟩ : BufTy).Contents (Elt Ideal)) :
    (TRef.of (sig := sig) (T := ⟨S_, .f32⟩) main_cst_16 p q r).ofBuf (Val := Elt Ideal) v = v := rfl
theorem toBuf_v70 (p q r) (v : (⟨S100000, .f32⟩ : BufTy).Contents (Elt Ideal)) :
    (TRef.of (sig := sig) (T := ⟨S100000, .f32⟩) main_v70 p q r).toBuf (Val := Elt Ideal) v = v := rfl
theorem ofBuf_v102 (p q r) (v : (⟨S100000x64, .f32⟩ : BufTy).Contents (Elt Ideal)) :
    (TRef.of (sig := sig) (T := ⟨S100000x64, .f32⟩) main_v102 p q r).ofBuf (Val := Elt Ideal) v = v := rfl
theorem toBuf_v103 (p q r) (v : (⟨S100000x64, .f32⟩ : BufTy).Contents (Elt Ideal)) :
    (TRef.of (sig := sig) (T := ⟨S100000x64, .f32⟩) main_v103 p q r).toBuf (Val := Elt Ideal) v = v := rfl

/-! ## The selection: dinv -/

/-- dinv. -/
theorem B2_dinv : B2 m c (Proc.devRef .tc main_v22) = Cert.Net.dinvOf (F := Ideal) (m ((c.tc : Thread nD τ).loc main_arg1)) (m ((c.tc : Thread nD τ).loc main_arg2)) := by
  have h0 := B1_gt m c
  have h1 := B1_rs m c
  have h2 := B1_cst5 m c
  dsimp only [B2, ops2]
  fold_results [h0, h1, h2, Cert.Lib.HostLine.ofBuf_toBuf, ofBuf_v18, ofBuf_v21, ofBuf_cst_5, toBuf_v22]
  all_goals rfl
theorem B2_src : B2 m c (Proc.devRef .tc main_v10) = Cert.Net.srcOf (F := Ideal) (m ((c.tc : Thread nD τ).loc main_arg1)) := by
  have h0 := B1_src m c
  dsimp only [B2, ops2]
  fold_results [h0]
  all_goals rfl
theorem B2_dst : B2 m c (Proc.devRef .tc main_v11) = Cert.Net.dstOf (F := Ideal) (m ((c.tc : Thread nD τ).loc main_arg1)) := by
  have h0 := B1_dst m c
  dsimp only [B2, ops2]
  fold_results [h0]
  all_goals rfl
theorem B2_w : B2 m c (Proc.devRef .tc main_v13) = Cert.Net.weightOf (F := Ideal) (m ((c.tc : Thread nD τ).loc main_arg2)) := by
  have h0 := B1_w m c
  dsimp only [B2, ops2]
  fold_results [h0]
  all_goals rfl
theorem B2_g : B2 m c (Proc.devRef .tc main_v8) = (Host.dotGeneral (F := Ideal) (φ₁ := .f32) (φ₂ := .f32) dot_S100000x512_S512x64_S100000x64_1_0_0_1_n_n none (m ((c.tc : Thread nD τ).loc main_arg0)) (m ((c.tc : Thread nD τ).loc main_arg4))) := by
  have h0 := B1_g m c
  dsimp only [B2, ops2]
  fold_results [h0]
  all_goals rfl
theorem B2_e1 : B2 m c (Proc.devRef .tc main_v1) = edgeSrc (m ((c.tc : Thread nD τ).loc main_arg1)) := by
  have h0 := B1_e1 m c
  dsimp only [B2, ops2]
  fold_results [h0]
  all_goals rfl
theorem B2_e3 : B2 m c (Proc.devRef .tc main_v3) = edgeDst (m ((c.tc : Thread nD τ).loc main_arg1)) := by
  have h0 := B1_e3 m c
  dsimp only [B2, ops2]
  fold_results [h0]
  all_goals rfl
theorem B2_e7 : B2 m c (Proc.devRef .tc main_v7) = edgeWeight (m ((c.tc : Thread nD τ).loc main_arg2)) := by
  have h0 := B1_e7 m c
  dsimp only [B2, ops2]
  fold_results [h0]
  all_goals rfl

/-! ## The coefficients -/

/-- The arcs' coefficients. -/
theorem B3_coef : B3 m c (Proc.devRef .tc main_v38) = Cert.Net.coefOf (F := Ideal) (m ((c.tc : Thread nD τ).loc main_arg1)) (m ((c.tc : Thread nD τ).loc main_arg2)) := by
  have h0 := B2_dinv m c
  have h1 := B2_src m c
  have h2 := B2_dst m c
  have h3 := B2_w m c
  dsimp only [B3, ops3]
  fold_results [h0, h1, h2, h3]
  all_goals rfl
theorem B3_src : B3 m c (Proc.devRef .tc main_v10) = Cert.Net.srcOf (F := Ideal) (m ((c.tc : Thread nD τ).loc main_arg1)) := by
  have h0 := B2_src m c
  dsimp only [B3, ops3]
  fold_results [h0]
  all_goals rfl
theorem B3_dst : B3 m c (Proc.devRef .tc main_v11) = Cert.Net.dstOf (F := Ideal) (m ((c.tc : Thread nD τ).loc main_arg1)) := by
  have h0 := B2_dst m c
  dsimp only [B3, ops3]
  fold_results [h0]
  all_goals rfl
theorem B3_g : B3 m c (Proc.devRef .tc main_v8) = (Host.dotGeneral (F := Ideal) (φ₁ := .f32) (φ₂ := .f32) dot_S100000x512_S512x64_S100000x64_1_0_0_1_n_n none (m ((c.tc : Thread nD τ).loc main_arg0)) (m ((c.tc : Thread nD τ).loc main_arg4))) := by
  have h0 := B2_g m c
  dsimp only [B3, ops3]
  fold_results [h0]
  all_goals rfl
theorem B3_e1 : B3 m c (Proc.devRef .tc main_v1) = edgeSrc (m ((c.tc : Thread nD τ).loc main_arg1)) := by
  have h0 := B2_e1 m c
  dsimp only [B3, ops3]
  fold_results [h0]
  all_goals rfl
theorem B3_e3 : B3 m c (Proc.devRef .tc main_v3) = edgeDst (m ((c.tc : Thread nD τ).loc main_arg1)) := by
  have h0 := B2_e3 m c
  dsimp only [B3, ops3]
  fold_results [h0]
  all_goals rfl
theorem B3_e7 : B3 m c (Proc.devRef .tc main_v7) = edgeWeight (m ((c.tc : Thread nD τ).loc main_arg2)) := by
  have h0 := B2_e7 m c
  dsimp only [B3, ops3]
  fold_results [h0]
  all_goals rfl
theorem B3_arg5 : B3 m c (Proc.devRef .tc main_arg5) = (m ((c.tc : Thread nD τ).loc main_arg5)) := by
  dsimp only [B3, B2, B1, ops1, ops2, ops3]
  fold_results
  all_goals rfl

/-! ## The first layer -/

/-- The first layer before its negative part is dropped. -/
theorem B4_pre : B4 m c (Proc.devRef .tc main_v54) = Cert.Net.preact (F := Ideal) (Host.dotGeneral (F := Ideal) (φ₁ := .f32) (φ₂ := .f32) dot_S100000x512_S512x64_S100000x64_1_0_0_1_n_n none (m ((c.tc : Thread nD τ).loc main_arg0)) (m ((c.tc : Thread nD τ).loc main_arg4))) (m ((c.tc : Thread nD τ).loc main_arg5)) (m ((c.tc : Thread nD τ).loc main_arg1)) (m ((c.tc : Thread nD τ).loc main_arg2)) := by
  have h0 := B3_g m c
  have h1 := B3_coef m c
  have h2 := B3_src m c
  have h3 := B3_dst m c
  have h4 := B3_arg5 m c
  dsimp only [B4, ops4]
  fold_results [h0, h1, h2, h3, h4]
  all_goals rfl
theorem B4_e1 : B4 m c (Proc.devRef .tc main_v1) = edgeSrc (m ((c.tc : Thread nD τ).loc main_arg1)) := by
  have h0 := B3_e1 m c
  dsimp only [B4, ops4]
  fold_results [h0]
  all_goals rfl
theorem B4_e3 : B4 m c (Proc.devRef .tc main_v3) = edgeDst (m ((c.tc : Thread nD τ).loc main_arg1)) := by
  have h0 := B3_e3 m c
  dsimp only [B4, ops4]
  fold_results [h0]
  all_goals rfl
theorem B4_e7 : B4 m c (Proc.devRef .tc main_v7) = edgeWeight (m ((c.tc : Thread nD τ).loc main_arg2)) := by
  have h0 := B3_e7 m c
  dsimp only [B4, ops4]
  fold_results [h0]
  all_goals rfl
/-- The first layer's output. -/
theorem B5_h1 : B5 m c (Proc.devRef .tc main_v55) = (Cert.Net.hidden1 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) := by
  have h0 := B4_pre m c
  dsimp only [B5, ops5]
  fold_results [h0, Cert.Lib.HostLine.ofBuf_toBuf, ofBuf_v54, toBuf_v55]
  all_goals rfl
theorem B5_e1 : B5 m c (Proc.devRef .tc main_v1) = edgeSrc (m ((c.tc : Thread nD τ).loc main_arg1)) := by
  have h0 := B4_e1 m c
  dsimp only [B5, ops5]
  fold_results [h0]
  all_goals rfl
theorem B5_e3 : B5 m c (Proc.devRef .tc main_v3) = edgeDst (m ((c.tc : Thread nD τ).loc main_arg1)) := by
  have h0 := B4_e3 m c
  dsimp only [B5, ops5]
  fold_results [h0]
  all_goals rfl
theorem B5_e7 : B5 m c (Proc.devRef .tc main_v7) = edgeWeight (m ((c.tc : Thread nD τ).loc main_arg2)) := by
  have h0 := B4_e7 m c
  dsimp only [B5, ops5]
  fold_results [h0]
  all_goals rfl
theorem B5_arg6 : B5 m c (Proc.devRef .tc main_arg6) = (m ((c.tc : Thread nD τ).loc main_arg6)) := by
  dsimp only [B5, B4, B3, B2, B1, ops1, ops2, ops3, ops4, ops5]
  fold_results
  all_goals rfl

/-! ## The second build of the arcs, and the second product -/

/-- The first layer's output times the second weights. -/
theorem B6_g : B6 m c (Proc.devRef .tc main_v56) = (Host.dotGeneral (F := Ideal) (φ₁ := .f32) (φ₂ := .f32) dot_S100000x64_S64x64_S100000x64_1_0_0_1_n_n none (Cert.Net.hidden1 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6))) := by
  have h0 := B5_h1 m c
  have h1 := B5_arg6 m c
  dsimp only [B6, ops6]
  fold_results [h0, h1]
  all_goals rfl
/-- The arcs' sources, again. -/
theorem B6_src : B6 m c (Proc.devRef .tc main_v58) = Cert.Net.srcOf (F := Ideal) (m ((c.tc : Thread nD τ).loc main_arg1)) := by
  have h0 := B5_e1 m c
  dsimp only [B6, ops6]
  fold_results [h0]
  all_goals rfl
/-- The arcs' targets, again. -/
theorem B6_dst : B6 m c (Proc.devRef .tc main_v59) = Cert.Net.dstOf (F := Ideal) (m ((c.tc : Thread nD τ).loc main_arg1)) := by
  have h0 := B5_e3 m c
  dsimp only [B6, ops6]
  fold_results [h0]
  all_goals rfl
/-- The arcs' weights, again. -/
theorem B6_w : B6 m c (Proc.devRef .tc main_v61) = Cert.Net.weightOf (F := Ideal) (m ((c.tc : Thread nD τ).loc main_arg2)) := by
  have h0 := B5_e7 m c
  dsimp only [B6, ops6]
  fold_results [h0]
  all_goals rfl
/-- Where the degree is positive, again. -/
theorem B6_gt : B6 m c (Proc.devRef .tc main_v66) = cmpf .ogt (Cert.Net.degOf (F := Ideal) (m ((c.tc : Thread nD τ).loc main_arg1)) (m ((c.tc : Thread nD τ).loc main_arg2))) (broadcastInDim S100000 ![] bcast_S_S100000 (constant (F := Ideal) S_ .f32 0x00000000#32)) := by
  have h0 := B5_e3 m c
  have h1 := B5_e7 m c
  dsimp only [B6, ops6]
  fold_results [h0, h1]
  all_goals rfl
/-- The reciprocal square root of the degree, floored, again. -/
theorem B6_rs : B6 m c (Proc.devRef .tc main_v69) = Host.rsqrt (maximumf (Cert.Net.degOf (F := Ideal) (m ((c.tc : Thread nD τ).loc main_arg1)) (m ((c.tc : Thread nD τ).loc main_arg2))) (broadcastInDim S100000 ![] bcast_S_S100000 (constant (F := Ideal) S_ .f32 0x0DA24260#32))) := by
  have h0 := B5_e3 m c
  have h1 := B5_e7 m c
  dsimp only [B6, ops6]
  fold_results [h0, h1]
  all_goals rfl
/-- The scalar zero the selection falls back to, again. -/
theorem B6_cst16 : B6 m c (Proc.devRef .tc main_cst_16) = (constant (F := Ideal) S_ .f32 0x00000000#32) := by
  dsimp only [B6, ops6]
  fold_results []
  all_goals rfl
/-- dinv, again. -/
theorem B7_dinv : B7 m c (Proc.devRef .tc main_v70) = Cert.Net.dinvOf (F := Ideal) (m ((c.tc : Thread nD τ).loc main_arg1)) (m ((c.tc : Thread nD τ).loc main_arg2)) := by
  have h0 := B6_gt m c
  have h1 := B6_rs m c
  have h2 := B6_cst16 m c
  dsimp only [B7, ops7]
  fold_results [h0, h1, h2, Cert.Lib.HostLine.ofBuf_toBuf, ofBuf_v66, ofBuf_v69, ofBuf_cst_16, toBuf_v70]
  all_goals rfl
theorem B7_src : B7 m c (Proc.devRef .tc main_v58) = Cert.Net.srcOf (F := Ideal) (m ((c.tc : Thread nD τ).loc main_arg1)) := by
  have h0 := B6_src m c
  dsimp only [B7, ops7]
  fold_results [h0]
  all_goals rfl
theorem B7_dst : B7 m c (Proc.devRef .tc main_v59) = Cert.Net.dstOf (F := Ideal) (m ((c.tc : Thread nD τ).loc main_arg1)) := by
  have h0 := B6_dst m c
  dsimp only [B7, ops7]
  fold_results [h0]
  all_goals rfl
theorem B7_w : B7 m c (Proc.devRef .tc main_v61) = Cert.Net.weightOf (F := Ideal) (m ((c.tc : Thread nD τ).loc main_arg2)) := by
  have h0 := B6_w m c
  dsimp only [B7, ops7]
  fold_results [h0]
  all_goals rfl
theorem B7_g : B7 m c (Proc.devRef .tc main_v56) = (Host.dotGeneral (F := Ideal) (φ₁ := .f32) (φ₂ := .f32) dot_S100000x64_S64x64_S100000x64_1_0_0_1_n_n none (Cert.Net.hidden1 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6))) := by
  have h0 := B6_g m c
  dsimp only [B7, ops7]
  fold_results [h0]
  all_goals rfl
/-- The arcs' coefficients, again. -/
theorem B8_coef : B8 m c (Proc.devRef .tc main_v86) = Cert.Net.coefOf (F := Ideal) (m ((c.tc : Thread nD τ).loc main_arg1)) (m ((c.tc : Thread nD τ).loc main_arg2)) := by
  have h0 := B7_dinv m c
  have h1 := B7_src m c
  have h2 := B7_dst m c
  have h3 := B7_w m c
  dsimp only [B8, ops8]
  fold_results [h0, h1, h2, h3]
  all_goals rfl
theorem B8_src : B8 m c (Proc.devRef .tc main_v58) = Cert.Net.srcOf (F := Ideal) (m ((c.tc : Thread nD τ).loc main_arg1)) := by
  have h0 := B7_src m c
  dsimp only [B8, ops8]
  fold_results [h0]
  all_goals rfl
theorem B8_dst : B8 m c (Proc.devRef .tc main_v59) = Cert.Net.dstOf (F := Ideal) (m ((c.tc : Thread nD τ).loc main_arg1)) := by
  have h0 := B7_dst m c
  dsimp only [B8, ops8]
  fold_results [h0]
  all_goals rfl
theorem B8_g : B8 m c (Proc.devRef .tc main_v56) = (Host.dotGeneral (F := Ideal) (φ₁ := .f32) (φ₂ := .f32) dot_S100000x64_S64x64_S100000x64_1_0_0_1_n_n none (Cert.Net.hidden1 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6))) := by
  have h0 := B7_g m c
  dsimp only [B8, ops8]
  fold_results [h0]
  all_goals rfl
theorem B8_arg7 : B8 m c (Proc.devRef .tc main_arg7) = (m ((c.tc : Thread nD τ).loc main_arg7)) := by
  dsimp only [B8, B7, B6, B5, B4, B3, B2, B1, ops1, ops2, ops3, ops4, ops5, ops6, ops7, ops8]
  fold_results
  all_goals rfl

/-! ## The second layer and the head -/

/-- The second layer before its negative part is dropped. -/
theorem B9_pre : B9 m c (Proc.devRef .tc main_v102) = Cert.Net.preact (F := Ideal) (Host.dotGeneral (F := Ideal) (φ₁ := .f32) (φ₂ := .f32) dot_S100000x64_S64x64_S100000x64_1_0_0_1_n_n none (Cert.Net.hidden1 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg6))) (m ((c.tc : Thread nD τ).loc main_arg7)) (m ((c.tc : Thread nD τ).loc main_arg1)) (m ((c.tc : Thread nD τ).loc main_arg2)) := by
  have h0 := B8_g m c
  have h1 := B8_coef m c
  have h2 := B8_src m c
  have h3 := B8_dst m c
  have h4 := B8_arg7 m c
  dsimp only [B9, ops9]
  fold_results [h0, h1, h2, h3, h4]
  all_goals rfl
/-- The second layer's output. -/
theorem B10_h2 : B10 m c (Proc.devRef .tc main_v103) = (Cert.Net.hidden2 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) := by
  have h0 := B9_pre m c
  dsimp only [B10, ops10]
  fold_results [h0, Cert.Lib.HostLine.ofBuf_toBuf, ofBuf_v102, toBuf_v103]
  all_goals rfl
theorem B10_arg3 : B10 m c (Proc.devRef .tc main_arg3) = (m ((c.tc : Thread nD τ).loc main_arg3)) := by
  dsimp only [B10, B9, B8, B7, B6, B5, B4, B3, B2, B1, ops1, ops2, ops3, ops4, ops5, ops6, ops7, ops8, ops9, ops10]
  fold_results
  all_goals rfl
theorem B10_arg8 : B10 m c (Proc.devRef .tc main_arg8) = (m ((c.tc : Thread nD τ).loc main_arg8)) := by
  dsimp only [B10, B9, B8, B7, B6, B5, B4, B3, B2, B1, ops1, ops2, ops3, ops4, ops5, ops6, ops7, ops8, ops9, ops10]
  fold_results
  all_goals rfl
theorem B10_arg9 : B10 m c (Proc.devRef .tc main_arg9) = (m ((c.tc : Thread nD τ).loc main_arg9)) := by
  dsimp only [B10, B9, B8, B7, B6, B5, B4, B3, B2, B1, ops1, ops2, ops3, ops4, ops5, ops6, ops7, ops8, ops9, ops10]
  fold_results
  all_goals rfl
theorem B10_arg10 : B10 m c (Proc.devRef .tc main_arg10) = (m ((c.tc : Thread nD τ).loc main_arg10)) := by
  dsimp only [B10, B9, B8, B7, B6, B5, B4, B3, B2, B1, ops1, ops2, ops3, ops4, ops5, ops6, ops7, ops8, ops9, ops10]
  fold_results
  all_goals rfl
theorem B10_arg11 : B10 m c (Proc.devRef .tc main_arg11) = (m ((c.tc : Thread nD τ).loc main_arg11)) := by
  dsimp only [B10, B9, B8, B7, B6, B5, B4, B3, B2, B1, ops1, ops2, ops3, ops4, ops5, ops6, ops7, ops8, ops9, ops10]
  fold_results
  all_goals rfl
/-- The reference's result is the network of its twelve arguments. -/
theorem B11_out : B11 m c (Proc.devRef .tc main_v112) = Cert.Net.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h0 := B10_h2 m c
  have h1 := B10_arg8 m c
  have h2 := B10_arg9 m c
  have h3 := B10_arg3 m c
  have h4 := B10_arg10 m c
  have h5 := B10_arg11 m c
  dsimp only [B11, ops11]
  fold_results [h0, h1, h2, h3, h4, h5]
  all_goals rfl

end Cert.ReferenceIdeal.Chain

end
-- ==== Proof.RefArgs.lean ====
import proofs.«144980_j6090263625952_1_alg».proof.Proof.RefRun
import proofs.«144980_j6090263625952_1_alg».proof.Proof.LibJoinFold
import Idealize.ShloMosaic.PureOps.Ideal

/-!
  The reference program never writes an argument's buffer: after its whole line each of the twelve argument buffers
  holds what it held at launch. Every operation of the line writes a buffer other than the argument's, so the fold of
  the line at that buffer is the launch contents.
-/

set_option maxRecDepth 16384

noncomputable section

namespace Cert.ReferenceIdeal.Chain

open Cert.ReferenceIdeal Cert.ReferenceIdeal.Gen Cert.ReferenceIdeal.Line Idealize.ShloMosaic Idealize.ShloMosaic.TcCoe Idealize.SL.Sem Idealize.ShloMosaic.StableHlo Idealize.ShloMosaic.JoinFold

variable (m : (ℓ : Loc nD τ sig) → Buf (Elt Ideal) ℓ) (c : Dev nD)

/-- Argument 0 is kept. -/
theorem B11_arg0 : B11 m c (Proc.devRef .tc main_arg0) = (m ((c.tc : Thread nD τ).loc main_arg0)) := by
  dsimp only [B11, B10, B9, B8, B7, B6, B5, B4, B3, B2, B1, ops1, ops2, ops3, ops4, ops5, ops6, ops7, ops8, ops9, ops10, ops11]
  fold_results
  all_goals rfl

/-- Argument 1 is kept. -/
theorem B11_arg1 : B11 m c (Proc.devRef .tc main_arg1) = (m ((c.tc : Thread nD τ).loc main_arg1)) := by
  dsimp only [B11, B10, B9, B8, B7, B6, B5, B4, B3, B2, B1, ops1, ops2, ops3, ops4, ops5, ops6, ops7, ops8, ops9, ops10, ops11]
  fold_results
  all_goals rfl

/-- Argument 2 is kept. -/
theorem B11_arg2 : B11 m c (Proc.devRef .tc main_arg2) = (m ((c.tc : Thread nD τ).loc main_arg2)) := by
  dsimp only [B11, B10, B9, B8, B7, B6, B5, B4, B3, B2, B1, ops1, ops2, ops3, ops4, ops5, ops6, ops7, ops8, ops9, ops10, ops11]
  fold_results
  all_goals rfl

/-- Argument 3 is kept. -/
theorem B11_arg3 : B11 m c (Proc.devRef .tc main_arg3) = (m ((c.tc : Thread nD τ).loc main_arg3)) := by
  dsimp only [B11, B10, B9, B8, B7, B6, B5, B4, B3, B2, B1, ops1, ops2, ops3, ops4, ops5, ops6, ops7, ops8, ops9, ops10, ops11]
  fold_results
  all_goals rfl

/-- Argument 4 is kept. -/
theorem B11_arg4 : B11 m c (Proc.devRef .tc main_arg4) = (m ((c.tc : Thread nD τ).loc main_arg4)) := by
  dsimp only [B11, B10, B9, B8, B7, B6, B5, B4, B3, B2, B1, ops1, ops2, ops3, ops4, ops5, ops6, ops7, ops8, ops9, ops10, ops11]
  fold_results
  all_goals rfl

/-- Argument 5 is kept. -/
theorem B11_arg5 : B11 m c (Proc.devRef .tc main_arg5) = (m ((c.tc : Thread nD τ).loc main_arg5)) := by
  dsimp only [B11, B10, B9, B8, B7, B6, B5, B4, B3, B2, B1, ops1, ops2, ops3, ops4, ops5, ops6, ops7, ops8, ops9, ops10, ops11]
  fold_results
  all_goals rfl

/-- Argument 6 is kept. -/
theorem B11_arg6 : B11 m c (Proc.devRef .tc main_arg6) = (m ((c.tc : Thread nD τ).loc main_arg6)) := by
  dsimp only [B11, B10, B9, B8, B7, B6, B5, B4, B3, B2, B1, ops1, ops2, ops3, ops4, ops5, ops6, ops7, ops8, ops9, ops10, ops11]
  fold_results
  all_goals rfl

/-- Argument 7 is kept. -/
theorem B11_arg7 : B11 m c (Proc.devRef .tc main_arg7) = (m ((c.tc : Thread nD τ).loc main_arg7)) := by
  dsimp only [B11, B10, B9, B8, B7, B6, B5, B4, B3, B2, B1, ops1, ops2, ops3, ops4, ops5, ops6, ops7, ops8, ops9, ops10, ops11]
  fold_results
  all_goals rfl

/-- Argument 8 is kept. -/
theorem B11_arg8 : B11 m c (Proc.devRef .tc main_arg8) = (m ((c.tc : Thread nD τ).loc main_arg8)) := by
  dsimp only [B11, B10, B9, B8, B7, B6, B5, B4, B3, B2, B1, ops1, ops2, ops3, ops4, ops5, ops6, ops7, ops8, ops9, ops10, ops11]
  fold_results
  all_goals rfl

/-- Argument 9 is kept. -/
theorem B11_arg9 : B11 m c (Proc.devRef .tc main_arg9) = (m ((c.tc : Thread nD τ).loc main_arg9)) := by
  dsimp only [B11, B10, B9, B8, B7, B6, B5, B4, B3, B2, B1, ops1, ops2, ops3, ops4, ops5, ops6, ops7, ops8, ops9, ops10, ops11]
  fold_results
  all_goals rfl

/-- Argument 10 is kept. -/
theorem B11_arg10 : B11 m c (Proc.devRef .tc main_arg10) = (m ((c.tc : Thread nD τ).loc main_arg10)) := by
  dsimp only [B11, B10, B9, B8, B7, B6, B5, B4, B3, B2, B1, ops1, ops2, ops3, ops4, ops5, ops6, ops7, ops8, ops9, ops10, ops11]
  fold_results
  all_goals rfl

/-- Argument 11 is kept. -/
theorem B11_arg11 : B11 m c (Proc.devRef .tc main_arg11) = (m ((c.tc : Thread nD τ).loc main_arg11)) := by
  dsimp only [B11, B10, B9, B8, B7, B6, B5, B4, B3, B2, B1, ops1, ops2, ops3, ops4, ops5, ops6, ops7, ops8, ops9, ops10, ops11]
  fold_results
  all_goals rfl

end Cert.ReferenceIdeal.Chain

end
-- ==== Proof.lean ====
import proofs.«144980_j6090263625952_1_alg».proof.Defs
import proofs.«144980_j6090263625952_1_alg».proof.Proof.Gen.Kernel
import proofs.«144980_j6090263625952_1_alg».proof.Proof.Gen.Kernel.Skeleton
import proofs.«144980_j6090263625952_1_alg».proof.Proof.Gen.Kernel.Launch
import proofs.«144980_j6090263625952_1_alg».proof.Proof.Gen.Kernel.Points
import proofs.«144980_j6090263625952_1_alg».proof.Proof.Gen.Kernel.Frame
import proofs.«144980_j6090263625952_1_alg».proof.Proof.Gen.KernelIdeal
import proofs.«144980_j6090263625952_1_alg».proof.Proof.Gen.KernelIdeal.Skeleton
import proofs.«144980_j6090263625952_1_alg».proof.Proof.Gen.KernelIdeal.Launch
import proofs.«144980_j6090263625952_1_alg».proof.Proof.Gen.KernelIdeal.Points
import proofs.«144980_j6090263625952_1_alg».proof.Proof.Gen.KernelIdeal.Frame
import proofs.«144980_j6090263625952_1_alg».proof.Proof.Gen.ReferenceIdeal
import proofs.«144980_j6090263625952_1_alg».proof.Proof.Gen.Pre_finite_inputs
import proofs.«144980_j6090263625952_1_alg».proof.Proof.KernelRun
import proofs.«144980_j6090263625952_1_alg».proof.Proof.HostChain
import proofs.«144980_j6090263625952_1_alg».proof.Proof.RefRun
import proofs.«144980_j6090263625952_1_alg».proof.Proof.RefChain
import proofs.«144980_j6090263625952_1_alg».proof.Proof.RefArgs
import Idealize.ShloMosaic.Adequacy
import Idealize.ShloMosaic.Init

/-!
  A two-layer graph network with a linear head, as a kernel program and as a reference program.

  Both programs compute one function of twelve argument arrays (Cert.Net.net): node features times the first weights,
  carried along the weighted arcs of the graph with symmetric degree normalisation, summed at the targets, bias added,
  negative part dropped; the same again with the second weights; then an embedding, joined with side features, times the
  head's weights, plus its bias. The kernel program does the four dense products in row-tiled regions — each a
  product into a zero accumulator plus a bias row, the head as two products with the upper and the lower rows of its
  weights — and everything between them in host operations; the reference does everything in host operations, with one
  product of the joined features for the head. At the extended reals a product into a zero accumulator is the plain
  product, a zero bias row adds nothing, and the sum over the joined columns splits into the sums over the two pieces:
  no finiteness is needed, so the precondition is never opened.

  The three frames: the two kernel programs' frames are their region-by-region runs; the reference's is its straight
  line run with the argument buffers read off the final contents. The equivalence: both runs end with the result buffer
  at Cert.Net.net of their own arguments, and the arguments agree.
-/

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono
      (fun _ h c =>
       ⟨(h c Cert.ReferenceIdeal.main_arg0).trans (Cert.ReferenceIdeal.Chain.B11_arg0 m c),
        (h c Cert.ReferenceIdeal.main_arg1).trans (Cert.ReferenceIdeal.Chain.B11_arg1 m c),
        (h c Cert.ReferenceIdeal.main_arg2).trans (Cert.ReferenceIdeal.Chain.B11_arg2 m c),
        (h c Cert.ReferenceIdeal.main_arg3).trans (Cert.ReferenceIdeal.Chain.B11_arg3 m c),
        (h c Cert.ReferenceIdeal.main_arg4).trans (Cert.ReferenceIdeal.Chain.B11_arg4 m c),
        (h c Cert.ReferenceIdeal.main_arg5).trans (Cert.ReferenceIdeal.Chain.B11_arg5 m c),
        (h c Cert.ReferenceIdeal.main_arg6).trans (Cert.ReferenceIdeal.Chain.B11_arg6 m c),
        (h c Cert.ReferenceIdeal.main_arg7).trans (Cert.ReferenceIdeal.Chain.B11_arg7 m c),
        (h c Cert.ReferenceIdeal.main_arg8).trans (Cert.ReferenceIdeal.Chain.B11_arg8 m c),
        (h c Cert.ReferenceIdeal.main_arg9).trans (Cert.ReferenceIdeal.Chain.B11_arg9 m c),
        (h c Cert.ReferenceIdeal.main_arg10).trans (Cert.ReferenceIdeal.Chain.B11_arg10 m c),
        (h c Cert.ReferenceIdeal.main_arg11).trans (Cert.ReferenceIdeal.Chain.B11_arg11 m c)⟩)
      (Cert.ReferenceIdeal.Line.run (F := Ideal) m ρ),
  trivial,
  fun m ρ m' ρ' _ hagree =>
    ⟨fun c => Cert.Net.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
     (θ_run Cert.KernelIdeal.defs _ _).mono
       (fun _ h c => ⟨(h c).1.trans (Cert.KernelIdeal.HostChain.W14_out m ρ c), (h c).2⟩)
       (Cert.KernelIdeal.Gen.run_named m ρ),
     (θ_run Cert.ReferenceIdeal.defs _ _).mono
       (fun _ h c =>
        ⟨(h c Cert.ReferenceIdeal.main_v112).trans ((Cert.ReferenceIdeal.Chain.B11_out m' c).trans (by
            have e := hagree c
            rw [e.1, e.2.1, e.2.2.1, e.2.2.2.1, e.2.2.2.2.1, e.2.2.2.2.2.1, e.2.2.2.2.2.2.1, e.2.2.2.2.2.2.2.1, e.2.2.2.2.2.2.2.2.1, e.2.2.2.2.2.2.2.2.2.1, e.2.2.2.2.2.2.2.2.2.2.1, e.2.2.2.2.2.2.2.2.2.2.2])),
        (h c Cert.ReferenceIdeal.main_arg0).trans (Cert.ReferenceIdeal.Chain.B11_arg0 m' c),
        (h c Cert.ReferenceIdeal.main_arg1).trans (Cert.ReferenceIdeal.Chain.B11_arg1 m' c),
        (h c Cert.ReferenceIdeal.main_arg2).trans (Cert.ReferenceIdeal.Chain.B11_arg2 m' c),
        (h c Cert.ReferenceIdeal.main_arg3).trans (Cert.ReferenceIdeal.Chain.B11_arg3 m' c),
        (h c Cert.ReferenceIdeal.main_arg4).trans (Cert.ReferenceIdeal.Chain.B11_arg4 m' c),
        (h c Cert.ReferenceIdeal.main_arg5).trans (Cert.ReferenceIdeal.Chain.B11_arg5 m' c),
        (h c Cert.ReferenceIdeal.main_arg6).trans (Cert.ReferenceIdeal.Chain.B11_arg6 m' c),
        (h c Cert.ReferenceIdeal.main_arg7).trans (Cert.ReferenceIdeal.Chain.B11_arg7 m' c),
        (h c Cert.ReferenceIdeal.main_arg8).trans (Cert.ReferenceIdeal.Chain.B11_arg8 m' c),
        (h c Cert.ReferenceIdeal.main_arg9).trans (Cert.ReferenceIdeal.Chain.B11_arg9 m' c),
        (h c Cert.ReferenceIdeal.main_arg10).trans (Cert.ReferenceIdeal.Chain.B11_arg10 m' c),
        (h c Cert.ReferenceIdeal.main_arg11).trans (Cert.ReferenceIdeal.Chain.B11_arg11 m' c)⟩)
       (Cert.ReferenceIdeal.Line.run (F := Ideal) m' ρ')⟩⟩

end Cert.Proof

end
